-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_v19) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S4096x256 : Shape := ⟨2, ![4096, 256]⟩
abbrev S256x256 : Shape := ⟨2, ![256, 256]⟩
abbrev S256x128 : Shape := ⟨2, ![256, 128]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S4096x256 : S_.BroadcastsInDim S4096x256 (![] : Fin 0 → Fin S4096x256.rank)
  reducesTo_S4096x256_S_d0_1 : S4096x256.ReducesTo [0, 1] S_
  bcast_S_S256x256 : S_.BroadcastsInDim S256x256 (![] : Fin 0 → Fin S256x256.rank)
  reducesTo_S256x256_S_d0_1 : S256x256.ReducesTo [0, 1] S_
  bcast_S_S256x128 : S_.BroadcastsInDim S256x128 (![] : Fin 0 → Fin S256x128.rank)
  reducesTo_S256x128_S_d0_1 : S256x128.ReducesTo [0, 1] S_

variable [Facts]

def fn_part1 {F : FTy → Type} [FloatOps F] (main_arg4 : FVec F S256x128 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S256x128 .f32 := Host.absf main_arg4
  let main_cst_6 : FVec F S_ .f32 := constant S_ .f32 0x7F800000#32
  let main_v20 : FVec F S256x128 .f32 := broadcastInDim S256x128 ![] bcast_S_S256x128 main_cst_6
  let main_v21 : IVec S256x128 1 := cmpf .olt main_v19 main_v20
  let main_c_7 : IVec S_ 1 := constantI S_ 1 1#1
  let main_v22 : IVec S_ 1 := (fun x v => Host.reduce IntOp.andi x v reducesTo_S256x128_S_d0_1 h_S_) main_v21 main_c_7
  let main_v23 : IVec S_ 1 := andi main_v18 main_v22
  main_v23

def fn {F : FTy → Type} [FloatOps F] (main_arg0 : FVec F S4096x4096 .f32) (main_arg1 : FVec F S4096x256 .f32) (main_arg2 : FVec F S256x256 .f32) (main_arg3 : FVec F S256x128 .f32) (main_arg4 : FVec F S256x128 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S4096x256 .f32 := Host.absf main_arg1
  let main_cst_0 : FVec F S_ .f32 := constant S_ .f32 0x7F800000#32
  let main_v5 : FVec F S4096x256 .f32 := broadcastInDim S4096x256 ![] bcast_S_S4096x256 main_cst_0
  let main_v6 : IVec S4096x256 1 := cmpf .olt main_v4 main_v5
  let main_c_1 : IVec S_ 1 := constantI S_ 1 1#1
  let main_v7 : IVec S_ 1 := (fun x v => Host.reduce IntOp.andi x v reducesTo_S4096x256_S_d0_1 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256x128 .f32 := Host.absf main_arg3
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg4 main_v13 main_v16
-- ==== Kernel.lean ====
abbrev S4096x4096 : Shape := ⟨2, ![4096, 4096]⟩
abbrev S4096x256 : Shape := ⟨2, ![4096, 256]⟩
abbrev S256x256 : Shape := ⟨2, ![256, 256]⟩
abbrev S256x128 : Shape := ⟨2, ![256, 128]⟩
abbrev S4096x128 : Shape := ⟨2, ![4096, 128]⟩
abbrev S512x4096 : Shape := ⟨2, ![512, 4096]⟩
abbrev S1024x128 : Shape := ⟨2, ![1024, 128]⟩
abbrev S4096 : Shape := ⟨1, ![4096]⟩
abbrev S512 : Shape := ⟨1, ![512]⟩
abbrev S512x1 : Shape := ⟨2, ![512, 1]⟩
abbrev S4096x1 : Shape := ⟨2, ![4096, 1]⟩
abbrev S1024x4096 : Shape := ⟨2, ![1024, 4096]⟩
abbrev S1024x256 : Shape := ⟨2, ![1024, 256]⟩
abbrev S1024 : Shape := ⟨1, ![1024]⟩
abbrev S1024x1 : Shape := ⟨2, ![1024, 1]⟩

abbrev nBuf : Space → Nat
  | .hbm => 10
  | .vmem => 13
  | .smem => 0
  | _ => 0

abbrev bufTy : (tb : Table) → Fin (tcTables nBuf tb) → BufTy
  | .hbm, ⟨0, _⟩ => ⟨S4096x4096, .f32⟩
  | .hbm, ⟨1, _⟩ => ⟨S4096x256, .f32⟩
  | .hbm, ⟨2, _⟩ => ⟨S256x256, .f32⟩
  | .hbm, ⟨3, _⟩ => ⟨S256x128, .f32⟩
  | .hbm, ⟨4, _⟩ => ⟨S256x128, .f32⟩
  | .hbm, ⟨5, _⟩ => ⟨S4096x256, .bf16⟩
  | .hbm, ⟨6, _⟩ => ⟨S256x256, .f32⟩
  | .hbm, ⟨7, _⟩ => ⟨S256x256, .bf16⟩
  | .hbm, ⟨8, _⟩ => ⟨S4096x128, .f32⟩
  | .hbm, ⟨9, _⟩ => ⟨S4096x128, .f32⟩
  | .local _ .vmem, ⟨0, _⟩ => ⟨S512x4096, .f32⟩
  | .local _ .vmem, ⟨1, _⟩ => ⟨S512x4096, .f32⟩
  | .local _ .vmem, ⟨2, _⟩ => ⟨S4096x256, .bf16⟩
  | .local _ .vmem, ⟨3, _⟩ => ⟨S256x256, .f32⟩
  | .local _ .vmem, ⟨4, _⟩ => ⟨S256x256, .bf16⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S4096x4096, .bf16⟩
  | .local _ .vmem, ⟨10, _⟩ => ⟨S4096, .f32⟩
  | .local _ .vmem, ⟨11, _⟩ => ⟨S4096x256, .bf16⟩
  | .local _ .vmem, ⟨12, _⟩ => ⟨S4096x256, .bf16⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_scratch3 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c8_i32 : BitVec 32 := 8#32
  let v0 : BitVec 1 := Scalar.cmpi .slt arg0 c8_i32
  let v1 : BitVec 32 := Scalar.extui v0
  let c0_i32 : BitVec 32 := 0#32
  let v2 : BitVec 1 := Scalar.cmpi .ne v1 c0_i32
  v2

def k0_off1 (i : grid0.Coords) : Fin 1 → Nat :=
  let arg0 : BitVec 32 := BitVec.ofNat 32 (i 0).val
  let c512_i32 : BitVec 32 := 512#32
  let v17 : BitVec 32 := Scalar.muli arg0 c512_i32
  let v26 : Index := Scalar.indexCast v17
  ![v26.toNat]
def k0_off2 (i : grid0.Coords) : Fin 2 → Nat :=
  let arg0 : BitVec 32 := BitVec.ofNat 32 (i 0).val
  let c512_i32 : BitVec 32 := 512#32
  let v17 : BitVec 32 := Scalar.muli arg0 c512_i32
  let v31 : Index := Scalar.indexCast v17
  let c0_9 : Index := 0#32
  ![v31.toNat, 0]
def k0_cond3 (i : grid0.Coords) : BitVec 1 :=
  let arg0 : BitVec 32 := BitVec.ofNat 32 (i 0).val
  let c8_i32_1 : BitVec 32 := 8#32
  let v6 : BitVec 1 := Scalar.cmpi .sge arg0 c8_i32_1
  let c12_i32 : BitVec 32 := 12#32
  let v7 : BitVec 1 := Scalar.cmpi .slt arg0 c12_i32
  let v8 : BitVec 1 := Scalar.andi v6 v7
  let v9 : BitVec 32 := Scalar.extui v8
  let c0_i32_2 : BitVec 32 := 0#32
  let v10 : BitVec 1 := Scalar.cmpi .ne v9 c0_i32_2
  v10

def k0_off3 (i : grid0.Coords) : Fin 2 → Nat :=
  let arg0 : BitVec 32 := BitVec.ofNat 32 (i 0).val
  let c8_i32_5 : BitVec 32 := 8#32
  let v14 : BitVec 32 := Scalar.subi arg0 c8_i32_5
  let c1024_i32 : BitVec 32 := 1024#32
  let v15 : BitVec 32 := Scalar.muli v14 c1024_i32
  let v16 : Index := Scalar.indexCast v15
  let c0 : Index := 0#32
  ![v16.toNat, 0]
def k0_off4 (i : grid0.Coords) : Fin 1 → Nat :=
  let arg0 : BitVec 32 := BitVec.ofNat 32 (i 0).val
  let c8_i32_5 : BitVec 32 := 8#32
  let v14 : BitVec 32 := Scalar.subi arg0 c8_i32_5
  let c1024_i32 : BitVec 32 := 1024#32
  let v15 : BitVec 32 := Scalar.muli v14 c1024_i32
  let v20 : Index := Scalar.indexCast v15
  ![v20.toNat]
def k0_off5 (i : grid0.Coords) : Fin 2 → Nat :=
  let arg0 : BitVec 32 := BitVec.ofNat 32 (i 0).val
  let c8_i32_5 : BitVec 32 := 8#32
  let v14 : BitVec 32 := Scalar.subi arg0 c8_i32_5
  let c1024_i32 : BitVec 32 := 1024#32
  let v15 : BitVec 32 := Scalar.muli v14 c1024_i32
  let v34 : Index := Scalar.indexCast v15
  let c0_12 : Index := 0#32
  ![v34.toNat, 0]
def k0_cond4 (i : grid0.Coords) : BitVec 1 :=
  let arg0 : BitVec 32 := BitVec.ofNat 32 (i 0).val
  let c12_i32_3 : BitVec 32 := 12#32
  let v11 : BitVec 1 := Scalar.cmpi .sge arg0 c12_i32_3
  let v12 : BitVec 32 := Scalar.extui v11
  let c0_i32_4 : BitVec 32 := 0#32
  let v13 : BitVec 1 := Scalar.cmpi .ne v12 c0_i32_4
  v13

def k0_off6 (i : grid0.Coords) : Fin 2 → Nat :=
  let arg0 : BitVec 32 := BitVec.ofNat 32 (i 0).val
  let c8_i32_5 : BitVec 32 := 8#32
  let v14 : BitVec 32 := Scalar.subi arg0 c8_i32_5
  let c4_i32 : BitVec 32 := 4#32
  let v15 : BitVec 32 := Scalar.subi v14 c4_i32
  let c1024_i32 : BitVec 32 := 1024#32
  let v16 : BitVec 32 := Scalar.muli v15 c1024_i32
  let v17 : Index := Scalar.indexCast v16
  let c0 : Index := 0#32
  ![v17.toNat, 0]
def k0_off7 (i : grid0.Coords) : Fin 1 → Nat :=
  let arg0 : BitVec 32 := BitVec.ofNat 32 (i 0).val
  let c8_i32_5 : BitVec 32 := 8#32
  let v14 : BitVec 32 := Scalar.subi arg0 c8_i32_5
  let c4_i32 : BitVec 32 := 4#32
  let v15 : BitVec 32 := Scalar.subi v14 c4_i32
  let c1024_i32 : BitVec 32 := 1024#32
  let v16 : BitVec 32 := Scalar.muli v15 c1024_i32
  let v21 : Index := Scalar.indexCast v16
  ![v21.toNat]
def cc0_transform_0 (i : grid0.Coords) : Fin 2 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c8_i32 : BitVec 32 := 8#32
  let v0 : BitVec 32 := Scalar.subi arg0 c8_i32
  let c4_i32 : BitVec 32 := 4#32
  let v1 : BitVec 32 := Scalar.subi v0 c4_i32
  let c0_i32 : BitVec 32 := 0#32
  let c3_i32 : BitVec 32 := 3#32
  let v2 : BitVec 32 := Scalar.maxsi c0_i32 v1
  let v3 : BitVec 32 := Scalar.minsi c3_i32 v2
  let c0_i32_0 : BitVec 32 := 0#32
  let c0_i32_1 : BitVec 32 := 0#32
  ![v3.toNat, c0_i32_0.toNat]

def cc0_transform_5 (i : grid0.Coords) : Fin 2 → Nat :=
  let arg0 : BitVec 32 := BitVec.ofNat 32 (i 0).val
  let c8_i32 : BitVec 32 := 8#32
  let v0 : BitVec 32 := Scalar.subi arg0 c8_i32
  let c4_i32 : BitVec 32 := 4#32
  let v1 : BitVec 32 := Scalar.subi v0 c4_i32
  let c0_i32 : BitVec 32 := 0#32
  let c3_i32 : BitVec 32 := 3#32
  let v2 : BitVec 32 := Scalar.maxsi c0_i32 v1
  let v3 : BitVec 32 := Scalar.minsi c3_i32 v2
  let c0_i32_0 : BitVec 32 := 0#32
  let c0_i32_1 : BitVec 32 := 0#32
  ![v3.toNat, c0_i32_0.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bitsLt_bf16_f32 : FTy.bits .bf16 < FTy.bits .f32
  concatenates_S256x128_S256x128_S256x256_d1 : Shape.Concatenates [S256x128, S256x128] S256x256 1
  inb_S512x4096_S512x4096_0_0 : ∀ a, (![0, 0] : Fin 2 → Nat) a + S512x4096.size a ≤ S512x4096.size a
  h_S512x4096 : 0 < S512x4096.numel
  reduces_S512x4096_S512 : S512x4096.Reduces [1] S512
  shapeCasts_S512_S512x1 : S512.ShapeCasts S512x1
  shapeCasts_S512x1_S512 : S512x1.ShapeCasts S512
  h_S512 : 0 < S512.numel
  shapeCasts_S512_S512 : S512.ShapeCasts S512
  shapeCasts_S512x4096_S512x4096 : S512x4096.ShapeCasts S512x4096
  inb_S4096x256_S4096x256_0_0 : ∀ a, (![0, 0] : Fin 2 → Nat) a + S4096x256.size a ≤ S4096x256.size a
  h_S4096x256 : 0 < S4096x256.numel
  shapeCasts_S4096x256_S4096x256 : S4096x256.ShapeCasts S4096x256
  inb_S256x256_S256x256_0_0 : ∀ a, (![0, 0] : Fin 2 → Nat) a + S256x256.size a ≤ S256x256.size a
  h_S256x256 : 0 < S256x256.numel
  inb_S4096_S4096_0 : ∀ a, (![0] : Fin 1 → Nat) a + S4096.size a ≤ S4096.size a
  h_S4096 : 0 < S4096.numel
  shapeCasts_S4096_S4096x1 : S4096.ShapeCasts S4096x1
  broadcasts_S4096x1_S4096x256 : S4096x1.Broadcasts S4096x256
  packedbf16_S4096x256_S4096x256_0_0 : (Rect.unit (s := S4096x256) ![0, 0] S4096x256.size inb_S4096x256_S4096x256_0_0).PackedRows (EltTy.packing .bf16)
  h_S1024x4096 : 0 < S1024x4096.numel
  h_S1024 : 0 < S1024.numel
  shapeCasts_S1024_S1024x1 : S1024.ShapeCasts S1024x1
  broadcasts_S1024x1_S1024x256 : S1024x1.Broadcasts S1024x256
  shapeCasts_S256x256_S256x256 : S256x256.ShapeCasts S256x256
  h_S1024x256 : 0 < S1024x256.numel
  shapeCasts_S1024x256_S1024x256 : S1024x256.ShapeCasts S1024x256
  slices_S1024x256_o0_0_S1024x128 : S1024x256.Slices ![0, 0] S1024x128
  inb_S1024x128_S1024x128_0_0 : ∀ a, (![0, 0] : Fin 2 → Nat) a + S1024x128.size a ≤ S1024x128.size a
  h_S1024x128 : 0 < S1024x128.numel
  slices_S1024x256_o0_128_S1024x128 : S1024x256.Slices ![0, 128] S1024x128
  dot_S4096x256_S256x256_S4096x256_1_0_0_1_n_n_wf : DotDims.WF S4096x256 S256x256 S4096x256 [1] [0] [0] [1] [] []
  dot_S1024x4096_S4096x256_S1024x256_1_0_0_1_n_n_wf : DotDims.WF S1024x4096 S4096x256 S1024x256 [1] [0] [0] [1] [] []
  dot_S1024x256_S256x256_S1024x256_1_0_0_1_n_n_wf : DotDims.WF S1024x256 S256x256 S1024x256 [1] [0] [0] [1] [] []
  hrank0 : 0 < grid0.rank
  k0_off1_inb : ∀ i : grid0.Coords, ∀ (k0_h1 : k0_cond1 i = 1#1), ∀ a, (k0_off1 i) a + S512.size a ≤ S4096.size a
  k0_off2_inb : ∀ i : grid0.Coords, ∀ (k0_h1 : k0_cond1 i = 1#1), ∀ a, (k0_off2 i) a + S512x4096.size a ≤ S4096x4096.size a
  k0_off2_packedbf16 : ∀ i : grid0.Coords, ∀ (k0_h1 : k0_cond1 i = 1#1), (Rect.unit (s := S4096x4096) (k0_off2 i) S512x4096.size (k0_off2_inb i k0_h1)).PackedRows (EltTy.packing .bf16)
  k0_off3_inb : ∀ i : grid0.Coords, ∀ (k0_h3 : k0_cond3 i = 1#1), ∀ a, (k0_off3 i) a + S1024x4096.size a ≤ S4096x4096.size a
  k0_off4_inb : ∀ i : grid0.Coords, ∀ (k0_h3 : k0_cond3 i = 1#1), ∀ a, (k0_off4 i) a + S1024.size a ≤ S4096.size a
  k0_off5_inb : ∀ i : grid0.Coords, ∀ (k0_h3 : k0_cond3 i = 1#1), ∀ a, (k0_off5 i) a + S1024x256.size a ≤ S4096x256.size a
  k0_off5_packedbf16 : ∀ i : grid0.Coords, ∀ (k0_h3 : k0_cond3 i = 1#1), (Rect.unit (s := S4096x256) (k0_off5 i) S1024x256.size (k0_off5_inb i k0_h3)).PackedRows (EltTy.packing .bf16)
  k0_off6_inb : ∀ i : grid0.Coords, ∀ (k0_h4 : k0_cond4 i = 1#1), ∀ a, (k0_off6 i) a + S1024x4096.size a ≤ S4096x4096.size a
  k0_off7_inb : ∀ i : grid0.Coords, ∀ (k0_h4 : k0_cond4 i = 1#1), ∀ a, (k0_off7 i) a + S1024.size a ≤ S4096.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S4096x4096.size a
  hwx0_0 : ∀ i : grid0.Coords, EltTy.bits .f32 = 32 ∨ (Rect.block (s := S4096x4096) S512x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x256.size a ≤ S4096x256.size a
  hwx0_1 : ∀ i : grid0.Coords, EltTy.bits .bf16 = 32 ∨ (Rect.block (s := S4096x256) S4096x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .f32 = 32 ∨ (Rect.block (s := S256x256) S256x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .bf16 = 32 ∨ (Rect.block (s := S256x256) S256x256.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x128.size a ≤ S4096x128.size a
  hwx0_4 : ∀ i : grid0.Coords, EltTy.bits .f32 = 32 ∨ (Rect.block (s := S4096x128) S1024x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x128.size a ≤ S4096x128.size a
  hwx0_5 : ∀ i : grid0.Coords, EltTy.bits .f32 = 32 ∨ (Rect.block (s := S4096x128) S1024x128.size (cc0_transform_5 i) (hinb0_5 i)).WholeWords (EltTy.packing .f32)

variable [Facts₀]

def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf
def dot_S1024x4096_S4096x256_S1024x256_1_0_0_1_n_n : DotDims S1024x4096 S4096x256 S1024x256 where
  lhsContracting := [1]
  rhsContracting := [0]
  lhsNonContracting := [0]
  rhsNonContracting := [1]
  lhsBatch := []
  rhsBatch := []
  wf := dot_S1024x4096_S4096x256_S1024x256_1_0_0_1_n_n_wf
def dot_S1024x256_S256x256_S1024x256_1_0_0_1_n_n : DotDims S1024x256 S256x256 S1024x256 where
  lhsContracting := [1]
  rhsContracting := [0]
  lhsNonContracting := [0]
  rhsNonContracting := [1]
  lhsBatch := []
  rhsBatch := []
  wf := dot_S1024x256_S256x256_S1024x256_1_0_0_1_n_n_wf

abbrev win0_0 : Pipeline.Window sig grid0 :=
  Pipeline.Window.ofSpec (Memref.whole main_arg0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S4096x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3_0) S1024x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v3_1) S1024x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun i => !(k0_cond4 i == 1#1) | 5 => fun i => !(k0_cond4 i == 1#1) | ⟨_ + 6, h⟩ => absurd h (Nat.not_lt.2 (Nat.le_add_left _ _))

class Facts : Prop extends Facts₀ where

variable [Facts]
-- ==== ReferenceIdeal.lean ====
abbrev S4096x4096 : Shape := ⟨2, ![4096, 4096]⟩
abbrev S4096x256 : Shape := ⟨2, ![4096, 256]⟩
abbrev S256x256 : Shape := ⟨2, ![256, 256]⟩
abbrev S256x128 : Shape := ⟨2, ![256, 128]⟩
abbrev S_ : Shape := ⟨0, ![]⟩
abbrev S4096 : Shape := ⟨1, ![4096]⟩
abbrev S4096x1 : Shape := ⟨2, ![4096, 1]⟩
abbrev S1x4096 : Shape := ⟨2, ![1, 4096]⟩
abbrev S4096x128 : Shape := ⟨2, ![4096, 128]⟩

abbrev nBuf : Space → Nat
  | .hbm => 33
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x256, .f32⟩
  | .hbm, ⟨2, _⟩ => ⟨S256x256, .f32⟩
  | .hbm, ⟨3, _⟩ => ⟨S256x128, .f32⟩
  | .hbm, ⟨4, _⟩ => ⟨S256x128, .f32⟩
  | .hbm, ⟨5, _⟩ => ⟨S_, .f32⟩
  | .hbm, ⟨6, _⟩ => ⟨S4096, .f32⟩
  | .hbm, ⟨7, _⟩ => ⟨S_, .f32⟩
  | .hbm, ⟨8, _⟩ => ⟨S4096, .f32⟩
  | .hbm, ⟨9, _⟩ => ⟨S4096, .i1⟩
  | .hbm, ⟨10, _⟩ => ⟨S4096, .f32⟩
  | .hbm, ⟨11, _⟩ => ⟨S_, .f32⟩
  | .hbm, ⟨12, _⟩ => ⟨S4096, .f32⟩
  | .hbm, ⟨13, _⟩ => ⟨S4096, .f32⟩
  | .hbm, ⟨14, _⟩ => ⟨S_, .f32⟩
  | .hbm, ⟨15, _⟩ => ⟨S_, .f32⟩
  | .hbm, ⟨16, _⟩ => ⟨S4096, .f32⟩
  | .hbm, ⟨17, _⟩ => ⟨S4096, .f32⟩
  | .hbm, ⟨18, _⟩ => ⟨S4096x1, .f32⟩
  | .hbm, ⟨19, _⟩ => ⟨S4096x4096, .f32⟩
  | .hbm, ⟨20, _⟩ => ⟨S4096x4096, .f32⟩
  | .hbm, ⟨21, _⟩ => ⟨S1x4096, .f32⟩
  | .hbm, ⟨22, _⟩ => ⟨S4096x4096, .f32⟩
  | .hbm, ⟨23, _⟩ => ⟨S4096x4096, .f32⟩
  | .hbm, ⟨24, _⟩ => ⟨S4096x256, .f32⟩
  | .hbm, ⟨25, _⟩ => ⟨S4096x256, .f32⟩
  | .hbm, ⟨26, _⟩ => ⟨S_, .f32⟩
  | .hbm, ⟨27, _⟩ => ⟨S4096x256, .f32⟩
  | .hbm, ⟨28, _⟩ => ⟨S4096x256, .f32⟩
  | .hbm, ⟨29, _⟩ => ⟨S4096x128, .f32⟩
  | .hbm, ⟨30, _⟩ => ⟨S4096x128, .f32⟩
  | .hbm, ⟨31, _⟩ => ⟨S4096x128, .f32⟩
  | .hbm, ⟨32, _⟩ => ⟨S4096x128, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_cst_2 : Ref sig .tc := ⟨.hbm, 14, rfl⟩
abbrev main_call0_v0 : Ref sig .tc := ⟨.hbm, 15, rfl⟩
abbrev main_call0_v1 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_call1_cst : Ref sig .tc := ⟨.hbm, 26, rfl⟩
abbrev main_call1_v0 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩

abbrev nD : Nat := 1
abbrev τ : Topo := Topo.v7x

variable {F : FTy → Type} [FloatOps F]

class Facts₀ : Prop where
  reducesTo_S4096x4096_S4096_d1 : S4096x4096.ReducesTo [1] S4096
  h_S_ : 0 < S_.numel
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x4096_0_1 : S4096x1.BroadcastsInDim S4096x4096 (![0, 1] : Fin 2 → Fin S4096x4096.rank)
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  bcast_S_S4096x256 : S_.BroadcastsInDim S4096x256 (![] : Fin 0 → Fin S4096x256.rank)
  dot_S4096x256_S256x256_S4096x256_1_0_0_1_n_n_wf : DotDims.WF S4096x256 S256x256 S4096x256 [1] [0] [0] [1] [] []
  dot_S4096x4096_S4096x256_S4096x256_1_0_0_1_n_n_wf : DotDims.WF S4096x4096 S4096x256 S4096x256 [1] [0] [0] [1] [] []
  dot_S4096x256_S256x128_S4096x128_1_0_0_1_n_n_wf : DotDims.WF S4096x256 S256x128 S4096x128 [1] [0] [0] [1] [] []
  dot_S4096x4096_S4096x128_S4096x128_1_0_0_1_n_n_wf : DotDims.WF S4096x4096 S4096x128 S4096x128 [1] [0] [0] [1] [] []

variable [Facts₀]

def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf
def dot_S4096x4096_S4096x256_S4096x256_1_0_0_1_n_n : DotDims S4096x4096 S4096x256 S4096x256 where
  lhsContracting := [1]
  rhsContracting := [0]
  lhsNonContracting := [0]
  rhsNonContracting := [1]
  lhsBatch := []
  rhsBatch := []
  wf := dot_S4096x4096_S4096x256_S4096x256_1_0_0_1_n_n_wf
def dot_S4096x256_S256x128_S4096x128_1_0_0_1_n_n : DotDims S4096x256 S256x128 S4096x128 where
  lhsContracting := [1]
  rhsContracting := [0]
  lhsNonContracting := [0]
  rhsNonContracting := [1]
  lhsBatch := []
  rhsBatch := []
  wf := dot_S4096x256_S256x128_S4096x128_1_0_0_1_n_n_wf
def dot_S4096x4096_S4096x128_S4096x128_1_0_0_1_n_n : DotDims S4096x4096 S4096x128 S4096x128 where
  lhsContracting := [1]
  rhsContracting := [0]
  lhsNonContracting := [0]
  rhsNonContracting := [1]
  lhsBatch := []
  rhsBatch := []
  wf := dot_S4096x4096_S4096x128_S4096x128_1_0_0_1_n_n_wf

class Facts : Prop extends Facts₀ where

variable [Facts]
-- ==== Proof.Body.Setup.lean ====
/-
  The grid of the one region has sixteen points in four phases: points 0–7 copy the adjacency matrix, 512 rows at a
  time, into a resident scratch and store each row's normalising factor; point 7 also forms the scaled first-layer
  support; points 8–11 form the scaled second-layer support, 1024 rows at a time; points 12–15 form the two results,
  1024 rows at a time. This module states the phase conditions in closed form over the grid, the row offsets each
  phase addresses the scratch buffers at, where the two result windows are idle, and the region invariant with the four
  scratch buffers named.
-/
import proofs.«100562_g89885075570807_cont_sun_c4_768_27_alg».proof.Proof.Gen.KernelIdeal.Frame
import proofs.«100562_g89885075570807_cont_sun_c4_768_27_alg».proof.Proof.Gen.KernelIdeal.Skeleton
import Idealize.ShloMosaic.Lib.Pipeline.FrameBody
import Idealize.ShloMosaic.Lib.Ring
import Idealize.ShloMosaic.Lib.Tactic

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The phase conditions over the grid -/

/-- The copy phase's condition. -/
abbrev condCopy (i : grid0.Coords) : Prop := k0_cond1 i = 1#1
/-- The condition of the point that forms the first support (the eighth point). -/
abbrev condS1 (i : grid0.Coords) : Prop :=
  (Scalar.cmpi .ne (Scalar.extui (Scalar.cmpi .eq (BitVec.ofNat 32 (i 0).val) 7#32)) 0#32) = 1#1
/-- The middle phase's condition. -/
abbrev condMid (i : grid0.Coords) : Prop := k0_cond3 i = 1#1
/-- The result phase's condition. -/
abbrev condOut (i : grid0.Coords) : Prop := k0_cond4 i = 1#1

theorem hcondCopy : ∀ t : Fin cfg0.N, condCopy (grid0.coords t) ↔ t.val < 8 :=
  (by decide +kernel : ∀ t : Fin grid0.N, condCopy (grid0.coords t) ↔ t.val < 8)
theorem hcondS1 : ∀ t : Fin cfg0.N, condS1 (grid0.coords t) ↔ t.val = 7 :=
  (by decide +kernel : ∀ t : Fin grid0.N, condS1 (grid0.coords t) ↔ t.val = 7)
theorem hcondMid : ∀ t : Fin cfg0.N, condMid (grid0.coords t) ↔ (8 ≤ t.val ∧ t.val < 12) :=
  (by decide +kernel : ∀ t : Fin grid0.N, condMid (grid0.coords t) ↔ (8 ≤ t.val ∧ t.val < 12))
theorem hcondOut : ∀ t : Fin cfg0.N, condOut (grid0.coords t) ↔ 12 ≤ t.val :=
  (by decide +kernel : ∀ t : Fin grid0.N, condOut (grid0.coords t) ↔ 12 ≤ t.val)

/-! ## The row offsets, in closed form -/

theorem off1_eq : ∀ t : Fin cfg0.N, t.val < 8 → k0_off1 (grid0.coords t) = ![512 * t.val] :=
  (by decide +kernel : ∀ t : Fin grid0.N, t.val < 8 → k0_off1 (grid0.coords t) = ![512 * t.val])
theorem off2_eq : ∀ t : Fin cfg0.N, t.val < 8 → k0_off2 (grid0.coords t) = ![512 * t.val, 0] :=
  (by decide +kernel : ∀ t : Fin grid0.N, t.val < 8 → k0_off2 (grid0.coords t) = ![512 * t.val, 0])
theorem off3_eq : ∀ t : Fin cfg0.N, 8 ≤ t.val → t.val < 12 → k0_off3 (grid0.coords t) = ![1024 * (t.val - 8), 0] :=
  (by decide +kernel : ∀ t : Fin grid0.N, 8 ≤ t.val → t.val < 12 → k0_off3 (grid0.coords t) = ![1024 * (t.val - 8), 0])
theorem off4_eq : ∀ t : Fin cfg0.N, 8 ≤ t.val → t.val < 12 → k0_off4 (grid0.coords t) = ![1024 * (t.val - 8)] :=
  (by decide +kernel : ∀ t : Fin grid0.N, 8 ≤ t.val → t.val < 12 → k0_off4 (grid0.coords t) = ![1024 * (t.val - 8)])
theorem off5_eq : ∀ t : Fin cfg0.N, 8 ≤ t.val → t.val < 12 → k0_off5 (grid0.coords t) = ![1024 * (t.val - 8), 0] :=
  (by decide +kernel : ∀ t : Fin grid0.N, 8 ≤ t.val → t.val < 12 → k0_off5 (grid0.coords t) = ![1024 * (t.val - 8), 0])
theorem off6_eq : ∀ t : Fin cfg0.N, 12 ≤ t.val → k0_off6 (grid0.coords t) = ![1024 * (t.val - 12), 0] :=
  (by decide +kernel : ∀ t : Fin grid0.N, 12 ≤ t.val → k0_off6 (grid0.coords t) = ![1024 * (t.val - 12), 0])
theorem off7_eq : ∀ t : Fin cfg0.N, 12 ≤ t.val → k0_off7 (grid0.coords t) = ![1024 * (t.val - 12)] :=
  (by decide +kernel : ∀ t : Fin grid0.N, 12 ≤ t.val → k0_off7 (grid0.coords t) = ![1024 * (t.val - 12)])

/-! ## Where the windows are idle, and where the results are written back -/

theorem liveAt0 : ∀ t : Fin cfg0.N, cfg0.idle 0 (grid0.coords t) = false := by decide +kernel
theorem liveAt1 : ∀ t : Fin cfg0.N, cfg0.idle 1 (grid0.coords t) = false := by decide +kernel
theorem liveAt2 : ∀ t : Fin cfg0.N, cfg0.idle 2 (grid0.coords t) = false := by decide +kernel
theorem liveAt3 : ∀ t : Fin cfg0.N, cfg0.idle 3 (grid0.coords t) = false := by decide +kernel
theorem idleAt4 : ∀ t : Fin cfg0.N, t.val < 12 → cfg0.idle 4 (grid0.coords t) = true := by decide +kernel
theorem idleAt5 : ∀ t : Fin cfg0.N, t.val < 12 → cfg0.idle 5 (grid0.coords t) = true := by decide +kernel
theorem liveAt4 : ∀ t : Fin cfg0.N, 12 ≤ t.val → cfg0.idle 4 (grid0.coords t) = false := by decide +kernel
theorem liveAt5 : ∀ t : Fin cfg0.N, 12 ≤ t.val → cfg0.idle 5 (grid0.coords t) = false := by decide +kernel
theorem noFlush4 : ∀ t : Fin cfg0.N, t.val < 12 → (cfg0.win 4).flush t = false := by decide +kernel
theorem noFlush5 : ∀ t : Fin cfg0.N, t.val < 12 → (cfg0.win 5).flush t = false := by decide +kernel

/-! ## The staging and scratch memrefs at a point -/

abbrev ms0 (t : Fin cfg0.N) : Memref sig .tc .vmem S512x4096 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S4096x256 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S256x256 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S256x256 .bf16 := win0_3.stage (cfg0.slots t 3)
abbrev hs3 (t : Fin cfg0.N) : (ms3 t).IsWhole := hstage0_3 ((cfg0.slots t 3).cast nbuf0_3)
abbrev ms4 (t : Fin cfg0.N) : Memref sig .tc .vmem S1024x128 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1024x128 .f32 := win0_5.stage (cfg0.slots t 5)
abbrev hs5 (t : Fin cfg0.N) : (ms5 t).IsWhole := hstage0_5 ((cfg0.slots t 5).cast nbuf0_5)
/-- The four scratch buffers: the resident copy of the matrix, the factors, the two supports. -/
abbrev scA : Memref sig .tc .vmem S4096x4096 .bf16 := Memref.whole cc0_scratch0
abbrev scD : Memref sig .tc .vmem S4096 .f32 := Memref.whole cc0_scratch1
abbrev scS1 : Memref sig .tc .vmem S4096x256 .bf16 := Memref.whole cc0_scratch2
abbrev scS2 : Memref sig .tc .vmem S4096x256 .bf16 := Memref.whole cc0_scratch3

/-- The class invariant with the scratch buffers as memrefs owned at some contents. -/
theorem PhiA_eq (c : Dev nD) :
    (Pipeline.ΦA spec0 c : sProp 𝕄)
      = iprop(iprop((∃ d, owns (c : Thread nD τ) scA fullShare d) ∗ (∃ d, owns (c : Thread nD τ) scD fullShare d)
          ∗ (∃ d, owns (c : Thread nD τ) scS1 fullShare d) ∗ (∃ d, owns (c : Thread nD τ) scS2 fullShare d)) ∗ (∃ r, prngReg c r)) := by
  unfold Pipeline.ΦA; rw [scopedRest0_eq]; simp only [scA, scD, scS1, scS2, owns_whole]; try rfl

end Cert.KernelIdeal.Body

end
-- ==== Proof.Body.Data.lean ====
/-
  What the four scratch buffers and the two result windows hold, as functions of the input windows' blocks alone,
  and the region's proof data over them.

  `specA` is the resident copy of the matrix (row `i` comes from the block of point `i / 512`), `specD` the row
  factors, `specS1` the first support (formed at the eighth point from the whole factor vector), `specS2` the second
  support (row block `b` formed at point `8 + b`), `out4 b` / `out5 b` the two results' row block `b` (formed at point
  `12 + b`). Before point `t` the scratch buffers agree with these on the rows the earlier points have stored
  (`Inv`); what they hold elsewhere is never read.
-/
import proofs.«100562_g89885075570807_cont_sun_c4_768_27_alg».proof.Proof.Body.Setup
import Idealize.ShloMosaic.Lib.ValueIdx

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx

variable (m : (ℓ : Loc nD τ sig) → Buf (Elt F) ℓ) (c : Dev nD)

/-- Grid point number `n`. -/
def pt (n : ℕ) (h : n < 16) : Fin cfg0.N := ⟨n, lt_of_lt_of_eq h N_0.symm⟩

@[simp] theorem pt_val (n : ℕ) (h : n < 16) : (pt n h).val = n := rfl

theorem pt_eq (t : Fin cfg0.N) (h : t.val < 16) : pt t.val h = t := Fin.ext rfl

theorem N16 (t : Fin cfg0.N) : t.val < 16 := lt_of_lt_of_eq t.isLt N_0

/-- The input windows' blocks at a point, at their literal shapes. -/
def blkA (t : Fin cfg0.N) : Vec F S512x4096 .f32 := iblk m c 0 t
def blkX (t : Fin cfg0.N) : Vec F S4096x256 .bf16 := iblk m c 1 t
def blkW1 (t : Fin cfg0.N) : Vec F S256x256 .f32 := iblk m c 2 t
def blkWc (t : Fin cfg0.N) : Vec F S256x256 .bf16 := iblk m c 3 t

/-- The resident copy of the matrix. -/
def specA : Vec F S4096x4096 .bf16 := fun y =>
  k0_pay2 (blkA m c (pt ((y 0).val / 512) (by have := (y 0).isLt; change (y 0).val < 4096 at this; omega)))
    (ix2 ⟨(y 0).val % 512, Nat.mod_lt _ (by norm_num)⟩ (y 1))

/-- The row factors. -/
def specD : Vec F S4096 .f32 := fun y =>
  k0_pay1 (blkA m c (pt ((y 0).val / 512) (by have := (y 0).isLt; change (y 0).val < 4096 at this; omega)))
    (ix1 ⟨(y 0).val % 512, Nat.mod_lt _ (by norm_num)⟩)

/-- The first support. -/
def specS1 : Vec F S4096x256 .bf16 := k0_pay3 (blkX m c (pt 7 (by norm_num))) (blkW1 m c (pt 7 (by norm_num))) (specD m c)

/-- Row block `b` (1024 rows) of the resident copy and of the factors. -/
def rowsA (b : ℕ) (hb : b < 4) : Vec F S1024x4096 .bf16 := fun y =>
  specA m c (ix2 ⟨1024 * b + (y 0).val, by have := (y 0).isLt; change (y 0).val < 1024 at this; omega⟩ (y 1))
def rowsD (b : ℕ) (hb : b < 4) : Vec F S1024 .f32 := fun y =>
  specD m c (ix1 ⟨1024 * b + (y 0).val, by have := (y 0).isLt; change (y 0).val < 1024 at this; omega⟩)

/-- Row block `b` of the second support. -/
def blkS2 (b : ℕ) (hb : b < 4) : Vec F S1024x256 .bf16 :=
  k0_pay4 (rowsA m c b hb) (specS1 m c) (rowsD m c b hb) (blkWc m c (pt (8 + b) (by omega)))

/-- The second support. -/
def specS2 : Vec F S4096x256 .bf16 := fun y =>
  blkS2 m c ((y 0).val / 1024) (by have := (y 0).isLt; change (y 0).val < 4096 at this; omega)
    (ix2 ⟨(y 0).val % 1024, Nat.mod_lt _ (by norm_num)⟩ (y 1))

/-- Row block `b` of the two results. -/
def out4 (b : ℕ) (hb : b < 4) : Vec F S1024x128 .f32 := k0_pay6 (rowsA m c b hb) (specS2 m c) (rowsD m c b hb)
def out5 (b : ℕ) (hb : b < 4) : Vec F S1024x128 .f32 := k0_pay7 (rowsA m c b hb) (specS2 m c) (rowsD m c b hb)

/-- What the scratch buffers are known to hold before point `t`. -/
def Inv (t : ℕ) (X0 : Vec F S4096x4096 .bf16) (X1 : Vec F S4096 .f32) (X2 X3 : Vec F S4096x256 .bf16) : Prop :=
  (∀ (i : Fin 4096) (j : Fin 4096), i.val < 512 * min t 8 → X0 (ix2 i j) = specA m c (ix2 i j))
  ∧ (∀ i : Fin 4096, i.val < 512 * min t 8 → X1 (ix1 i) = specD m c (ix1 i))
  ∧ (8 ≤ t → X2 = specS1 m c)
  ∧ (∀ (i : Fin 4096) (j : Fin 256), i.val + 8192 < 1024 * min t 12 → X3 (ix2 i j) = specS2 m c (ix2 i j))

/-- The region invariant before point `n`: the scratch buffers at contents satisfying `Inv n`. -/
def PhiS (n : ℕ) : sProp 𝕄 :=
  iprop(iprop(∃ X0 X1 X2 X3, ⌜Inv m c n X0 X1 X2 X3⌝ ∗ owns (c : Thread nD τ) scA fullShare X0 ∗ owns (c : Thread nD τ) scD fullShare X1
      ∗ owns (c : Thread nD τ) scS1 fullShare X2 ∗ owns (c : Thread nD τ) scS2 fullShare X3) ∗ (∃ r, prngReg c r))

/-- What the result windows' buffers hold after the body at point `t`: the point's row block from point 12 on (before
    that the windows are idle and the value is never consulted). -/
def outAt4 (t : Fin cfg0.N) : Vec F S1024x128 .f32 :=
  if h : 12 ≤ t.val then out4 m c (t.val - 12) (by have := N16 t; omega) else out4 m c 0 (by norm_num)
def outAt5 (t : Fin cfg0.N) : Vec F S1024x128 .f32 :=
  if h : 12 ≤ t.val then out5 m c (t.val - 12) (by have := N16 t; omega) else out5 m c 0 (by norm_num)

/-- The proof data of the one pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outAt4 m c t
    | ⟨5, _⟩ => outAt5 m c t
  Φ t := PhiS m c t.val
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = outAt4 m c t := by dsimp only [dats]
theorem after5 (c : Dev nD) (t : Fin cfg0.N) : (dats m 0 c).after 5 t = outAt5 m c t := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d

end Cert.KernelIdeal.Body

end
-- ==== Proof.LibRowSlab.lean ====
/-
  Row slabs of one- and two-axis arrays: a store through the unit-stride rectangle that starts at row `o` and spans
  `M` whole rows overwrites exactly the rows `o ≤ i < o + M` (the payload read at row `i - o`) and leaves every other
  row as it was; a load through a one-axis rectangle reads the array at the offset coordinate. General: nothing here
  mentions a program.
-/
import Idealize.ShloMosaic.Lib.Pipeline.Value
import Idealize.ShloMosaic.Lib.ValueIdx
import Idealize.ShloMosaic.Lib.Memref

noncomputable section

namespace Cert.RowSlab

open Idealize.ShloMosaic Idealize.ShloMosaic.ValueIdx

variable {α : Type}

/-- On the slab's rows a two-axis overlay reads the payload. -/
theorem overlay2_hit {N C M : ℕ} (o : ℕ)
    (inb : ∀ a, (![o, 0] : Fin 2 → ℕ) a + (⟨2, ![M, C]⟩ : Shape).size a ≤ (⟨2, ![N, C]⟩ : Shape).size a)
    (X : (⟨2, ![N, C]⟩ : Shape).Idx → α) (w : (⟨2, ![M, C]⟩ : Shape).Idx → α) (i : Fin N) (j : Fin C) (r : Fin M)
    (h : i.val = o + r.val) :
    (Rect.unit (s := ⟨2, ![N, C]⟩) ![o, 0] (⟨2, ![M, C]⟩ : Shape).size inb).overlay X w (ix2 i j) = w (ix2 r j) := by
  have e : ix2 i j = (Rect.unit (s := ⟨2, ![N, C]⟩) ![o, 0] (⟨2, ![M, C]⟩ : Shape).size inb).emb (ix2 r j) :=
    funext fun d => Fin.ext (by
      match d with
      | ⟨0, _⟩ => show i.val = o + 1 * r.val; omega
      | ⟨1, _⟩ => show j.val = 0 + 1 * j.val; omega)
  rw [e, Rect.overlay_emb]

/-- Off the slab's rows it reads the earlier contents. -/
theorem overlay2_miss {N C M : ℕ} (o : ℕ)
    (inb : ∀ a, (![o, 0] : Fin 2 → ℕ) a + (⟨2, ![M, C]⟩ : Shape).size a ≤ (⟨2, ![N, C]⟩ : Shape).size a)
    (X : (⟨2, ![N, C]⟩ : Shape).Idx → α) (w : (⟨2, ![M, C]⟩ : Shape).Idx → α) (i : Fin N) (j : Fin C)
    (h : i.val < o ∨ o + M ≤ i.val) :
    (Rect.unit (s := ⟨2, ![N, C]⟩) ![o, 0] (⟨2, ![M, C]⟩ : Shape).size inb).overlay X w (ix2 i j) = X (ix2 i j) := by
  refine Rect.overlay_of_not_mem _ _ _ (fun hm => ?_)
  have h0 := (Rect.mem_set_unit.mp hm) ⟨0, by norm_num⟩
  change o ≤ i.val ∧ i.val < o + M at h0
  omega

/-- The one-axis forms. -/
theorem overlay1_hit {N M : ℕ} (o : ℕ)
    (inb : ∀ a, (![o] : Fin 1 → ℕ) a + (⟨1, ![M]⟩ : Shape).size a ≤ (⟨1, ![N]⟩ : Shape).size a)
    (X : (⟨1, ![N]⟩ : Shape).Idx → α) (w : (⟨1, ![M]⟩ : Shape).Idx → α) (i : Fin N) (r : Fin M) (h : i.val = o + r.val) :
    (Rect.unit (s := ⟨1, ![N]⟩) ![o] (⟨1, ![M]⟩ : Shape).size inb).overlay X w (ix1 i) = w (ix1 r) := by
  have e : ix1 i = (Rect.unit (s := ⟨1, ![N]⟩) ![o] (⟨1, ![M]⟩ : Shape).size inb).emb (ix1 r) :=
    funext fun d => Fin.ext (by
      match d with
      | ⟨0, _⟩ => show i.val = o + 1 * r.val; omega)
  rw [e, Rect.overlay_emb]

theorem overlay1_miss {N M : ℕ} (o : ℕ)
    (inb : ∀ a, (![o] : Fin 1 → ℕ) a + (⟨1, ![M]⟩ : Shape).size a ≤ (⟨1, ![N]⟩ : Shape).size a)
    (X : (⟨1, ![N]⟩ : Shape).Idx → α) (w : (⟨1, ![M]⟩ : Shape).Idx → α) (i : Fin N) (h : i.val < o ∨ o + M ≤ i.val) :
    (Rect.unit (s := ⟨1, ![N]⟩) ![o] (⟨1, ![M]⟩ : Shape).size inb).overlay X w (ix1 i) = X (ix1 i) := by
  refine Rect.overlay_of_not_mem _ _ _ (fun hm => ?_)
  have h0 := (Rect.mem_set_unit.mp hm) ⟨0, by norm_num⟩
  change o ≤ i.val ∧ i.val < o + M at h0
  omega

/-- A load through the one-axis rectangle at offset `o` reads, at `a`, the array at `o + a`. -/
theorem ld1_at {Val : EltTy → Type} {e : EltTy} {N M : ℕ} (X : (⟨1, ![N]⟩ : Shape).Idx → Val e) (o : ℕ)
    (inb : ∀ a, (![o] : Fin 1 → ℕ) a + (⟨1, ![M]⟩ : Shape).size a ≤ (⟨1, ![N]⟩ : Shape).size a)
    (a : Fin M) (a' : Fin N) (ha : a'.val = o + a.val) :
    View.ld X (Rect.unit (s := ⟨1, ![N]⟩) ![o] (⟨1, ![M]⟩ : Shape).size inb) (ix1 a) = X (ix1 a') := by
  show X ((Rect.unit (s := ⟨1, ![N]⟩) ![o] (⟨1, ![M]⟩ : Shape).size inb).emb (ix1 a)) = _
  refine congrArg X (funext fun d => Fin.ext ?_)
  match d with
  | ⟨0, _⟩ => show o + 1 * a.val = a'.val; omega

/-- A load through the two-axis rectangle of whole rows at row offset `o` reads, at `(a, b)`, the array at `(o + a, b)`. -/
theorem ld2_rows {Val : EltTy → Type} {e : EltTy} {N C M : ℕ} (X : (⟨2, ![N, C]⟩ : Shape).Idx → Val e) (o : ℕ)
    (inb : ∀ a, (![o, 0] : Fin 2 → ℕ) a + (⟨2, ![M, C]⟩ : Shape).size a ≤ (⟨2, ![N, C]⟩ : Shape).size a)
    (a : Fin M) (b : Fin C) (a' : Fin N) (ha : a'.val = o + a.val) :
    View.ld X (Rect.unit (s := ⟨2, ![N, C]⟩) ![o, 0] (⟨2, ![M, C]⟩ : Shape).size inb) (ix2 a b) = X (ix2 a' b) := by
  show X ((Rect.unit (s := ⟨2, ![N, C]⟩) ![o, 0] (⟨2, ![M, C]⟩ : Shape).size inb).emb (ix2 a b)) = _
  refine congrArg X (funext fun d => Fin.ext ?_)
  match d with
  | ⟨0, _⟩ => show o + 1 * a.val = a'.val; omega
  | ⟨1, _⟩ => show 0 + 1 * b.val = b.val; omega

end Cert.RowSlab

end
-- ==== Proof.Body.Step.lean ====
/-
  The steps of the region invariant, for every float instance: what the scratch buffers hold after the stores of a
  copy point, of the eighth point, of a middle point and of a result point, and what a result point's two payloads
  are. Each is a statement about functions on index sets: a store through a slab of whole rows overwrites those
  rows with the payload and leaves the others, and a load through such a slab reads the rows of the array.
-/
import proofs.«100562_g89885075570807_cont_sun_c4_768_27_alg».proof.Proof.Body.Data
import proofs.«100562_g89885075570807_cont_sun_c4_768_27_alg».proof.Proof.LibRowSlab
import Idealize.ShloMosaic.Lib.ValueIdx

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

open Idealize.ShloMosaic.ValueIdx Cert.RowSlab

/-! ## The slab lemmas with the offset given up to an equation -/

section Slab

variable {α : Type}

theorem overlay2_hit' {N C M : ℕ} (o : ℕ) {off : Fin 2 → ℕ} (hoff : off = ![o, 0])
    (inb : ∀ a, off a + (⟨2, ![M, C]⟩ : Shape).size a ≤ (⟨2, ![N, C]⟩ : Shape).size a)
    (X : (⟨2, ![N, C]⟩ : Shape).Idx → α) (w : (⟨2, ![M, C]⟩ : Shape).Idx → α) (i : Fin N) (j : Fin C) (r : Fin M)
    (h : i.val = o + r.val) :
    (Rect.unit (s := ⟨2, ![N, C]⟩) off (⟨2, ![M, C]⟩ : Shape).size inb).overlay X w (ix2 i j) = w (ix2 r j) := by
  subst hoff; exact overlay2_hit o inb X w i j r h

theorem overlay2_miss' {N C M : ℕ} (o : ℕ) {off : Fin 2 → ℕ} (hoff : off = ![o, 0])
    (inb : ∀ a, off a + (⟨2, ![M, C]⟩ : Shape).size a ≤ (⟨2, ![N, C]⟩ : Shape).size a)
    (X : (⟨2, ![N, C]⟩ : Shape).Idx → α) (w : (⟨2, ![M, C]⟩ : Shape).Idx → α) (i : Fin N) (j : Fin C)
    (h : i.val < o ∨ o + M ≤ i.val) :
    (Rect.unit (s := ⟨2, ![N, C]⟩) off (⟨2, ![M, C]⟩ : Shape).size inb).overlay X w (ix2 i j) = X (ix2 i j) := by
  subst hoff; exact overlay2_miss o inb X w i j h

theorem overlay1_hit' {N M : ℕ} (o : ℕ) {off : Fin 1 → ℕ} (hoff : off = ![o])
    (inb : ∀ a, off a + (⟨1, ![M]⟩ : Shape).size a ≤ (⟨1, ![N]⟩ : Shape).size a)
    (X : (⟨1, ![N]⟩ : Shape).Idx → α) (w : (⟨1, ![M]⟩ : Shape).Idx → α) (i : Fin N) (r : Fin M) (h : i.val = o + r.val) :
    (Rect.unit (s := ⟨1, ![N]⟩) off (⟨1, ![M]⟩ : Shape).size inb).overlay X w (ix1 i) = w (ix1 r) := by
  subst hoff; exact overlay1_hit o inb X w i r h

theorem overlay1_miss' {N M : ℕ} (o : ℕ) {off : Fin 1 → ℕ} (hoff : off = ![o])
    (inb : ∀ a, off a + (⟨1, ![M]⟩ : Shape).size a ≤ (⟨1, ![N]⟩ : Shape).size a)
    (X : (⟨1, ![N]⟩ : Shape).Idx → α) (w : (⟨1, ![M]⟩ : Shape).Idx → α) (i : Fin N) (h : i.val < o ∨ o + M ≤ i.val) :
    (Rect.unit (s := ⟨1, ![N]⟩) off (⟨1, ![M]⟩ : Shape).size inb).overlay X w (ix1 i) = X (ix1 i) := by
  subst hoff; exact overlay1_miss o inb X w i h

theorem ld1_at' {Val : EltTy → Type} {e : EltTy} {N M : ℕ} (X : (⟨1, ![N]⟩ : Shape).Idx → Val e) (o : ℕ)
    {off : Fin 1 → ℕ} (hoff : off = ![o])
    (inb : ∀ a, off a + (⟨1, ![M]⟩ : Shape).size a ≤ (⟨1, ![N]⟩ : Shape).size a)
    (a : Fin M) (a' : Fin N) (ha : a'.val = o + a.val) :
    View.ld X (Rect.unit (s := ⟨1, ![N]⟩) off (⟨1, ![M]⟩ : Shape).size inb) (ix1 a) = X (ix1 a') := by
  subst hoff; exact ld1_at X o inb a a' ha

theorem ld2_rows' {Val : EltTy → Type} {e : EltTy} {N C M : ℕ} (X : (⟨2, ![N, C]⟩ : Shape).Idx → Val e) (o : ℕ)
    {off : Fin 2 → ℕ} (hoff : off = ![o, 0])
    (inb : ∀ a, off a + (⟨2, ![M, C]⟩ : Shape).size a ≤ (⟨2, ![N, C]⟩ : Shape).size a)
    (a : Fin M) (b : Fin C) (a' : Fin N) (ha : a'.val = o + a.val) :
    View.ld X (Rect.unit (s := ⟨2, ![N, C]⟩) off (⟨2, ![M, C]⟩ : Shape).size inb) (ix2 a b) = X (ix2 a' b) := by
  subst hoff; exact ld2_rows X o inb a b a' ha

end Slab

variable (m : (ℓ : Loc nD τ sig) → Buf (Elt F) ℓ) (c : Dev nD)

variable {z0 : Vec F S4096x4096 .bf16} {z1 : Vec F S4096 .f32} {z2 z3 : Vec F S4096x256 .bf16}

/-! ## Reading the invariant -/

/-- From the eighth point on, every row of the resident copy is the specified one. -/
theorem z0_all {n : ℕ} (h8 : 8 ≤ n) (h : Inv m c n z0 z1 z2 z3) (i : Fin 4096) (j : Fin 4096) :
    z0 (ix2 i j) = specA m c (ix2 i j) := h.1 i j (by have := i.isLt; omega)

/-- From the eighth point on, every row factor is the specified one. -/
theorem z1_all {n : ℕ} (h8 : 8 ≤ n) (h : Inv m c n z0 z1 z2 z3) (i : Fin 4096) :
    z1 (ix1 i) = specD m c (ix1 i) := h.2.1 i (by have := i.isLt; omega)

/-- From the twelfth point on, the second support is the specified one. -/
theorem z3_all {n : ℕ} (h12 : 12 ≤ n) (h : Inv m c n z0 z1 z2 z3) : z3 = specS2 m c := by
  refine funext fun (y : S4096x256.Idx) => ?_
  obtain ⟨p, q, rfl⟩ : ∃ (p : Fin 4096) (q : Fin 256), y = ix2 p q := ⟨y 0, y 1, eq_ix2 y⟩
  exact h.2.2.2 p q (by have := p.isLt; omega)

/-- A load of row block `b` of a resident copy that is the specified one on every row. -/
theorem ldA_eq (hz0 : ∀ (i : Fin 4096) (j : Fin 4096), z0 (ix2 i j) = specA m c (ix2 i j)) (b : ℕ) (hb : b < 4)
    {off : Fin 2 → ℕ} (hoff : off = ![1024 * b, 0]) (inb : ∀ a, off a + S1024x4096.size a ≤ S4096x4096.size a) :
    View.ld z0 (Rect.unit (s := S4096x4096) off S1024x4096.size inb) = rowsA m c b hb := by
  refine funext fun (y : S1024x4096.Idx) => ?_
  obtain ⟨p, q, rfl⟩ : ∃ (p : Fin 1024) (q : Fin 4096), y = ix2 p q := ⟨y 0, y 1, eq_ix2 y⟩
  refine (ld2_rows' (N := 4096) (C := 4096) (M := 1024) z0 (1024 * b) hoff inb p q
    ⟨1024 * b + p.val, by have := p.isLt; omega⟩ rfl).trans ?_
  exact hz0 _ _

/-- A load of row block `b` of factors that are the specified ones on every row. -/
theorem ldD_eq (hz1 : ∀ i : Fin 4096, z1 (ix1 i) = specD m c (ix1 i)) (b : ℕ) (hb : b < 4)
    {off : Fin 1 → ℕ} (hoff : off = ![1024 * b]) (inb : ∀ a, off a + S1024.size a ≤ S4096.size a) :
    View.ld z1 (Rect.unit (s := S4096) off S1024.size inb) = rowsD m c b hb := by
  refine funext fun (y : S1024.Idx) => ?_
  obtain ⟨p, rfl⟩ : ∃ p : Fin 1024, y = ix1 p := ⟨y 0, eq_ix1 y⟩
  refine (ld1_at' (N := 4096) (M := 1024) z1 (1024 * b) hoff inb p
    ⟨1024 * b + p.val, by have := p.isLt; omega⟩ rfl).trans ?_
  exact hz1 _

/-! ## The result points -/

/-- A result point stores nothing into the scratch buffers, and the invariant's bounds are saturated. -/
theorem inv_out (t : Fin cfg0.N) (h12 : 12 ≤ t.val) (h : Inv m c t.val z0 z1 z2 z3) :
    Inv m c (t.val + 1) z0 z1 z2 z3 := by
  obtain ⟨h0, h1, h2, h3⟩ := h
  exact ⟨fun i j hi => h0 i j (by omega), fun i hi => h1 i (by omega), fun _ => h2 (by omega),
    fun i j hi => h3 i j (by omega)⟩

theorem out4_eq (t : Fin cfg0.N) (h12 : 12 ≤ t.val) (hc4 : condOut (grid0.coords t)) (h : Inv m c t.val z0 z1 z2 z3) :
    k0_pay6 (View.ld z0 (Rect.unit (s := S4096x4096) (k0_off6 (grid0.coords t)) S1024x4096.size (Facts₀.k0_off6_inb _ hc4))) z3
        (View.ld z1 (Rect.unit (s := S4096) (k0_off7 (grid0.coords t)) S1024.size (Facts₀.k0_off7_inb _ hc4)))
      = outAt4 m c t := by
  have hb : t.val - 12 < 4 := by have := N16 t; omega
  rw [ldA_eq m c (z0_all m c (by omega) h) (t.val - 12) hb (off6_eq t h12),
    ldD_eq m c (z1_all m c (by omega) h) (t.val - 12) hb (off7_eq t h12), z3_all m c h12 h]
  unfold outAt4
  rw [dif_pos h12]
  rfl

theorem out5_eq (t : Fin cfg0.N) (h12 : 12 ≤ t.val) (hc4 : condOut (grid0.coords t)) (h : Inv m c t.val z0 z1 z2 z3) :
    k0_pay7 (View.ld z0 (Rect.unit (s := S4096x4096) (k0_off6 (grid0.coords t)) S1024x4096.size (Facts₀.k0_off6_inb _ hc4))) z3
        (View.ld z1 (Rect.unit (s := S4096) (k0_off7 (grid0.coords t)) S1024.size (Facts₀.k0_off7_inb _ hc4)))
      = outAt5 m c t := by
  have hb : t.val - 12 < 4 := by have := N16 t; omega
  rw [ldA_eq m c (z0_all m c (by omega) h) (t.val - 12) hb (off6_eq t h12),
    ldD_eq m c (z1_all m c (by omega) h) (t.val - 12) hb (off7_eq t h12), z3_all m c h12 h]
  unfold outAt5
  rw [dif_pos h12]
  rfl

/-! ## The specified contents at a row, by the row's block -/

/-- Row `512 * t + r` of the resident copy is row `r` of the payload of point `t`. -/
theorem specA_at (i : Fin 4096) (j : Fin 4096) (t : Fin cfg0.N) (r : Fin 512) (h : i.val = 512 * t.val + r.val) :
    specA m c (ix2 i j) = k0_pay2 (blkA m c t) (ix2 r j) := by
  have e1 : ∀ hp, pt (i.val / 512) hp = t := fun hp => Fin.ext (by have := r.isLt; show i.val / 512 = t.val; omega)
  have e2 : ∀ hp, (⟨i.val % 512, hp⟩ : Fin 512) = r := fun hp => Fin.ext (by have := r.isLt; show i.val % 512 = r.val; omega)
  show k0_pay2 (blkA m c (pt (i.val / 512) _)) (ix2 ⟨i.val % 512, _⟩ j) = _
  rw [e1, e2]

/-- Row factor `512 * t + r` is entry `r` of the payload of point `t`. -/
theorem specD_at (i : Fin 4096) (t : Fin cfg0.N) (r : Fin 512) (h : i.val = 512 * t.val + r.val) :
    specD m c (ix1 i) = k0_pay1 (blkA m c t) (ix1 r) := by
  have e1 : ∀ hp, pt (i.val / 512) hp = t := fun hp => Fin.ext (by have := r.isLt; show i.val / 512 = t.val; omega)
  have e2 : ∀ hp, (⟨i.val % 512, hp⟩ : Fin 512) = r := fun hp => Fin.ext (by have := r.isLt; show i.val % 512 = r.val; omega)
  show k0_pay1 (blkA m c (pt (i.val / 512) _)) (ix1 ⟨i.val % 512, _⟩) = _
  rw [e1, e2]

theorem blkS2_congr {b b' : ℕ} (e : b = b') (hb : b < 4) (hb' : b' < 4) : blkS2 m c b hb = blkS2 m c b' hb' := by
  subst e; rfl

/-- Row `1024 * b + r` of the second support is row `r` of its row block `b`. -/
theorem specS2_at (i : Fin 4096) (j : Fin 256) (b : ℕ) (hb : b < 4) (r : Fin 1024) (h : i.val = 1024 * b + r.val) :
    specS2 m c (ix2 i j) = blkS2 m c b hb (ix2 r j) := by
  have e1 : i.val / 1024 = b := by have := r.isLt; omega
  have e2 : ∀ hp, (⟨i.val % 1024, hp⟩ : Fin 1024) = r := fun hp => Fin.ext (by have := r.isLt; show i.val % 1024 = r.val; omega)
  show blkS2 m c (i.val / 1024) _ (ix2 ⟨i.val % 1024, _⟩ j) = _
  rw [blkS2_congr m c e1 _ hb, e2]

/-! ## The copy points -/

/-- After a copy point's store the resident copy has the specified rows up to the point's slab. -/
theorem copyA_step (t : Fin cfg0.N) (ht : t.val < 8) (hc1 : condCopy (grid0.coords t)) (h : Inv m c t.val z0 z1 z2 z3)
    (i : Fin 4096) (j : Fin 4096) (hi : i.val < 512 * (t.val + 1)) :
    (Rect.unit (s := S4096x4096) (k0_off2 (grid0.coords t)) S512x4096.size (Facts₀.k0_off2_inb _ hc1)).overlay z0
        (k0_pay2 (blkA m c t)) (ix2 i j) = specA m c (ix2 i j) := by
  by_cases hlo : i.val < 512 * t.val
  · refine (overlay2_miss' (N := 4096) (C := 4096) (M := 512) (512 * t.val) (off2_eq t ht) _ z0 _ i j (Or.inl hlo)).trans ?_
    exact h.1 i j (by omega)
  · refine (overlay2_hit' (N := 4096) (C := 4096) (M := 512) (512 * t.val) (off2_eq t ht) _ z0 _ i j
      ⟨i.val - 512 * t.val, by omega⟩ (by show i.val = 512 * t.val + (i.val - 512 * t.val); omega)).trans ?_
    exact (specA_at m c i j t ⟨i.val - 512 * t.val, by omega⟩ (by show i.val = 512 * t.val + (i.val - 512 * t.val); omega)).symm

/-- After a copy point's store the factors are the specified ones up to the point's slab. -/
theorem copyD_step (t : Fin cfg0.N) (ht : t.val < 8) (hc1 : condCopy (grid0.coords t)) (h : Inv m c t.val z0 z1 z2 z3)
    (i : Fin 4096) (hi : i.val < 512 * (t.val + 1)) :
    (Rect.unit (s := S4096) (k0_off1 (grid0.coords t)) S512.size (Facts₀.k0_off1_inb _ hc1)).overlay z1
        (k0_pay1 (blkA m c t)) (ix1 i) = specD m c (ix1 i) := by
  by_cases hlo : i.val < 512 * t.val
  · refine (overlay1_miss' (N := 4096) (M := 512) (512 * t.val) (off1_eq t ht) _ z1 _ i (Or.inl hlo)).trans ?_
    exact h.2.1 i (by omega)
  · refine (overlay1_hit' (N := 4096) (M := 512) (512 * t.val) (off1_eq t ht) _ z1 _ i
      ⟨i.val - 512 * t.val, by omega⟩ (by show i.val = 512 * t.val + (i.val - 512 * t.val); omega)).trans ?_
    exact (specD_at m c i t ⟨i.val - 512 * t.val, by omega⟩ (by show i.val = 512 * t.val + (i.val - 512 * t.val); omega)).symm

theorem inv_copy (t : Fin cfg0.N) (ht : t.val < 7) (hc1 : condCopy (grid0.coords t)) (h : Inv m c t.val z0 z1 z2 z3) :
    Inv m c (t.val + 1)
      ((Rect.unit (s := S4096x4096) (k0_off2 (grid0.coords t)) S512x4096.size (Facts₀.k0_off2_inb _ hc1)).overlay z0 (k0_pay2 (blkA m c t)))
      ((Rect.unit (s := S4096) (k0_off1 (grid0.coords t)) S512.size (Facts₀.k0_off1_inb _ hc1)).overlay z1 (k0_pay1 (blkA m c t)))
      z2 z3 := by
  refine ⟨fun i j hi => copyA_step m c t (by omega) hc1 h i j (by omega),
    fun i hi => copyD_step m c t (by omega) hc1 h i (by omega), fun h8 => absurd h8 (by omega), fun i j hi => absurd hi (by omega)⟩

/-! ## The eighth point -/

theorem inv_s1 (t : Fin cfg0.N) (ht : t.val = 7) (hc1 : condCopy (grid0.coords t)) (h : Inv m c t.val z0 z1 z2 z3) :
    Inv m c (t.val + 1)
      ((Rect.unit (s := S4096x4096) (k0_off2 (grid0.coords t)) S512x4096.size (Facts₀.k0_off2_inb _ hc1)).overlay z0 (k0_pay2 (blkA m c t)))
      ((Rect.unit (s := S4096) (k0_off1 (grid0.coords t)) S512.size (Facts₀.k0_off1_inb _ hc1)).overlay z1 (k0_pay1 (blkA m c t)))
      (k0_pay3 (blkX m c t) (blkW1 m c t)
        ((Rect.unit (s := S4096) (k0_off1 (grid0.coords t)) S512.size (Facts₀.k0_off1_inb _ hc1)).overlay z1 (k0_pay1 (blkA m c t))))
      z3 := by
  -- every row is covered after the eighth store, so the factor vector is the specified one
  have hD : (Rect.unit (s := S4096) (k0_off1 (grid0.coords t)) S512.size (Facts₀.k0_off1_inb _ hc1)).overlay z1 (k0_pay1 (blkA m c t))
      = specD m c := by
    refine funext fun (y : S4096.Idx) => ?_
    obtain ⟨p, rfl⟩ : ∃ p : Fin 4096, y = ix1 p := ⟨y 0, eq_ix1 y⟩
    exact copyD_step m c t (by omega) hc1 h p (by have := p.isLt; omega)
  have ht7 : ∀ hp, pt 7 hp = t := fun hp => Fin.ext (by show 7 = t.val; omega)
  refine ⟨fun i j hi => copyA_step m c t (by omega) hc1 h i j (by omega),
    fun i hi => copyD_step m c t (by omega) hc1 h i (by omega), fun _ => ?_, fun i j hi => absurd hi (by omega)⟩
  rw [hD]
  unfold specS1
  rw [ht7]

/-! ## The middle points -/

/-- The payload a middle point stores is the specified row block of the second support. -/
theorem pay4_eq (t : Fin cfg0.N) (h8 : 8 ≤ t.val) (h12 : t.val < 12) (hc3 : condMid (grid0.coords t))
    (h : Inv m c t.val z0 z1 z2 z3) (hb : t.val - 8 < 4) :
    k0_pay4 (View.ld z0 (Rect.unit (s := S4096x4096) (k0_off3 (grid0.coords t)) S1024x4096.size (Facts₀.k0_off3_inb _ hc3))) z2
        (View.ld z1 (Rect.unit (s := S4096) (k0_off4 (grid0.coords t)) S1024.size (Facts₀.k0_off4_inb _ hc3))) (blkWc m c t)
      = blkS2 m c (t.val - 8) hb := by
  have et : ∀ hp, pt (8 + (t.val - 8)) hp = t := fun hp => Fin.ext (by show 8 + (t.val - 8) = t.val; omega)
  rw [ldA_eq m c (z0_all m c h8 h) (t.val - 8) hb (off3_eq t h8 h12),
    ldD_eq m c (z1_all m c h8 h) (t.val - 8) hb (off4_eq t h8 h12), h.2.2.1 h8]
  unfold blkS2
  rw [et]

/-- Storing the specified row block `t - 8` at a middle point extends the second support's specified rows by it. -/
theorem inv_mid_of (t : Fin cfg0.N) (h8 : 8 ≤ t.val) (h12 : t.val < 12) (hc3 : condMid (grid0.coords t))
    (h : Inv m c t.val z0 z1 z2 z3) (hb : t.val - 8 < 4) (w : Vec F S1024x256 .bf16) (hw : w = blkS2 m c (t.val - 8) hb) :
    Inv m c (t.val + 1) z0 z1 z2
      ((Rect.unit (s := S4096x256) (k0_off5 (grid0.coords t)) S1024x256.size (Facts₀.k0_off5_inb _ hc3)).overlay z3 w) := by
  obtain ⟨h0, h1, h2, h3⟩ := h
  refine ⟨fun i j hi => h0 i j (by omega), fun i hi => h1 i (by omega), fun _ => h2 h8, fun i j hi => ?_⟩
  by_cases hlo : i.val < 1024 * (t.val - 8)
  · refine (overlay2_miss' (N := 4096) (C := 256) (M := 1024) (1024 * (t.val - 8)) (off5_eq t h8 h12) _ z3 _ i j (Or.inl hlo)).trans ?_
    exact h3 i j (by omega)
  · refine (overlay2_hit' (N := 4096) (C := 256) (M := 1024) (1024 * (t.val - 8)) (off5_eq t h8 h12) _ z3 _ i j
      ⟨i.val - 1024 * (t.val - 8), by omega⟩
      (by show i.val = 1024 * (t.val - 8) + (i.val - 1024 * (t.val - 8)); omega)).trans ?_
    rw [hw]
    exact (specS2_at m c i j (t.val - 8) hb ⟨i.val - 1024 * (t.val - 8), by omega⟩
      (by show i.val = 1024 * (t.val - 8) + (i.val - 1024 * (t.val - 8)); omega)).symm

theorem inv_mid (t : Fin cfg0.N) (h8 : 8 ≤ t.val) (h12 : t.val < 12) (hc3 : condMid (grid0.coords t))
    (h : Inv m c t.val z0 z1 z2 z3) :
    Inv m c (t.val + 1) z0 z1 z2
      ((Rect.unit (s := S4096x256) (k0_off5 (grid0.coords t)) S1024x256.size (Facts₀.k0_off5_inb _ hc3)).overlay z3
        (k0_pay4 (View.ld z0 (Rect.unit (s := S4096x4096) (k0_off3 (grid0.coords t)) S1024x4096.size (Facts₀.k0_off3_inb _ hc3))) z2
          (View.ld z1 (Rect.unit (s := S4096) (k0_off4 (grid0.coords t)) S1024.size (Facts₀.k0_off4_inb _ hc3))) (blkWc m c t))) :=
  inv_mid_of m c t h8 h12 hc3 h (by omega) _ (pay4_eq m c t h8 h12 hc3 h (by omega))

end Cert.KernelIdeal.Body

end
-- ==== Proof.LibWritesOverlay.lean ====
/-
  Two readings of a buffer after stores through rectangles of one view, for any view and any prior contents.
  `read_writes_cons_overlay`: one more store through a rectangle `r` reads as the payload on `r` and as the earlier
  contents off it — `Rect.overlay` of what the earlier stores left —, so a run of stores whose rectangles are disjoint
  (a loop writing one slab per trip) is an iterated overlay that can be read one index at a time.
  `read_fill`: one store through the whole-shape rectangle at the origin (a zero fill) reads as its payload.
-/
import Idealize.ShloMosaic.Lib.WritesUnit
import Idealize.ShloMosaic.Lib.Memref
import Idealize.ShloMosaic.Lib.Exec.Geometry

namespace Cert.WritesOverlay

open Idealize.ShloMosaic

/-- Reading a buffer after one more store through a rectangle: the payload on the rectangle, the earlier contents off it. -/
theorem read_writes_cons_overlay {sig' : RefSig} {κ : Kind} {sp : Space} {s : Shape} {e : EltTy} {Val : EltTy → Type}
    (v : View sig' κ sp s e) (f : v.ty.Contents Val) (r : Rect s) (w : r.shape.Idx → Val e) (L : List (View.Piece Val s e)) :
    v.read Val (v.writes Val f (⟨r, w⟩ :: L)) = r.overlay (v.read Val (v.writes Val f L)) w := by
  funext y
  by_cases hy : y ∈ r.set
  · obtain ⟨x, rfl⟩ : ∃ x, r.emb x = y := r.exists_idx_of_mem hy
    rw [View.read_writes_cons_emb, Rect.overlay_emb]
  · rw [Rect.overlay_of_not_mem _ _ _ hy, View.writes_cons]
    exact View.read_slice_write_of_not_mem r _ _ _ (by rw [Rect.map_emb_univ]; exact hy)

/-- One store through the whole-shape rectangle at the origin leaves its payload. -/
theorem read_fill {sig' : RefSig} {κ : Kind} {sp : Space} {S : Shape} {e : EltTy} {Val : EltTy → Type} (v : View sig' κ sp S e)
    (f : v.ty.Contents Val) {off : Fin S.rank → ℕ} (h : off = fun _ => 0) (inb : ∀ a, off a + S.size a ≤ S.size a) (w : S.Idx → Val e) :
    v.read Val (v.writes Val f [(⟨Rect.unit off S.size inb, w⟩ : View.Piece Val S e)]) = w := by
  subst h; exact View.read_writes_whole v f w

end Cert.WritesOverlay
-- ==== Proof.LibWholeBlock.lean ====
/-
  Whole-block loads and stores of a whole memref.

  A kernel that loads and stores its blocks whole addresses each staging memref through the one rectangle that starts
  at the origin and has the shape's own extents. Reading a whole memref through that rectangle gives back its
  contents; and after a store through it, whatever was stored earlier, the memref holds the stored value.
-/
import Idealize.ShloMosaic.Lib.Pipeline.Frame
import Idealize.ShloMosaic.Lib.Pipeline.FrameBody
import Idealize.ShloMosaic.Lib.Pipeline.Value

noncomputable section

namespace Idealize.ShloMosaic.WholeBlock

open Idealize.ShloMosaic

variable {Val : EltTy → Type} [∀ e, Nonempty (Val e)]
variable {sig : RefSig} {κ : Kind} {sp : Space} {S : Shape} {e : EltTy}

/-- The origin of a rank-two shape, as the printed rectangles spell it. -/
theorem origin2 : (![0, 0] : Fin 2 → Nat) = fun _ => 0 := by
  funext a; fin_cases a <;> rfl

/-- Every index lies in the rectangle that starts at the origin with the shape's extents. -/
theorem mem_whole {off : Fin S.rank → Nat} (h : off = fun _ => 0) (inb : ∀ a, off a + S.size a ≤ S.size a) (y : S.Idx) :
    y ∈ (Rect.unit off S.size inb).set := by
  subst h
  show y ∈ (Rect.whole S).set
  rw [Rect.set_whole]; exact Finset.mem_univ y

/-- After a store of `w` through the whole rectangle, made last, the view reads `w`. -/
theorem read_store_last (v : View sig κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w :=
  (View.read_writes_eq_canon v f _ (fun y => ⟨_, List.mem_cons_self, mem_whole h inb y⟩)).trans
    (View.canon_cons_unit_zero h inb w L)

/-- A load through the whole rectangle after stores the last of which went through it reads what that store put there. -/
theorem load_after_store (v : View sig κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  rw [View.readCov_eq_canon_ld _ _ _ (fun y => ⟨_, List.mem_cons_self, mem_whole h inb y⟩), View.canon_cons_unit_zero h,
    View.ld_unit_zero h]

/-- A load through the whole rectangle of a whole memref at contents `X` reads `X`. -/
theorem load_whole {M : Memref sig κ sp S e} (hM : M.IsWhole) {off : Fin S.rank → Nat} (h : off = fun _ => 0)
    (inb : ∀ a, off a + S.size a ≤ S.size a) (X : S.Idx → Val e) :
    M.view.readAt Val (Rect.unit off S.size inb).toLoadRect (hM.unread X) = X := by
  rw [View.readAt_eq_ld, hM.read_unread]
  exact View.ld_unit_zero h inb X

end Idealize.ShloMosaic.WholeBlock

end
-- ==== Proof.Body.RunCopy.lean ====
/-
  The body run at a point of the copy phase before the eighth, on any whole staging and scratch memrefs at any contents: it terminates
  without a fault, hands every buffer it does not store into back as it found it, and leaves in each buffer it stores
  into the earlier contents overwritten by the stored value on the stored rows (a whole-buffer store leaves the stored
  value). Loads through a rectangle of rows read the buffer's contents at those rows.
-/
import proofs.«100562_g89885075570807_cont_sun_c4_768_27_alg».proof.Proof.Body.Setup
import proofs.«100562_g89885075570807_cont_sun_c4_768_27_alg».proof.Proof.LibWritesOverlay
import proofs.«100562_g89885075570807_cont_sun_c4_768_27_alg».proof.Proof.LibWholeBlock

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.WholeBlock Cert.WritesOverlay

private theorem origin1 : (![0] : Fin 1 → Nat) = fun _ => 0 := by
  funext a; fin_cases a; rfl

set_option maxHeartbeats 2000000 in
/-- A point of the copy phase before the eighth: the block's rows go into the resident copy, their factors into the
    factor vector. -/
theorem runCopy (c : Dev nD) (i : grid0.Coords)
    (arg1 : Memref sig .tc .vmem S512x4096 .f32) (harg1 : arg1.IsWhole) (arg2 : Memref sig .tc .vmem S4096x256 .bf16) (harg2 : arg2.IsWhole)
    (arg3 : Memref sig .tc .vmem S256x256 .f32) (harg3 : arg3.IsWhole) (arg4 : Memref sig .tc .vmem S256x256 .bf16) (harg4 : arg4.IsWhole)
    (arg5 : Memref sig .tc .vmem S1024x128 .f32) (harg5 : arg5.IsWhole) (arg6 : Memref sig .tc .vmem S1024x128 .f32) (harg6 : arg6.IsWhole)
    (arg7 : Memref sig .tc .vmem S4096x4096 .bf16) (harg7 : arg7.IsWhole) (arg8 : Memref sig .tc .vmem S4096 .f32) (harg8 : arg8.IsWhole)
    (arg9 : Memref sig .tc .vmem S4096x256 .bf16) (harg9 : arg9.IsWhole) (arg10 : Memref sig .tc .vmem S4096x256 .bf16) (harg10 : arg10.IsWhole)
    (hc1 : condCopy i) (hc2 : ¬condS1 i) (hc3 : ¬condMid i) (hc4 : ¬condOut i)
    (x0 : Vec F S512x4096 .f32) (x1 : Vec F S4096x256 .bf16) (x2 : Vec F S256x256 .f32) (x3 : Vec F S256x256 .bf16)
    (y4 y5 : Vec F S1024x128 .f32) (z0 : Vec F S4096x4096 .bf16) (z1 : Vec F S4096 .f32) (z2 z3 : Vec F S4096x256 .bf16)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare y4 ∗ owns (c : Thread nD τ) arg6 fullShare y5
        ∗ owns (c : Thread nD τ) arg7 fullShare z0 ∗ owns (c : Thread nD τ) arg8 fullShare z1 ∗ owns (c : Thread nD τ) arg9 fullShare z2 ∗ owns (c : Thread nD τ) arg10 fullShare z3
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare y4 ∗ owns (c : Thread nD τ) arg6 fullShare y5
          ∗ owns (c : Thread nD τ) arg7 fullShare ((Rect.unit (s := S4096x4096) (k0_off2 i) S512x4096.size (Facts₀.k0_off2_inb i hc1)).overlay z0 (k0_pay2 x0))
          ∗ owns (c : Thread nD τ) arg8 fullShare ((Rect.unit (s := S4096) (k0_off1 i) S512.size (Facts₀.k0_off1_inb i hc1)).overlay z1 (k0_pay1 x0))
          ∗ owns (c : Thread nD τ) arg9 fullShare z2 ∗ owns (c : Thread nD τ) arg10 fullShare z3) -∗ K ⟨⟩))
      ⊢ wp frame (wpE (defs₀ (F := F)) Variants.none c none) E (cc0__gcn_kernel i arg1 harg1 arg2 harg2 arg3 harg3 arg4 harg4 arg5 harg5 arg6 harg6 arg7 harg7 arg8 harg8 arg9 harg9 arg10 harg10) K := by
  simp only [cc0__gcn_kernel_eq_skeleton]; unfold cc0__gcn_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
  obtain rfl := harg1.eq_unread hf1; obtain rfl := harg2.eq_unread hf2; obtain rfl := harg3.eq_unread hf3; obtain rfl := harg4.eq_unread hf4
  obtain rfl := harg5.eq_unread hf5; obtain rfl := harg6.eq_unread hf6; obtain rfl := harg7.eq_unread hf7; obtain rfl := harg8.eq_unread hf8
  obtain rfl := harg9.eq_unread hf9; obtain rfl := harg10.eq_unread hf10
  sl_exec (disch := first | exact hc1 | exact hc2 | exact hc3 | exact hc4)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr
    swap; · iexact H7
    ipureintro
    rw [read_writes_cons_overlay, View.writes_nil, harg7.read_unread, load_whole harg1 origin2]
  isplitl [H8]
  · iexists _; isplitr
    swap; · iexact H8
    ipureintro
    sl_unfold_run_names
    rw [read_writes_cons_overlay, View.writes_nil, harg8.read_unread, load_whole harg1 origin2]
  isplitl [H9]
  · iexists _; isplitr; · ipureintro; exact harg9.read_unread _
    iexact H9
  · iexists _; isplitr; · ipureintro; exact harg10.read_unread _
    iexact H10

end Cert.KernelIdeal.Body

end
-- ==== Proof.Body.RunS1.lean ====
/-
  The body run at a point of the eighth point, which also forms the first support, on any whole staging and scratch memrefs at any contents: it terminates
  without a fault, hands every buffer it does not store into back as it found it, and leaves in each buffer it stores
  into the earlier contents overwritten by the stored value on the stored rows (a whole-buffer store leaves the stored
  value). Loads through a rectangle of rows read the buffer's contents at those rows.
-/
import proofs.«100562_g89885075570807_cont_sun_c4_768_27_alg».proof.Proof.Body.Setup
import proofs.«100562_g89885075570807_cont_sun_c4_768_27_alg».proof.Proof.LibWritesOverlay
import proofs.«100562_g89885075570807_cont_sun_c4_768_27_alg».proof.Proof.LibWholeBlock

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.WholeBlock Cert.WritesOverlay

private theorem origin1 : (![0] : Fin 1 → Nat) = fun _ => 0 := by
  funext a; fin_cases a; rfl

set_option maxHeartbeats 2000000 in
theorem runS1 (c : Dev nD) (i : grid0.Coords)
    (arg1 : Memref sig .tc .vmem S512x4096 .f32) (harg1 : arg1.IsWhole) (arg2 : Memref sig .tc .vmem S4096x256 .bf16) (harg2 : arg2.IsWhole)
    (arg3 : Memref sig .tc .vmem S256x256 .f32) (harg3 : arg3.IsWhole) (arg4 : Memref sig .tc .vmem S256x256 .bf16) (harg4 : arg4.IsWhole)
    (arg5 : Memref sig .tc .vmem S1024x128 .f32) (harg5 : arg5.IsWhole) (arg6 : Memref sig .tc .vmem S1024x128 .f32) (harg6 : arg6.IsWhole)
    (arg7 : Memref sig .tc .vmem S4096x4096 .bf16) (harg7 : arg7.IsWhole) (arg8 : Memref sig .tc .vmem S4096 .f32) (harg8 : arg8.IsWhole)
    (arg9 : Memref sig .tc .vmem S4096x256 .bf16) (harg9 : arg9.IsWhole) (arg10 : Memref sig .tc .vmem S4096x256 .bf16) (harg10 : arg10.IsWhole)
    (hc1 : condCopy i) (hc2 : condS1 i) (hc3 : ¬condMid i) (hc4 : ¬condOut i)
    (x0 : Vec F S512x4096 .f32) (x1 : Vec F S4096x256 .bf16) (x2 : Vec F S256x256 .f32) (x3 : Vec F S256x256 .bf16)
    (y4 y5 : Vec F S1024x128 .f32) (z0 : Vec F S4096x4096 .bf16) (z1 : Vec F S4096 .f32) (z2 z3 : Vec F S4096x256 .bf16)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare y4 ∗ owns (c : Thread nD τ) arg6 fullShare y5
        ∗ owns (c : Thread nD τ) arg7 fullShare z0 ∗ owns (c : Thread nD τ) arg8 fullShare z1 ∗ owns (c : Thread nD τ) arg9 fullShare z2 ∗ owns (c : Thread nD τ) arg10 fullShare z3
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare y4 ∗ owns (c : Thread nD τ) arg6 fullShare y5
          ∗ owns (c : Thread nD τ) arg7 fullShare ((Rect.unit (s := S4096x4096) (k0_off2 i) S512x4096.size (Facts₀.k0_off2_inb i hc1)).overlay z0 (k0_pay2 x0))
          ∗ owns (c : Thread nD τ) arg8 fullShare ((Rect.unit (s := S4096) (k0_off1 i) S512.size (Facts₀.k0_off1_inb i hc1)).overlay z1 (k0_pay1 x0))
          ∗ owns (c : Thread nD τ) arg9 fullShare (k0_pay3 x1 x2 ((Rect.unit (s := S4096) (k0_off1 i) S512.size (Facts₀.k0_off1_inb i hc1)).overlay z1 (k0_pay1 x0))) ∗ owns (c : Thread nD τ) arg10 fullShare z3) -∗ K ⟨⟩))
      ⊢ wp frame (wpE (defs₀ (F := F)) Variants.none c none) E (cc0__gcn_kernel i arg1 harg1 arg2 harg2 arg3 harg3 arg4 harg4 arg5 harg5 arg6 harg6 arg7 harg7 arg8 harg8 arg9 harg9 arg10 harg10) K := by
  simp only [cc0__gcn_kernel_eq_skeleton]; unfold cc0__gcn_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
  obtain rfl := harg1.eq_unread hf1; obtain rfl := harg2.eq_unread hf2; obtain rfl := harg3.eq_unread hf3; obtain rfl := harg4.eq_unread hf4
  obtain rfl := harg5.eq_unread hf5; obtain rfl := harg6.eq_unread hf6; obtain rfl := harg7.eq_unread hf7; obtain rfl := harg8.eq_unread hf8
  obtain rfl := harg9.eq_unread hf9; obtain rfl := harg10.eq_unread hf10
  sl_exec (disch := first | exact hc1 | exact hc2 | exact hc3 | exact hc4)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr
    swap; · iexact H7
    ipureintro
    rw [read_writes_cons_overlay, View.writes_nil, harg7.read_unread, load_whole harg1 origin2]
  isplitl [H8]
  · iexists _; isplitr
    swap; · iexact H8
    ipureintro
    sl_unfold_run_names
    rw [read_writes_cons_overlay, View.writes_nil, harg8.read_unread, load_whole harg1 origin2]
  isplitl [H9]
  · iexists _; isplitr
    swap; · iexact H9
    ipureintro
    sl_unfold_run_names
    rw [read_store_last _ _ origin2, load_whole harg2 origin2, load_whole harg3 origin2, View.readAt_eq_ld, View.ld_unit_zero origin1,
      read_writes_cons_overlay, View.writes_nil, harg8.read_unread, load_whole harg1 origin2]
  · iexists _; isplitr; · ipureintro; exact harg10.read_unread _
    iexact H10

end Cert.KernelIdeal.Body

end
-- ==== Proof.Body.RunMid.lean ====
/-
  The body run at a point of the middle phase, on any whole staging and scratch memrefs at any contents: it terminates
  without a fault, hands every buffer it does not store into back as it found it, and leaves in each buffer it stores
  into the earlier contents overwritten by the stored value on the stored rows (a whole-buffer store leaves the stored
  value). Loads through a rectangle of rows read the buffer's contents at those rows.
-/
import proofs.«100562_g89885075570807_cont_sun_c4_768_27_alg».proof.Proof.Body.Setup
import proofs.«100562_g89885075570807_cont_sun_c4_768_27_alg».proof.Proof.LibWritesOverlay
import proofs.«100562_g89885075570807_cont_sun_c4_768_27_alg».proof.Proof.LibWholeBlock

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.WholeBlock Cert.WritesOverlay

private theorem origin1 : (![0] : Fin 1 → Nat) = fun _ => 0 := by
  funext a; fin_cases a; rfl

set_option maxHeartbeats 2000000 in
theorem runMid (c : Dev nD) (i : grid0.Coords)
    (arg1 : Memref sig .tc .vmem S512x4096 .f32) (harg1 : arg1.IsWhole) (arg2 : Memref sig .tc .vmem S4096x256 .bf16) (harg2 : arg2.IsWhole)
    (arg3 : Memref sig .tc .vmem S256x256 .f32) (harg3 : arg3.IsWhole) (arg4 : Memref sig .tc .vmem S256x256 .bf16) (harg4 : arg4.IsWhole)
    (arg5 : Memref sig .tc .vmem S1024x128 .f32) (harg5 : arg5.IsWhole) (arg6 : Memref sig .tc .vmem S1024x128 .f32) (harg6 : arg6.IsWhole)
    (arg7 : Memref sig .tc .vmem S4096x4096 .bf16) (harg7 : arg7.IsWhole) (arg8 : Memref sig .tc .vmem S4096 .f32) (harg8 : arg8.IsWhole)
    (arg9 : Memref sig .tc .vmem S4096x256 .bf16) (harg9 : arg9.IsWhole) (arg10 : Memref sig .tc .vmem S4096x256 .bf16) (harg10 : arg10.IsWhole)
    (hc1 : ¬condCopy i) (hc2 : ¬condS1 i) (hc3 : condMid i) (hc4 : ¬condOut i)
    (x0 : Vec F S512x4096 .f32) (x1 : Vec F S4096x256 .bf16) (x2 : Vec F S256x256 .f32) (x3 : Vec F S256x256 .bf16)
    (y4 y5 : Vec F S1024x128 .f32) (z0 : Vec F S4096x4096 .bf16) (z1 : Vec F S4096 .f32) (z2 z3 : Vec F S4096x256 .bf16)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare y4 ∗ owns (c : Thread nD τ) arg6 fullShare y5
        ∗ owns (c : Thread nD τ) arg7 fullShare z0 ∗ owns (c : Thread nD τ) arg8 fullShare z1 ∗ owns (c : Thread nD τ) arg9 fullShare z2 ∗ owns (c : Thread nD τ) arg10 fullShare z3
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare y4 ∗ owns (c : Thread nD τ) arg6 fullShare y5
          ∗ owns (c : Thread nD τ) arg7 fullShare z0 ∗ owns (c : Thread nD τ) arg8 fullShare z1 ∗ owns (c : Thread nD τ) arg9 fullShare z2
          ∗ owns (c : Thread nD τ) arg10 fullShare ((Rect.unit (s := S4096x256) (k0_off5 i) S1024x256.size (Facts₀.k0_off5_inb i hc3)).overlay z3 (k0_pay4 (View.ld z0 (Rect.unit (s := S4096x4096) (k0_off3 i) S1024x4096.size (Facts₀.k0_off3_inb i hc3))) z2 (View.ld z1 (Rect.unit (s := S4096) (k0_off4 i) S1024.size (Facts₀.k0_off4_inb i hc3))) x3))) -∗ K ⟨⟩))
      ⊢ wp frame (wpE (defs₀ (F := F)) Variants.none c none) E (cc0__gcn_kernel i arg1 harg1 arg2 harg2 arg3 harg3 arg4 harg4 arg5 harg5 arg6 harg6 arg7 harg7 arg8 harg8 arg9 harg9 arg10 harg10) K := by
  simp only [cc0__gcn_kernel_eq_skeleton]; unfold cc0__gcn_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
  obtain rfl := harg1.eq_unread hf1; obtain rfl := harg2.eq_unread hf2; obtain rfl := harg3.eq_unread hf3; obtain rfl := harg4.eq_unread hf4
  obtain rfl := harg5.eq_unread hf5; obtain rfl := harg6.eq_unread hf6; obtain rfl := harg7.eq_unread hf7; obtain rfl := harg8.eq_unread hf8
  obtain rfl := harg9.eq_unread hf9; obtain rfl := harg10.eq_unread hf10
  sl_exec (disch := first | exact hc1 | exact hc2 | exact hc3 | exact hc4)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  · iexists _; isplitr
    swap; · iexact H10
    ipureintro
    sl_unfold_run_names
    rw [read_writes_cons_overlay, View.writes_nil, harg10.read_unread, View.readAt_eq_ld, harg7.read_unread, load_whole harg9 origin2,
      View.readAt_eq_ld, harg8.read_unread, load_whole harg4 origin2]

end Cert.KernelIdeal.Body

end
-- ==== Proof.Body.RunOut.lean ====
/-
  The body run at a point of the result phase, on any whole staging and scratch memrefs at any contents: it terminates
  without a fault, hands every buffer it does not store into back as it found it, and leaves in each buffer it stores
  into the earlier contents overwritten by the stored value on the stored rows (a whole-buffer store leaves the stored
  value). Loads through a rectangle of rows read the buffer's contents at those rows.
-/
import proofs.«100562_g89885075570807_cont_sun_c4_768_27_alg».proof.Proof.Body.Setup
import proofs.«100562_g89885075570807_cont_sun_c4_768_27_alg».proof.Proof.LibWritesOverlay
import proofs.«100562_g89885075570807_cont_sun_c4_768_27_alg».proof.Proof.LibWholeBlock

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.WholeBlock Cert.WritesOverlay

private theorem origin1 : (![0] : Fin 1 → Nat) = fun _ => 0 := by
  funext a; fin_cases a; rfl

set_option maxHeartbeats 2000000 in
theorem runOut (c : Dev nD) (i : grid0.Coords)
    (arg1 : Memref sig .tc .vmem S512x4096 .f32) (harg1 : arg1.IsWhole) (arg2 : Memref sig .tc .vmem S4096x256 .bf16) (harg2 : arg2.IsWhole)
    (arg3 : Memref sig .tc .vmem S256x256 .f32) (harg3 : arg3.IsWhole) (arg4 : Memref sig .tc .vmem S256x256 .bf16) (harg4 : arg4.IsWhole)
    (arg5 : Memref sig .tc .vmem S1024x128 .f32) (harg5 : arg5.IsWhole) (arg6 : Memref sig .tc .vmem S1024x128 .f32) (harg6 : arg6.IsWhole)
    (arg7 : Memref sig .tc .vmem S4096x4096 .bf16) (harg7 : arg7.IsWhole) (arg8 : Memref sig .tc .vmem S4096 .f32) (harg8 : arg8.IsWhole)
    (arg9 : Memref sig .tc .vmem S4096x256 .bf16) (harg9 : arg9.IsWhole) (arg10 : Memref sig .tc .vmem S4096x256 .bf16) (harg10 : arg10.IsWhole)
    (hc1 : ¬condCopy i) (hc2 : ¬condS1 i) (hc3 : ¬condMid i) (hc4 : condOut i)
    (x0 : Vec F S512x4096 .f32) (x1 : Vec F S4096x256 .bf16) (x2 : Vec F S256x256 .f32) (x3 : Vec F S256x256 .bf16)
    (y4 y5 : Vec F S1024x128 .f32) (z0 : Vec F S4096x4096 .bf16) (z1 : Vec F S4096 .f32) (z2 z3 : Vec F S4096x256 .bf16)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare y4 ∗ owns (c : Thread nD τ) arg6 fullShare y5
        ∗ owns (c : Thread nD τ) arg7 fullShare z0 ∗ owns (c : Thread nD τ) arg8 fullShare z1 ∗ owns (c : Thread nD τ) arg9 fullShare z2 ∗ owns (c : Thread nD τ) arg10 fullShare z3
        ∗ (iprop(owns (c : Thread nD τ) arg1 fullShare x0 ∗ owns (c : Thread nD τ) arg2 fullShare x1 ∗ owns (c : Thread nD τ) arg3 fullShare x2 ∗ owns (c : Thread nD τ) arg4 fullShare x3
          ∗ owns (c : Thread nD τ) arg5 fullShare (k0_pay6 (View.ld z0 (Rect.unit (s := S4096x4096) (k0_off6 i) S1024x4096.size (Facts₀.k0_off6_inb i hc4))) z3 (View.ld z1 (Rect.unit (s := S4096) (k0_off7 i) S1024.size (Facts₀.k0_off7_inb i hc4)))) ∗ owns (c : Thread nD τ) arg6 fullShare (k0_pay7 (View.ld z0 (Rect.unit (s := S4096x4096) (k0_off6 i) S1024x4096.size (Facts₀.k0_off6_inb i hc4))) z3 (View.ld z1 (Rect.unit (s := S4096) (k0_off7 i) S1024.size (Facts₀.k0_off7_inb i hc4))))
          ∗ owns (c : Thread nD τ) arg7 fullShare z0 ∗ owns (c : Thread nD τ) arg8 fullShare z1 ∗ owns (c : Thread nD τ) arg9 fullShare z2 ∗ owns (c : Thread nD τ) arg10 fullShare z3) -∗ K ⟨⟩))
      ⊢ wp frame (wpE (defs₀ (F := F)) Variants.none c none) E (cc0__gcn_kernel i arg1 harg1 arg2 harg2 arg3 harg3 arg4 harg4 arg5 harg5 arg6 harg6 arg7 harg7 arg8 harg8 arg9 harg9 arg10 harg10) K := by
  simp only [cc0__gcn_kernel_eq_skeleton]; unfold cc0__gcn_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
  obtain rfl := harg1.eq_unread hf1; obtain rfl := harg2.eq_unread hf2; obtain rfl := harg3.eq_unread hf3; obtain rfl := harg4.eq_unread hf4
  obtain rfl := harg5.eq_unread hf5; obtain rfl := harg6.eq_unread hf6; obtain rfl := harg7.eq_unread hf7; obtain rfl := harg8.eq_unread hf8
  obtain rfl := harg9.eq_unread hf9; obtain rfl := harg10.eq_unread hf10
  sl_exec (disch := first | exact hc1 | exact hc2 | exact hc3 | exact hc4)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr
    swap; · iexact H5
    ipureintro
    sl_unfold_run_names
    rw [read_store_last _ _ origin2, View.readAt_eq_ld, harg7.read_unread, load_whole harg10 origin2, View.readAt_eq_ld, harg8.read_unread]
  isplitl [H6]
  · iexists _; isplitr
    swap; · iexact H6
    ipureintro
    sl_unfold_run_names
    rw [read_store_last _ _ origin2, View.readAt_eq_ld, harg7.read_unread, load_whole harg10 origin2, View.readAt_eq_ld, harg8.read_unread]
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  · iexists _; isplitr; · ipureintro; exact harg10.read_unread _
    iexact H10

end Cert.KernelIdeal.Body

end
-- ==== Proof.Body.Obligation.lean ====
/-
  The body obligation of the region, point by point, and the frame run.

  At a point the invariant hands the body the four scratch buffers at contents agreeing with the named ones on the rows
  stored so far; the point's phase decides which run applies; the run's stored rows extend the agreement by the point's
  rows (the step lemmas), and from point 12 on the result windows receive the named row blocks. Before the first point
  the invariant asks nothing of the scratch, and after the last it forgets it.
-/
import proofs.«100562_g89885075570807_cont_sun_c4_768_27_alg».proof.Proof.Body.Data
import proofs.«100562_g89885075570807_cont_sun_c4_768_27_alg».proof.Proof.Body.Step
import proofs.«100562_g89885075570807_cont_sun_c4_768_27_alg».proof.Proof.Body.RunCopy
import proofs.«100562_g89885075570807_cont_sun_c4_768_27_alg».proof.Proof.Body.RunS1
import proofs.«100562_g89885075570807_cont_sun_c4_768_27_alg».proof.Proof.Body.RunMid
import proofs.«100562_g89885075570807_cont_sun_c4_768_27_alg».proof.Proof.Body.RunOut
import Idealize.ShloMosaic.Lib.Pipeline.Frame

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t ∗ (dats m 0 c).leavesExact 5 t)

theorem leaves0 (c : Dev nD) (t : Fin cfg0.N) : (dats m 0 c).leavesExact 0 t = owns (c : Thread nD τ) (ms0 t) fullShare (iblk m c 0 t) := by
  unfold Dat.leavesExact; rw [liveAt0 t, after0]
theorem leaves1 (c : Dev nD) (t : Fin cfg0.N) : (dats m 0 c).leavesExact 1 t = owns (c : Thread nD τ) (ms1 t) fullShare (iblk m c 1 t) := by
  unfold Dat.leavesExact; rw [liveAt1 t, after1]
theorem leaves2 (c : Dev nD) (t : Fin cfg0.N) : (dats m 0 c).leavesExact 2 t = owns (c : Thread nD τ) (ms2 t) fullShare (iblk m c 2 t) := by
  unfold Dat.leavesExact; rw [liveAt2 t, after2]
theorem leaves3 (c : Dev nD) (t : Fin cfg0.N) : (dats m 0 c).leavesExact 3 t = owns (c : Thread nD τ) (ms3 t) fullShare (iblk m c 3 t) := by
  unfold Dat.leavesExact; rw [liveAt3 t, after3]
theorem leaves4 (c : Dev nD) (t : Fin cfg0.N) (h : 12 ≤ t.val) : (dats m 0 c).leavesExact 4 t = owns (c : Thread nD τ) (ms4 t) fullShare (outAt4 m c t) := by
  unfold Dat.leavesExact; rw [liveAt4 t h, after4]
theorem leaves5 (c : Dev nD) (t : Fin cfg0.N) (h : 12 ≤ t.val) : (dats m 0 c).leavesExact 5 t = owns (c : Thread nD τ) (ms5 t) fullShare (outAt5 m c t) := by
  unfold Dat.leavesExact; rw [liveAt5 t h, after5]

set_option maxHeartbeats 4000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).owesAt () t.succ = (dats m 0 c).owesAt () t.castSucc from rfl]
  rw [show (dats m 0 c).Φ t.succ = PhiS m c (t.val + 1) from rfl, show (dats m 0 c).Φ t.castSucc = PhiS m c t.val from rfl]
  rw [leaves0, leaves1, leaves2, leaves3]
  have hN : t.val < 16 := N16 t
  unfold PhiS
  by_cases h7 : t.val < 7
  · have hc1 : condCopy (grid0.coords t) := (hcondCopy t).mpr (by omega)
    have hc2 : ¬condS1 (grid0.coords t) := fun h => by have := (hcondS1 t).mp h; omega
    have hc3 : ¬condMid (grid0.coords t) := fun h => by have := (hcondMid t).mp h; omega
    have hc4 : ¬condOut (grid0.coords t) := fun h => by have := (hcondOut t).mp h; omega
    rw [Dat.leavesExact_idle (dats m 0 c) 4 t (idleAt4 t (by omega)) (noFlush4 t (by omega)),
      Dat.leavesExact_idle (dats m 0 c) 5 t (idleAt5 t (by omega)) (noFlush5 t (by omega))]
    iintro ⟨⟨⟨%X0, %X1, %X2, %X3, %hInv, HA, HD, HS1, HS2⟩, Hg⟩, Ho, ⟨%d0, H0⟩, ⟨%d1, H1⟩, ⟨%d2, H2⟩, ⟨%d3, H3⟩, ⟨%d4, H4⟩, ⟨%d5, H5⟩⟩
    iapply (runCopy c (grid0.coords t) _ _ _ _ _ _ _ _ _ _ _ _ _ _ _ _ _ _ _ _ hc1 hc2 hc3 hc4 (blkA m c t) (blkX m c t) (blkW1 m c t) (blkWc m c t) _ _ X0 X1 X2 X3 Set.univ _)
    isplitl [H0]; · iexact H0
    isplitl [H1]; · iexact H1
    isplitl [H2]; · iexact H2
    isplitl [H3]; · iexact H3
    isplitl [H4]; · iexact H4
    isplitl [H5]; · iexact H5
    isplitl [HA]; · iexact HA
    isplitl [HD]; · iexact HD
    isplitl [HS1]; · iexact HS1
    isplitl [HS2]; · iexact HS2
    iintro ⟨H0, H1, H2, H3, H4, H5, HA, HD, HS1, HS2⟩
    isplitl [HA HD HS1 HS2 Hg]
    · isplitr [Hg]
      · iexists _, _, _, _
        isplitr
        · ipureintro; exact inv_copy m c t h7 hc1 hInv
        isplitl [HA]; · iexact HA
        isplitl [HD]; · iexact HD
        isplitl [HS1]; · iexact HS1
        iexact HS2
      iexact Hg
    isplitl [Ho]; · iexact Ho
    isplitl [H0]; · iexact H0
    isplitl [H1]; · iexact H1
    isplitl [H2]; · iexact H2
    isplitl [H3]; · iexact H3
    isplitl [H4]; · iexists _; iexact H4
    iexists _; iexact H5
  by_cases h8 : t.val < 8
  · have ht7 : t.val = 7 := by omega
    have hc1 : condCopy (grid0.coords t) := (hcondCopy t).mpr (by omega)
    have hc2 : condS1 (grid0.coords t) := (hcondS1 t).mpr ht7
    have hc3 : ¬condMid (grid0.coords t) := fun h => by have := (hcondMid t).mp h; omega
    have hc4 : ¬condOut (grid0.coords t) := fun h => by have := (hcondOut t).mp h; omega
    rw [Dat.leavesExact_idle (dats m 0 c) 4 t (idleAt4 t (by omega)) (noFlush4 t (by omega)),
      Dat.leavesExact_idle (dats m 0 c) 5 t (idleAt5 t (by omega)) (noFlush5 t (by omega))]
    iintro ⟨⟨⟨%X0, %X1, %X2, %X3, %hInv, HA, HD, HS1, HS2⟩, Hg⟩, Ho, ⟨%d0, H0⟩, ⟨%d1, H1⟩, ⟨%d2, H2⟩, ⟨%d3, H3⟩, ⟨%d4, H4⟩, ⟨%d5, H5⟩⟩
    iapply (runS1 c (grid0.coords t) _ _ _ _ _ _ _ _ _ _ _ _ _ _ _ _ _ _ _ _ hc1 hc2 hc3 hc4 (blkA m c t) (blkX m c t) (blkW1 m c t) (blkWc m c t) _ _ X0 X1 X2 X3 Set.univ _)
    isplitl [H0]; · iexact H0
    isplitl [H1]; · iexact H1
    isplitl [H2]; · iexact H2
    isplitl [H3]; · iexact H3
    isplitl [H4]; · iexact H4
    isplitl [H5]; · iexact H5
    isplitl [HA]; · iexact HA
    isplitl [HD]; · iexact HD
    isplitl [HS1]; · iexact HS1
    isplitl [HS2]; · iexact HS2
    iintro ⟨H0, H1, H2, H3, H4, H5, HA, HD, HS1, HS2⟩
    isplitl [HA HD HS1 HS2 Hg]
    · isplitr [Hg]
      · iexists _, _, _, _
        isplitr
        · ipureintro; exact inv_s1 m c t ht7 hc1 hInv
        isplitl [HA]; · iexact HA
        isplitl [HD]; · iexact HD
        isplitl [HS1]; · iexact HS1
        iexact HS2
      iexact Hg
    isplitl [Ho]; · iexact Ho
    isplitl [H0]; · iexact H0
    isplitl [H1]; · iexact H1
    isplitl [H2]; · iexact H2
    isplitl [H3]; · iexact H3
    isplitl [H4]; · iexists _; iexact H4
    iexists _; iexact H5
  by_cases h12 : t.val < 12
  · have hc1 : ¬condCopy (grid0.coords t) := fun h => by have := (hcondCopy t).mp h; omega
    have hc2 : ¬condS1 (grid0.coords t) := fun h => by have := (hcondS1 t).mp h; omega
    have hc3 : condMid (grid0.coords t) := (hcondMid t).mpr ⟨by omega, h12⟩
    have hc4 : ¬condOut (grid0.coords t) := fun h => by have := (hcondOut t).mp h; omega
    rw [Dat.leavesExact_idle (dats m 0 c) 4 t (idleAt4 t (by omega)) (noFlush4 t (by omega)),
      Dat.leavesExact_idle (dats m 0 c) 5 t (idleAt5 t (by omega)) (noFlush5 t (by omega))]
    iintro ⟨⟨⟨%X0, %X1, %X2, %X3, %hInv, HA, HD, HS1, HS2⟩, Hg⟩, Ho, ⟨%d0, H0⟩, ⟨%d1, H1⟩, ⟨%d2, H2⟩, ⟨%d3, H3⟩, ⟨%d4, H4⟩, ⟨%d5, H5⟩⟩
    iapply (runMid c (grid0.coords t) _ _ _ _ _ _ _ _ _ _ _ _ _ _ _ _ _ _ _ _ hc1 hc2 hc3 hc4 (blkA m c t) (blkX m c t) (blkW1 m c t) (blkWc m c t) _ _ X0 X1 X2 X3 Set.univ _)
    isplitl [H0]; · iexact H0
    isplitl [H1]; · iexact H1
    isplitl [H2]; · iexact H2
    isplitl [H3]; · iexact H3
    isplitl [H4]; · iexact H4
    isplitl [H5]; · iexact H5
    isplitl [HA]; · iexact HA
    isplitl [HD]; · iexact HD
    isplitl [HS1]; · iexact HS1
    isplitl [HS2]; · iexact HS2
    iintro ⟨H0, H1, H2, H3, H4, H5, HA, HD, HS1, HS2⟩
    isplitl [HA HD HS1 HS2 Hg]
    · isplitr [Hg]
      · iexists _, _, _, _
        isplitr
        · ipureintro; exact inv_mid m c t (by omega) h12 hc3 hInv
        isplitl [HA]; · iexact HA
        isplitl [HD]; · iexact HD
        isplitl [HS1]; · iexact HS1
        iexact HS2
      iexact Hg
    isplitl [Ho]; · iexact Ho
    isplitl [H0]; · iexact H0
    isplitl [H1]; · iexact H1
    isplitl [H2]; · iexact H2
    isplitl [H3]; · iexact H3
    isplitl [H4]; · iexists _; iexact H4
    iexists _; iexact H5
  · have h12' : 12 ≤ t.val := by omega
    have hc1 : ¬condCopy (grid0.coords t) := fun h => by have := (hcondCopy t).mp h; omega
    have hc2 : ¬condS1 (grid0.coords t) := fun h => by have := (hcondS1 t).mp h; omega
    have hc3 : ¬condMid (grid0.coords t) := fun h => by have := (hcondMid t).mp h; omega
    have hc4 : condOut (grid0.coords t) := (hcondOut t).mpr h12'
    rw [leaves4 m c t h12', leaves5 m c t h12']
    iintro ⟨⟨⟨%X0, %X1, %X2, %X3, %hInv, HA, HD, HS1, HS2⟩, Hg⟩, Ho, ⟨%d0, H0⟩, ⟨%d1, H1⟩, ⟨%d2, H2⟩, ⟨%d3, H3⟩, ⟨%d4, H4⟩, ⟨%d5, H5⟩⟩
    iapply (runOut c (grid0.coords t) _ _ _ _ _ _ _ _ _ _ _ _ _ _ _ _ _ _ _ _ hc1 hc2 hc3 hc4 (blkA m c t) (blkX m c t) (blkW1 m c t) (blkWc m c t) _ _ X0 X1 X2 X3 Set.univ _)
    isplitl [H0]; · iexact H0
    isplitl [H1]; · iexact H1
    isplitl [H2]; · iexact H2
    isplitl [H3]; · iexact H3
    isplitl [H4]; · iexact H4
    isplitl [H5]; · iexact H5
    isplitl [HA]; · iexact HA
    isplitl [HD]; · iexact HD
    isplitl [HS1]; · iexact HS1
    isplitl [HS2]; · iexact HS2
    iintro ⟨H0, H1, H2, H3, H4, H5, HA, HD, HS1, HS2⟩
    rw [out4_eq m c t h12' hc4 hInv, out5_eq m c t h12' hc4 hInv]
    isplitl [HA HD HS1 HS2 Hg]
    · isplitr [Hg]
      · iexists _, _, _, _
        isplitr
        · ipureintro; exact inv_out m c t h12' hInv
        isplitl [HA]; · iexact HA
        isplitl [HD]; · iexact HD
        isplitl [HS1]; · iexact HS1
        iexact HS2
      iexact Hg
    isplitl [Ho]; · iexact Ho
    isplitl [H0]; · iexact H0
    isplitl [H1]; · iexact H1
    isplitl [H2]; · iexact H2
    isplitl [H3]; · iexact H3
    isplitl [H4]; · iexact H4
    iexact H5

/-- The library's body obligation, at every point. -/
theorem body_obligation (c : Dev nD) : BodyObligation (dats (F := F) m 0 c) (defs₀ (F := F)) Variants.none () Set.univ := fun t => by
  rw [bigSep_W0, bigSep_W0]
  exact sound_body m c t

/-- Before the first point the invariant asks nothing of the scratch buffers' contents. -/
theorem hin (c : Dev nD) : Pipeline.ΦA spec0 c ⊢ (dats m 0 c).Φ 0 := by
  rw [show (dats m 0 c).Φ 0 = PhiS m c 0 from rfl, PhiA_eq]
  unfold PhiS
  iintro ⟨⟨⟨%X0, HA⟩, ⟨%X1, HD⟩, ⟨%X2, HS1⟩, ⟨%X3, HS2⟩⟩, Hg⟩
  isplitr [Hg]
  · iexists X0, X1, X2, X3
    isplitr
    · ipureintro
      exact ⟨fun i j h => absurd h (by simp), fun i h => absurd h (by simp), fun h => absurd h (by norm_num), fun i j h => absurd h (by simp)⟩
    isplitl [HA]; · iexact HA
    isplitl [HD]; · iexact HD
    isplitl [HS1]; · iexact HS1
    iexact HS2
  iexact Hg

/-- After the last point the scratch buffers' contents are forgotten. -/
theorem hout (c : Dev nD) : (dats m 0 c).Φ (Fin.last cfg0.N) ⊢ Pipeline.ΦA spec0 c := by
  rw [show (dats m 0 c).Φ (Fin.last cfg0.N) = PhiS m c (Fin.last cfg0.N).val from rfl, PhiA_eq]
  unfold PhiS
  iintro ⟨⟨%X0, %X1, %X2, %X3, %hInv, HA, HD, HS1, HS2⟩, Hg⟩
  isplitr [Hg]
  · isplitl [HA]; · iexists _; iexact HA
    isplitl [HD]; · iexists _; iexact HD
    isplitl [HS1]; · iexists _; iexact HS1
    iexists _; iexact HS2
  iexact Hg

set_option backward.isDefEq.respectTransparency.types false in
/-- Every weakly fair execution of the program terminates without a fault, with every array of the pipeline at what the
    proof data computes and every bypassing buffer as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame: the program runs and its argument arrays end unchanged, at any instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

end Cert.KernelIdeal.Body

end
-- ==== Proof.BodyBits.Setup.lean ====
/-
  The grid of the one region has sixteen points in four phases: points 0–7 copy the adjacency matrix, 512 rows at a
  time, into a resident scratch and store each row's normalising factor; point 7 also forms the scaled first-layer
  support; points 8–11 form the scaled second-layer support, 1024 rows at a time; points 12–15 form the two results,
  1024 rows at a time. This module states the phase conditions in closed form over the grid, the row offsets each
  phase addresses the scratch buffers at, where the two result windows are idle, and the region invariant with the four
  scratch buffers named.
-/
import proofs.«100562_g89885075570807_cont_sun_c4_768_27_alg».proof.Proof.Gen.Kernel.Frame
import proofs.«100562_g89885075570807_cont_sun_c4_768_27_alg».proof.Proof.Gen.Kernel.Skeleton
import Idealize.ShloMosaic.Lib.Pipeline.FrameBody
import Idealize.ShloMosaic.Lib.Ring
import Idealize.ShloMosaic.Lib.Tactic

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The phase conditions over the grid -/

/-- The copy phase's condition. -/
abbrev condCopy (i : grid0.Coords) : Prop := k0_cond1 i = 1#1
/-- The condition of the point that forms the first support (the eighth point). -/
abbrev condS1 (i : grid0.Coords) : Prop :=
  (Scalar.cmpi .ne (Scalar.extui (Scalar.cmpi .eq (BitVec.ofNat 32 (i 0).val) 7#32)) 0#32) = 1#1
/-- The middle phase's condition. -/
abbrev condMid (i : grid0.Coords) : Prop := k0_cond3 i = 1#1
/-- The result phase's condition. -/
abbrev condOut (i : grid0.Coords) : Prop := k0_cond4 i = 1#1

theorem hcondCopy : ∀ t : Fin cfg0.N, condCopy (grid0.coords t) ↔ t.val < 8 :=
  (by decide +kernel : ∀ t : Fin grid0.N, condCopy (grid0.coords t) ↔ t.val < 8)
theorem hcondS1 : ∀ t : Fin cfg0.N, condS1 (grid0.coords t) ↔ t.val = 7 :=
  (by decide +kernel : ∀ t : Fin grid0.N, condS1 (grid0.coords t) ↔ t.val = 7)
theorem hcondMid : ∀ t : Fin cfg0.N, condMid (grid0.coords t) ↔ (8 ≤ t.val ∧ t.val < 12) :=
  (by decide +kernel : ∀ t : Fin grid0.N, condMid (grid0.coords t) ↔ (8 ≤ t.val ∧ t.val < 12))
theorem hcondOut : ∀ t : Fin cfg0.N, condOut (grid0.coords t) ↔ 12 ≤ t.val :=
  (by decide +kernel : ∀ t : Fin grid0.N, condOut (grid0.coords t) ↔ 12 ≤ t.val)

/-! ## The row offsets, in closed form -/

theorem off1_eq : ∀ t : Fin cfg0.N, t.val < 8 → k0_off1 (grid0.coords t) = ![512 * t.val] :=
  (by decide +kernel : ∀ t : Fin grid0.N, t.val < 8 → k0_off1 (grid0.coords t) = ![512 * t.val])
theorem off2_eq : ∀ t : Fin cfg0.N, t.val < 8 → k0_off2 (grid0.coords t) = ![512 * t.val, 0] :=
  (by decide +kernel : ∀ t : Fin grid0.N, t.val < 8 → k0_off2 (grid0.coords t) = ![512 * t.val, 0])
theorem off3_eq : ∀ t : Fin cfg0.N, 8 ≤ t.val → t.val < 12 → k0_off3 (grid0.coords t) = ![1024 * (t.val - 8), 0] :=
  (by decide +kernel : ∀ t : Fin grid0.N, 8 ≤ t.val → t.val < 12 → k0_off3 (grid0.coords t) = ![1024 * (t.val - 8), 0])
theorem off4_eq : ∀ t : Fin cfg0.N, 8 ≤ t.val → t.val < 12 → k0_off4 (grid0.coords t) = ![1024 * (t.val - 8)] :=
  (by decide +kernel : ∀ t : Fin grid0.N, 8 ≤ t.val → t.val < 12 → k0_off4 (grid0.coords t) = ![1024 * (t.val - 8)])
theorem off5_eq : ∀ t : Fin cfg0.N, 8 ≤ t.val → t.val < 12 → k0_off5 (grid0.coords t) = ![1024 * (t.val - 8), 0] :=
  (by decide +kernel : ∀ t : Fin grid0.N, 8 ≤ t.val → t.val < 12 → k0_off5 (grid0.coords t) = ![1024 * (t.val - 8), 0])
theorem off6_eq : ∀ t : Fin cfg0.N, 12 ≤ t.val → k0_off6 (grid0.coords t) = ![1024 * (t.val - 12), 0] :=
  (by decide +kernel : ∀ t : Fin grid0.N, 12 ≤ t.val → k0_off6 (grid0.coords t) = ![1024 * (t.val - 12), 0])
theorem off7_eq : ∀ t : Fin cfg0.N, 12 ≤ t.val → k0_off7 (grid0.coords t) = ![1024 * (t.val - 12)] :=
  (by decide +kernel : ∀ t : Fin grid0.N, 12 ≤ t.val → k0_off7 (grid0.coords t) = ![1024 * (t.val - 12)])

/-! ## Where the windows are idle, and where the results are written back -/

theorem liveAt0 : ∀ t : Fin cfg0.N, cfg0.idle 0 (grid0.coords t) = false := by decide +kernel
theorem liveAt1 : ∀ t : Fin cfg0.N, cfg0.idle 1 (grid0.coords t) = false := by decide +kernel
theorem liveAt2 : ∀ t : Fin cfg0.N, cfg0.idle 2 (grid0.coords t) = false := by decide +kernel
theorem liveAt3 : ∀ t : Fin cfg0.N, cfg0.idle 3 (grid0.coords t) = false := by decide +kernel
theorem idleAt4 : ∀ t : Fin cfg0.N, t.val < 12 → cfg0.idle 4 (grid0.coords t) = true := by decide +kernel
theorem idleAt5 : ∀ t : Fin cfg0.N, t.val < 12 → cfg0.idle 5 (grid0.coords t) = true := by decide +kernel
theorem liveAt4 : ∀ t : Fin cfg0.N, 12 ≤ t.val → cfg0.idle 4 (grid0.coords t) = false := by decide +kernel
theorem liveAt5 : ∀ t : Fin cfg0.N, 12 ≤ t.val → cfg0.idle 5 (grid0.coords t) = false := by decide +kernel
theorem noFlush4 : ∀ t : Fin cfg0.N, t.val < 12 → (cfg0.win 4).flush t = false := by decide +kernel
theorem noFlush5 : ∀ t : Fin cfg0.N, t.val < 12 → (cfg0.win 5).flush t = false := by decide +kernel

/-! ## The staging and scratch memrefs at a point -/

abbrev ms0 (t : Fin cfg0.N) : Memref sig .tc .vmem S512x4096 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S4096x256 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S256x256 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S256x256 .bf16 := win0_3.stage (cfg0.slots t 3)
abbrev hs3 (t : Fin cfg0.N) : (ms3 t).IsWhole := hstage0_3 ((cfg0.slots t 3).cast nbuf0_3)
abbrev ms4 (t : Fin cfg0.N) : Memref sig .tc .vmem S1024x128 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1024x128 .f32 := win0_5.stage (cfg0.slots t 5)
abbrev hs5 (t : Fin cfg0.N) : (ms5 t).IsWhole := hstage0_5 ((cfg0.slots t 5).cast nbuf0_5)
/-- The four scratch buffers: the resident copy of the matrix, the factors, the two supports. -/
abbrev scA : Memref sig .tc .vmem S4096x4096 .bf16 := Memref.whole cc0_scratch0
abbrev scD : Memref sig .tc .vmem S4096 .f32 := Memref.whole cc0_scratch1
abbrev scS1 : Memref sig .tc .vmem S4096x256 .bf16 := Memref.whole cc0_scratch2
abbrev scS2 : Memref sig .tc .vmem S4096x256 .bf16 := Memref.whole cc0_scratch3

/-- The class invariant with the scratch buffers as memrefs owned at some contents. -/
theorem PhiA_eq (c : Dev nD) :
    (Pipeline.ΦA spec0 c : sProp 𝕄)
      = iprop(iprop((∃ d, owns (c : Thread nD τ) scA fullShare d) ∗ (∃ d, owns (c : Thread nD τ) scD fullShare d)
          ∗ (∃ d, owns (c : Thread nD τ) scS1 fullShare d) ∗ (∃ d, owns (c : Thread nD τ) scS2 fullShare d)) ∗ (∃ r, prngReg c r)) := by
  unfold Pipeline.ΦA; rw [scopedRest0_eq]; simp only [scA, scD, scS1, scS2, owns_whole]; try rfl

end Cert.Kernel.Body

end
-- ==== Proof.BodyBits.Data.lean ====
/-
  What the four scratch buffers and the two result windows hold, as functions of the input windows' blocks alone,
  and the region's proof data over them.

  `specA` is the resident copy of the matrix (row `i` comes from the block of point `i / 512`), `specD` the row
  factors, `specS1` the first support (formed at the eighth point from the whole factor vector), `specS2` the second
  support (row block `b` formed at point `8 + b`), `out4 b` / `out5 b` the two results' row block `b` (formed at point
  `12 + b`). Before point `t` the scratch buffers agree with these on the rows the earlier points have stored
  (`Inv`); what they hold elsewhere is never read.
-/
import proofs.«100562_g89885075570807_cont_sun_c4_768_27_alg».proof.Proof.BodyBits.Setup
import Idealize.ShloMosaic.Lib.ValueIdx

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

open Idealize.ShloMosaic.ValueIdx

variable (m : (ℓ : Loc nD τ sig) → Buf (Elt F) ℓ) (c : Dev nD)

/-- Grid point number `n`. -/
def pt (n : ℕ) (h : n < 16) : Fin cfg0.N := ⟨n, lt_of_lt_of_eq h N_0.symm⟩

@[simp] theorem pt_val (n : ℕ) (h : n < 16) : (pt n h).val = n := rfl

theorem pt_eq (t : Fin cfg0.N) (h : t.val < 16) : pt t.val h = t := Fin.ext rfl

theorem N16 (t : Fin cfg0.N) : t.val < 16 := lt_of_lt_of_eq t.isLt N_0

/-- The input windows' blocks at a point, at their literal shapes. -/
def blkA (t : Fin cfg0.N) : Vec F S512x4096 .f32 := iblk m c 0 t
def blkX (t : Fin cfg0.N) : Vec F S4096x256 .bf16 := iblk m c 1 t
def blkW1 (t : Fin cfg0.N) : Vec F S256x256 .f32 := iblk m c 2 t
def blkWc (t : Fin cfg0.N) : Vec F S256x256 .bf16 := iblk m c 3 t

/-- The resident copy of the matrix. -/
def specA : Vec F S4096x4096 .bf16 := fun y =>
  k0_pay2 (blkA m c (pt ((y 0).val / 512) (by have := (y 0).isLt; change (y 0).val < 4096 at this; omega)))
    (ix2 ⟨(y 0).val % 512, Nat.mod_lt _ (by norm_num)⟩ (y 1))

/-- The row factors. -/
def specD : Vec F S4096 .f32 := fun y =>
  k0_pay1 (blkA m c (pt ((y 0).val / 512) (by have := (y 0).isLt; change (y 0).val < 4096 at this; omega)))
    (ix1 ⟨(y 0).val % 512, Nat.mod_lt _ (by norm_num)⟩)

/-- The first support. -/
def specS1 : Vec F S4096x256 .bf16 := k0_pay3 (blkX m c (pt 7 (by norm_num))) (blkW1 m c (pt 7 (by norm_num))) (specD m c)

/-- Row block `b` (1024 rows) of the resident copy and of the factors. -/
def rowsA (b : ℕ) (hb : b < 4) : Vec F S1024x4096 .bf16 := fun y =>
  specA m c (ix2 ⟨1024 * b + (y 0).val, by have := (y 0).isLt; change (y 0).val < 1024 at this; omega⟩ (y 1))
def rowsD (b : ℕ) (hb : b < 4) : Vec F S1024 .f32 := fun y =>
  specD m c (ix1 ⟨1024 * b + (y 0).val, by have := (y 0).isLt; change (y 0).val < 1024 at this; omega⟩)

/-- Row block `b` of the second support. -/
def blkS2 (b : ℕ) (hb : b < 4) : Vec F S1024x256 .bf16 :=
  k0_pay4 (rowsA m c b hb) (specS1 m c) (rowsD m c b hb) (blkWc m c (pt (8 + b) (by omega)))

/-- The second support. -/
def specS2 : Vec F S4096x256 .bf16 := fun y =>
  blkS2 m c ((y 0).val / 1024) (by have := (y 0).isLt; change (y 0).val < 4096 at this; omega)
    (ix2 ⟨(y 0).val % 1024, Nat.mod_lt _ (by norm_num)⟩ (y 1))

/-- Row block `b` of the two results. -/
def out4 (b : ℕ) (hb : b < 4) : Vec F S1024x128 .f32 := k0_pay6 (rowsA m c b hb) (specS2 m c) (rowsD m c b hb)
def out5 (b : ℕ) (hb : b < 4) : Vec F S1024x128 .f32 := k0_pay7 (rowsA m c b hb) (specS2 m c) (rowsD m c b hb)

/-- What the scratch buffers are known to hold before point `t`. -/
def Inv (t : ℕ) (X0 : Vec F S4096x4096 .bf16) (X1 : Vec F S4096 .f32) (X2 X3 : Vec F S4096x256 .bf16) : Prop :=
  (∀ (i : Fin 4096) (j : Fin 4096), i.val < 512 * min t 8 → X0 (ix2 i j) = specA m c (ix2 i j))
  ∧ (∀ i : Fin 4096, i.val < 512 * min t 8 → X1 (ix1 i) = specD m c (ix1 i))
  ∧ (8 ≤ t → X2 = specS1 m c)
  ∧ (∀ (i : Fin 4096) (j : Fin 256), i.val + 8192 < 1024 * min t 12 → X3 (ix2 i j) = specS2 m c (ix2 i j))

/-- The region invariant before point `n`: the scratch buffers at contents satisfying `Inv n`. -/
def PhiS (n : ℕ) : sProp 𝕄 :=
  iprop(iprop(∃ X0 X1 X2 X3, ⌜Inv m c n X0 X1 X2 X3⌝ ∗ owns (c : Thread nD τ) scA fullShare X0 ∗ owns (c : Thread nD τ) scD fullShare X1
      ∗ owns (c : Thread nD τ) scS1 fullShare X2 ∗ owns (c : Thread nD τ) scS2 fullShare X3) ∗ (∃ r, prngReg c r))

/-- What the result windows' buffers hold after the body at point `t`: the point's row block from point 12 on (before
    that the windows are idle and the value is never consulted). -/
def outAt4 (t : Fin cfg0.N) : Vec F S1024x128 .f32 :=
  if h : 12 ≤ t.val then out4 m c (t.val - 12) (by have := N16 t; omega) else out4 m c 0 (by norm_num)
def outAt5 (t : Fin cfg0.N) : Vec F S1024x128 .f32 :=
  if h : 12 ≤ t.val then out5 m c (t.val - 12) (by have := N16 t; omega) else out5 m c 0 (by norm_num)

/-- The proof data of the one pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outAt4 m c t
    | ⟨5, _⟩ => outAt5 m c t
  Φ t := PhiS m c t.val
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = outAt4 m c t := by dsimp only [dats]
theorem after5 (c : Dev nD) (t : Fin cfg0.N) : (dats m 0 c).after 5 t = outAt5 m c t := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d

end Cert.Kernel.Body

end
-- ==== Proof.BodyBits.Step.lean ====
/-
  The steps of the region invariant, for every float instance: what the scratch buffers hold after the stores of a
  copy point, of the eighth point, of a middle point and of a result point, and what a result point's two payloads
  are. Each is a statement about functions on index sets: a store through a slab of whole rows overwrites those
  rows with the payload and leaves the others, and a load through such a slab reads the rows of the array.
-/
import proofs.«100562_g89885075570807_cont_sun_c4_768_27_alg».proof.Proof.BodyBits.Data
import proofs.«100562_g89885075570807_cont_sun_c4_768_27_alg».proof.Proof.LibRowSlab
import Idealize.ShloMosaic.Lib.ValueIdx

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

open Idealize.ShloMosaic.ValueIdx Cert.RowSlab

/-! ## The slab lemmas with the offset given up to an equation -/

section Slab

variable {α : Type}

theorem overlay2_hit' {N C M : ℕ} (o : ℕ) {off : Fin 2 → ℕ} (hoff : off = ![o, 0])
    (inb : ∀ a, off a + (⟨2, ![M, C]⟩ : Shape).size a ≤ (⟨2, ![N, C]⟩ : Shape).size a)
    (X : (⟨2, ![N, C]⟩ : Shape).Idx → α) (w : (⟨2, ![M, C]⟩ : Shape).Idx → α) (i : Fin N) (j : Fin C) (r : Fin M)
    (h : i.val = o + r.val) :
    (Rect.unit (s := ⟨2, ![N, C]⟩) off (⟨2, ![M, C]⟩ : Shape).size inb).overlay X w (ix2 i j) = w (ix2 r j) := by
  subst hoff; exact overlay2_hit o inb X w i j r h

theorem overlay2_miss' {N C M : ℕ} (o : ℕ) {off : Fin 2 → ℕ} (hoff : off = ![o, 0])
    (inb : ∀ a, off a + (⟨2, ![M, C]⟩ : Shape).size a ≤ (⟨2, ![N, C]⟩ : Shape).size a)
    (X : (⟨2, ![N, C]⟩ : Shape).Idx → α) (w : (⟨2, ![M, C]⟩ : Shape).Idx → α) (i : Fin N) (j : Fin C)
    (h : i.val < o ∨ o + M ≤ i.val) :
    (Rect.unit (s := ⟨2, ![N, C]⟩) off (⟨2, ![M, C]⟩ : Shape).size inb).overlay X w (ix2 i j) = X (ix2 i j) := by
  subst hoff; exact overlay2_miss o inb X w i j h

theorem overlay1_hit' {N M : ℕ} (o : ℕ) {off : Fin 1 → ℕ} (hoff : off = ![o])
    (inb : ∀ a, off a + (⟨1, ![M]⟩ : Shape).size a ≤ (⟨1, ![N]⟩ : Shape).size a)
    (X : (⟨1, ![N]⟩ : Shape).Idx → α) (w : (⟨1, ![M]⟩ : Shape).Idx → α) (i : Fin N) (r : Fin M) (h : i.val = o + r.val) :
    (Rect.unit (s := ⟨1, ![N]⟩) off (⟨1, ![M]⟩ : Shape).size inb).overlay X w (ix1 i) = w (ix1 r) := by
  subst hoff; exact overlay1_hit o inb X w i r h

theorem overlay1_miss' {N M : ℕ} (o : ℕ) {off : Fin 1 → ℕ} (hoff : off = ![o])
    (inb : ∀ a, off a + (⟨1, ![M]⟩ : Shape).size a ≤ (⟨1, ![N]⟩ : Shape).size a)
    (X : (⟨1, ![N]⟩ : Shape).Idx → α) (w : (⟨1, ![M]⟩ : Shape).Idx → α) (i : Fin N) (h : i.val < o ∨ o + M ≤ i.val) :
    (Rect.unit (s := ⟨1, ![N]⟩) off (⟨1, ![M]⟩ : Shape).size inb).overlay X w (ix1 i) = X (ix1 i) := by
  subst hoff; exact overlay1_miss o inb X w i h

theorem ld1_at' {Val : EltTy → Type} {e : EltTy} {N M : ℕ} (X : (⟨1, ![N]⟩ : Shape).Idx → Val e) (o : ℕ)
    {off : Fin 1 → ℕ} (hoff : off = ![o])
    (inb : ∀ a, off a + (⟨1, ![M]⟩ : Shape).size a ≤ (⟨1, ![N]⟩ : Shape).size a)
    (a : Fin M) (a' : Fin N) (ha : a'.val = o + a.val) :
    View.ld X (Rect.unit (s := ⟨1, ![N]⟩) off (⟨1, ![M]⟩ : Shape).size inb) (ix1 a) = X (ix1 a') := by
  subst hoff; exact ld1_at X o inb a a' ha

theorem ld2_rows' {Val : EltTy → Type} {e : EltTy} {N C M : ℕ} (X : (⟨2, ![N, C]⟩ : Shape).Idx → Val e) (o : ℕ)
    {off : Fin 2 → ℕ} (hoff : off = ![o, 0])
    (inb : ∀ a, off a + (⟨2, ![M, C]⟩ : Shape).size a ≤ (⟨2, ![N, C]⟩ : Shape).size a)
    (a : Fin M) (b : Fin C) (a' : Fin N) (ha : a'.val = o + a.val) :
    View.ld X (Rect.unit (s := ⟨2, ![N, C]⟩) off (⟨2, ![M, C]⟩ : Shape).size inb) (ix2 a b) = X (ix2 a' b) := by
  subst hoff; exact ld2_rows X o inb a b a' ha

end Slab

variable (m : (ℓ : Loc nD τ sig) → Buf (Elt F) ℓ) (c : Dev nD)

variable {z0 : Vec F S4096x4096 .bf16} {z1 : Vec F S4096 .f32} {z2 z3 : Vec F S4096x256 .bf16}

/-! ## Reading the invariant -/

/-- From the eighth point on, every row of the resident copy is the specified one. -/
theorem z0_all {n : ℕ} (h8 : 8 ≤ n) (h : Inv m c n z0 z1 z2 z3) (i : Fin 4096) (j : Fin 4096) :
    z0 (ix2 i j) = specA m c (ix2 i j) := h.1 i j (by have := i.isLt; omega)

/-- From the eighth point on, every row factor is the specified one. -/
theorem z1_all {n : ℕ} (h8 : 8 ≤ n) (h : Inv m c n z0 z1 z2 z3) (i : Fin 4096) :
    z1 (ix1 i) = specD m c (ix1 i) := h.2.1 i (by have := i.isLt; omega)

/-- From the twelfth point on, the second support is the specified one. -/
theorem z3_all {n : ℕ} (h12 : 12 ≤ n) (h : Inv m c n z0 z1 z2 z3) : z3 = specS2 m c := by
  refine funext fun (y : S4096x256.Idx) => ?_
  obtain ⟨p, q, rfl⟩ : ∃ (p : Fin 4096) (q : Fin 256), y = ix2 p q := ⟨y 0, y 1, eq_ix2 y⟩
  exact h.2.2.2 p q (by have := p.isLt; omega)

/-- A load of row block `b` of a resident copy that is the specified one on every row. -/
theorem ldA_eq (hz0 : ∀ (i : Fin 4096) (j : Fin 4096), z0 (ix2 i j) = specA m c (ix2 i j)) (b : ℕ) (hb : b < 4)
    {off : Fin 2 → ℕ} (hoff : off = ![1024 * b, 0]) (inb : ∀ a, off a + S1024x4096.size a ≤ S4096x4096.size a) :
    View.ld z0 (Rect.unit (s := S4096x4096) off S1024x4096.size inb) = rowsA m c b hb := by
  refine funext fun (y : S1024x4096.Idx) => ?_
  obtain ⟨p, q, rfl⟩ : ∃ (p : Fin 1024) (q : Fin 4096), y = ix2 p q := ⟨y 0, y 1, eq_ix2 y⟩
  refine (ld2_rows' (N := 4096) (C := 4096) (M := 1024) z0 (1024 * b) hoff inb p q
    ⟨1024 * b + p.val, by have := p.isLt; omega⟩ rfl).trans ?_
  exact hz0 _ _

/-- A load of row block `b` of factors that are the specified ones on every row. -/
theorem ldD_eq (hz1 : ∀ i : Fin 4096, z1 (ix1 i) = specD m c (ix1 i)) (b : ℕ) (hb : b < 4)
    {off : Fin 1 → ℕ} (hoff : off = ![1024 * b]) (inb : ∀ a, off a + S1024.size a ≤ S4096.size a) :
    View.ld z1 (Rect.unit (s := S4096) off S1024.size inb) = rowsD m c b hb := by
  refine funext fun (y : S1024.Idx) => ?_
  obtain ⟨p, rfl⟩ : ∃ p : Fin 1024, y = ix1 p := ⟨y 0, eq_ix1 y⟩
  refine (ld1_at' (N := 4096) (M := 1024) z1 (1024 * b) hoff inb p
    ⟨1024 * b + p.val, by have := p.isLt; omega⟩ rfl).trans ?_
  exact hz1 _

/-! ## The result points -/

/-- A result point stores nothing into the scratch buffers, and the invariant's bounds are saturated. -/
theorem inv_out (t : Fin cfg0.N) (h12 : 12 ≤ t.val) (h : Inv m c t.val z0 z1 z2 z3) :
    Inv m c (t.val + 1) z0 z1 z2 z3 := by
  obtain ⟨h0, h1, h2, h3⟩ := h
  exact ⟨fun i j hi => h0 i j (by omega), fun i hi => h1 i (by omega), fun _ => h2 (by omega),
    fun i j hi => h3 i j (by omega)⟩

theorem out4_eq (t : Fin cfg0.N) (h12 : 12 ≤ t.val) (hc4 : condOut (grid0.coords t)) (h : Inv m c t.val z0 z1 z2 z3) :
    k0_pay6 (View.ld z0 (Rect.unit (s := S4096x4096) (k0_off6 (grid0.coords t)) S1024x4096.size (Facts₀.k0_off6_inb _ hc4))) z3
        (View.ld z1 (Rect.unit (s := S4096) (k0_off7 (grid0.coords t)) S1024.size (Facts₀.k0_off7_inb _ hc4)))
      = outAt4 m c t := by
  have hb : t.val - 12 < 4 := by have := N16 t; omega
  rw [ldA_eq m c (z0_all m c (by omega) h) (t.val - 12) hb (off6_eq t h12),
    ldD_eq m c (z1_all m c (by omega) h) (t.val - 12) hb (off7_eq t h12), z3_all m c h12 h]
  unfold outAt4
  rw [dif_pos h12]
  rfl

theorem out5_eq (t : Fin cfg0.N) (h12 : 12 ≤ t.val) (hc4 : condOut (grid0.coords t)) (h : Inv m c t.val z0 z1 z2 z3) :
    k0_pay7 (View.ld z0 (Rect.unit (s := S4096x4096) (k0_off6 (grid0.coords t)) S1024x4096.size (Facts₀.k0_off6_inb _ hc4))) z3
        (View.ld z1 (Rect.unit (s := S4096) (k0_off7 (grid0.coords t)) S1024.size (Facts₀.k0_off7_inb _ hc4)))
      = outAt5 m c t := by
  have hb : t.val - 12 < 4 := by have := N16 t; omega
  rw [ldA_eq m c (z0_all m c (by omega) h) (t.val - 12) hb (off6_eq t h12),
    ldD_eq m c (z1_all m c (by omega) h) (t.val - 12) hb (off7_eq t h12), z3_all m c h12 h]
  unfold outAt5
  rw [dif_pos h12]
  rfl

/-! ## The specified contents at a row, by the row's block -/

/-- Row `512 * t + r` of the resident copy is row `r` of the payload of point `t`. -/
theorem specA_at (i : Fin 4096) (j : Fin 4096) (t : Fin cfg0.N) (r : Fin 512) (h : i.val = 512 * t.val + r.val) :
    specA m c (ix2 i j) = k0_pay2 (blkA m c t) (ix2 r j) := by
  have e1 : ∀ hp, pt (i.val / 512) hp = t := fun hp => Fin.ext (by have := r.isLt; show i.val / 512 = t.val; omega)
  have e2 : ∀ hp, (⟨i.val % 512, hp⟩ : Fin 512) = r := fun hp => Fin.ext (by have := r.isLt; show i.val % 512 = r.val; omega)
  show k0_pay2 (blkA m c (pt (i.val / 512) _)) (ix2 ⟨i.val % 512, _⟩ j) = _
  rw [e1, e2]

/-- Row factor `512 * t + r` is entry `r` of the payload of point `t`. -/
theorem specD_at (i : Fin 4096) (t : Fin cfg0.N) (r : Fin 512) (h : i.val = 512 * t.val + r.val) :
    specD m c (ix1 i) = k0_pay1 (blkA m c t) (ix1 r) := by
  have e1 : ∀ hp, pt (i.val / 512) hp = t := fun hp => Fin.ext (by have := r.isLt; show i.val / 512 = t.val; omega)
  have e2 : ∀ hp, (⟨i.val % 512, hp⟩ : Fin 512) = r := fun hp => Fin.ext (by have := r.isLt; show i.val % 512 = r.val; omega)
  show k0_pay1 (blkA m c (pt (i.val / 512) _)) (ix1 ⟨i.val % 512, _⟩) = _
  rw [e1, e2]

theorem blkS2_congr {b b' : ℕ} (e : b = b') (hb : b < 4) (hb' : b' < 4) : blkS2 m c b hb = blkS2 m c b' hb' := by
  subst e; rfl

/-- Row `1024 * b + r` of the second support is row `r` of its row block `b`. -/
theorem specS2_at (i : Fin 4096) (j : Fin 256) (b : ℕ) (hb : b < 4) (r : Fin 1024) (h : i.val = 1024 * b + r.val) :
    specS2 m c (ix2 i j) = blkS2 m c b hb (ix2 r j) := by
  have e1 : i.val / 1024 = b := by have := r.isLt; omega
  have e2 : ∀ hp, (⟨i.val % 1024, hp⟩ : Fin 1024) = r := fun hp => Fin.ext (by have := r.isLt; show i.val % 1024 = r.val; omega)
  show blkS2 m c (i.val / 1024) _ (ix2 ⟨i.val % 1024, _⟩ j) = _
  rw [blkS2_congr m c e1 _ hb, e2]

/-! ## The copy points -/

/-- After a copy point's store the resident copy has the specified rows up to the point's slab. -/
theorem copyA_step (t : Fin cfg0.N) (ht : t.val < 8) (hc1 : condCopy (grid0.coords t)) (h : Inv m c t.val z0 z1 z2 z3)
    (i : Fin 4096) (j : Fin 4096) (hi : i.val < 512 * (t.val + 1)) :
    (Rect.unit (s := S4096x4096) (k0_off2 (grid0.coords t)) S512x4096.size (Facts₀.k0_off2_inb _ hc1)).overlay z0
        (k0_pay2 (blkA m c t)) (ix2 i j) = specA m c (ix2 i j) := by
  by_cases hlo : i.val < 512 * t.val
  · refine (overlay2_miss' (N := 4096) (C := 4096) (M := 512) (512 * t.val) (off2_eq t ht) _ z0 _ i j (Or.inl hlo)).trans ?_
    exact h.1 i j (by omega)
  · refine (overlay2_hit' (N := 4096) (C := 4096) (M := 512) (512 * t.val) (off2_eq t ht) _ z0 _ i j
      ⟨i.val - 512 * t.val, by omega⟩ (by show i.val = 512 * t.val + (i.val - 512 * t.val); omega)).trans ?_
    exact (specA_at m c i j t ⟨i.val - 512 * t.val, by omega⟩ (by show i.val = 512 * t.val + (i.val - 512 * t.val); omega)).symm

/-- After a copy point's store the factors are the specified ones up to the point's slab. -/
theorem copyD_step (t : Fin cfg0.N) (ht : t.val < 8) (hc1 : condCopy (grid0.coords t)) (h : Inv m c t.val z0 z1 z2 z3)
    (i : Fin 4096) (hi : i.val < 512 * (t.val + 1)) :
    (Rect.unit (s := S4096) (k0_off1 (grid0.coords t)) S512.size (Facts₀.k0_off1_inb _ hc1)).overlay z1
        (k0_pay1 (blkA m c t)) (ix1 i) = specD m c (ix1 i) := by
  by_cases hlo : i.val < 512 * t.val
  · refine (overlay1_miss' (N := 4096) (M := 512) (512 * t.val) (off1_eq t ht) _ z1 _ i (Or.inl hlo)).trans ?_
    exact h.2.1 i (by omega)
  · refine (overlay1_hit' (N := 4096) (M := 512) (512 * t.val) (off1_eq t ht) _ z1 _ i
      ⟨i.val - 512 * t.val, by omega⟩ (by show i.val = 512 * t.val + (i.val - 512 * t.val); omega)).trans ?_
    exact (specD_at m c i t ⟨i.val - 512 * t.val, by omega⟩ (by show i.val = 512 * t.val + (i.val - 512 * t.val); omega)).symm

theorem inv_copy (t : Fin cfg0.N) (ht : t.val < 7) (hc1 : condCopy (grid0.coords t)) (h : Inv m c t.val z0 z1 z2 z3) :
    Inv m c (t.val + 1)
      ((Rect.unit (s := S4096x4096) (k0_off2 (grid0.coords t)) S512x4096.size (Facts₀.k0_off2_inb _ hc1)).overlay z0 (k0_pay2 (blkA m c t)))
      ((Rect.unit (s := S4096) (k0_off1 (grid0.coords t)) S512.size (Facts₀.k0_off1_inb _ hc1)).overlay z1 (k0_pay1 (blkA m c t)))
      z2 z3 := by
  refine ⟨fun i j hi => copyA_step m c t (by omega) hc1 h i j (by omega),
    fun i hi => copyD_step m c t (by omega) hc1 h i (by omega), fun h8 => absurd h8 (by omega), fun i j hi => absurd hi (by omega)⟩

/-! ## The eighth point -/

theorem inv_s1 (t : Fin cfg0.N) (ht : t.val = 7) (hc1 : condCopy (grid0.coords t)) (h : Inv m c t.val z0 z1 z2 z3) :
    Inv m c (t.val + 1)
      ((Rect.unit (s := S4096x4096) (k0_off2 (grid0.coords t)) S512x4096.size (Facts₀.k0_off2_inb _ hc1)).overlay z0 (k0_pay2 (blkA m c t)))
      ((Rect.unit (s := S4096) (k0_off1 (grid0.coords t)) S512.size (Facts₀.k0_off1_inb _ hc1)).overlay z1 (k0_pay1 (blkA m c t)))
      (k0_pay3 (blkX m c t) (blkW1 m c t)
        ((Rect.unit (s := S4096) (k0_off1 (grid0.coords t)) S512.size (Facts₀.k0_off1_inb _ hc1)).overlay z1 (k0_pay1 (blkA m c t))))
      z3 := by
  -- every row is covered after the eighth store, so the factor vector is the specified one
  have hD : (Rect.unit (s := S4096) (k0_off1 (grid0.coords t)) S512.size (Facts₀.k0_off1_inb _ hc1)).overlay z1 (k0_pay1 (blkA m c t))
      = specD m c := by
    refine funext fun (y : S4096.Idx) => ?_
    obtain ⟨p, rfl⟩ : ∃ p : Fin 4096, y = ix1 p := ⟨y 0, eq_ix1 y⟩
    exact copyD_step m c t (by omega) hc1 h p (by have := p.isLt; omega)
  have ht7 : ∀ hp, pt 7 hp = t := fun hp => Fin.ext (by show 7 = t.val; omega)
  refine ⟨fun i j hi => copyA_step m c t (by omega) hc1 h i j (by omega),
    fun i hi => copyD_step m c t (by omega) hc1 h i (by omega), fun _ => ?_, fun i j hi => absurd hi (by omega)⟩
  rw [hD]
  unfold specS1
  rw [ht7]

/-! ## The middle points -/

/-- The payload a middle point stores is the specified row block of the second support. -/
theorem pay4_eq (t : Fin cfg0.N) (h8 : 8 ≤ t.val) (h12 : t.val < 12) (hc3 : condMid (grid0.coords t))
    (h : Inv m c t.val z0 z1 z2 z3) (hb : t.val - 8 < 4) :
    k0_pay4 (View.ld z0 (Rect.unit (s := S4096x4096) (k0_off3 (grid0.coords t)) S1024x4096.size (Facts₀.k0_off3_inb _ hc3))) z2
        (View.ld z1 (Rect.unit (s := S4096) (k0_off4 (grid0.coords t)) S1024.size (Facts₀.k0_off4_inb _ hc3))) (blkWc m c t)
      = blkS2 m c (t.val - 8) hb := by
  have et : ∀ hp, pt (8 + (t.val - 8)) hp = t := fun hp => Fin.ext (by show 8 + (t.val - 8) = t.val; omega)
  rw [ldA_eq m c (z0_all m c h8 h) (t.val - 8) hb (off3_eq t h8 h12),
    ldD_eq m c (z1_all m c h8 h) (t.val - 8) hb (off4_eq t h8 h12), h.2.2.1 h8]
  unfold blkS2
  rw [et]

/-- Storing the specified row block `t - 8` at a middle point extends the second support's specified rows by it. -/
theorem inv_mid_of (t : Fin cfg0.N) (h8 : 8 ≤ t.val) (h12 : t.val < 12) (hc3 : condMid (grid0.coords t))
    (h : Inv m c t.val z0 z1 z2 z3) (hb : t.val - 8 < 4) (w : Vec F S1024x256 .bf16) (hw : w = blkS2 m c (t.val - 8) hb) :
    Inv m c (t.val + 1) z0 z1 z2
      ((Rect.unit (s := S4096x256) (k0_off5 (grid0.coords t)) S1024x256.size (Facts₀.k0_off5_inb _ hc3)).overlay z3 w) := by
  obtain ⟨h0, h1, h2, h3⟩ := h
  refine ⟨fun i j hi => h0 i j (by omega), fun i hi => h1 i (by omega), fun _ => h2 h8, fun i j hi => ?_⟩
  by_cases hlo : i.val < 1024 * (t.val - 8)
  · refine (overlay2_miss' (N := 4096) (C := 256) (M := 1024) (1024 * (t.val - 8)) (off5_eq t h8 h12) _ z3 _ i j (Or.inl hlo)).trans ?_
    exact h3 i j (by omega)
  · refine (overlay2_hit' (N := 4096) (C := 256) (M := 1024) (1024 * (t.val - 8)) (off5_eq t h8 h12) _ z3 _ i j
      ⟨i.val - 1024 * (t.val - 8), by omega⟩
      (by show i.val = 1024 * (t.val - 8) + (i.val - 1024 * (t.val - 8)); omega)).trans ?_
    rw [hw]
    exact (specS2_at m c i j (t.val - 8) hb ⟨i.val - 1024 * (t.val - 8), by omega⟩
      (by show i.val = 1024 * (t.val - 8) + (i.val - 1024 * (t.val - 8)); omega)).symm

theorem inv_mid (t : Fin cfg0.N) (h8 : 8 ≤ t.val) (h12 : t.val < 12) (hc3 : condMid (grid0.coords t))
    (h : Inv m c t.val z0 z1 z2 z3) :
    Inv m c (t.val + 1) z0 z1 z2
      ((Rect.unit (s := S4096x256) (k0_off5 (grid0.coords t)) S1024x256.size (Facts₀.k0_off5_inb _ hc3)).overlay z3
        (k0_pay4 (View.ld z0 (Rect.unit (s := S4096x4096) (k0_off3 (grid0.coords t)) S1024x4096.size (Facts₀.k0_off3_inb _ hc3))) z2
          (View.ld z1 (Rect.unit (s := S4096) (k0_off4 (grid0.coords t)) S1024.size (Facts₀.k0_off4_inb _ hc3))) (blkWc m c t))) :=
  inv_mid_of m c t h8 h12 hc3 h (by omega) _ (pay4_eq m c t h8 h12 hc3 h (by omega))

end Cert.Kernel.Body

end
-- ==== Proof.BodyBits.RunCopy.lean ====
/-
  The body run at a point of the copy phase before the eighth, on any whole staging and scratch memrefs at any contents: it terminates
  without a fault, hands every buffer it does not store into back as it found it, and leaves in each buffer it stores
  into the earlier contents overwritten by the stored value on the stored rows (a whole-buffer store leaves the stored
  value). Loads through a rectangle of rows read the buffer's contents at those rows.
-/
import proofs.«100562_g89885075570807_cont_sun_c4_768_27_alg».proof.Proof.BodyBits.Setup
import proofs.«100562_g89885075570807_cont_sun_c4_768_27_alg».proof.Proof.LibWritesOverlay
import proofs.«100562_g89885075570807_cont_sun_c4_768_27_alg».proof.Proof.LibWholeBlock

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

open Idealize.ShloMosaic.WholeBlock Cert.WritesOverlay

private theorem origin1 : (![0] : Fin 1 → Nat) = fun _ => 0 := by
  funext a; fin_cases a; rfl

set_option maxHeartbeats 2000000 in
/-- A point of the copy phase before the eighth: the block's rows go into the resident copy, their factors into the
    factor vector. -/
theorem runCopy (c : Dev nD) (i : grid0.Coords)
    (arg1 : Memref sig .tc .vmem S512x4096 .f32) (harg1 : arg1.IsWhole) (arg2 : Memref sig .tc .vmem S4096x256 .bf16) (harg2 : arg2.IsWhole)
    (arg3 : Memref sig .tc .vmem S256x256 .f32) (harg3 : arg3.IsWhole) (arg4 : Memref sig .tc .vmem S256x256 .bf16) (harg4 : arg4.IsWhole)
    (arg5 : Memref sig .tc .vmem S1024x128 .f32) (harg5 : arg5.IsWhole) (arg6 : Memref sig .tc .vmem S1024x128 .f32) (harg6 : arg6.IsWhole)
    (arg7 : Memref sig .tc .vmem S4096x4096 .bf16) (harg7 : arg7.IsWhole) (arg8 : Memref sig .tc .vmem S4096 .f32) (harg8 : arg8.IsWhole)
    (arg9 : Memref sig .tc .vmem S4096x256 .bf16) (harg9 : arg9.IsWhole) (arg10 : Memref sig .tc .vmem S4096x256 .bf16) (harg10 : arg10.IsWhole)
    (hc1 : condCopy i) (hc2 : ¬condS1 i) (hc3 : ¬condMid i) (hc4 : ¬condOut i)
    (x0 : Vec F S512x4096 .f32) (x1 : Vec F S4096x256 .bf16) (x2 : Vec F S256x256 .f32) (x3 : Vec F S256x256 .bf16)
    (y4 y5 : Vec F S1024x128 .f32) (z0 : Vec F S4096x4096 .bf16) (z1 : Vec F S4096 .f32) (z2 z3 : Vec F S4096x256 .bf16)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare y4 ∗ owns (c : Thread nD τ) arg6 fullShare y5
        ∗ owns (c : Thread nD τ) arg7 fullShare z0 ∗ owns (c : Thread nD τ) arg8 fullShare z1 ∗ owns (c : Thread nD τ) arg9 fullShare z2 ∗ owns (c : Thread nD τ) arg10 fullShare z3
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare y4 ∗ owns (c : Thread nD τ) arg6 fullShare y5
          ∗ owns (c : Thread nD τ) arg7 fullShare ((Rect.unit (s := S4096x4096) (k0_off2 i) S512x4096.size (Facts₀.k0_off2_inb i hc1)).overlay z0 (k0_pay2 x0))
          ∗ owns (c : Thread nD τ) arg8 fullShare ((Rect.unit (s := S4096) (k0_off1 i) S512.size (Facts₀.k0_off1_inb i hc1)).overlay z1 (k0_pay1 x0))
          ∗ owns (c : Thread nD τ) arg9 fullShare z2 ∗ owns (c : Thread nD τ) arg10 fullShare z3) -∗ K ⟨⟩))
      ⊢ wp frame (wpE (defs₀ (F := F)) Variants.none c none) E (cc0__gcn_kernel i arg1 harg1 arg2 harg2 arg3 harg3 arg4 harg4 arg5 harg5 arg6 harg6 arg7 harg7 arg8 harg8 arg9 harg9 arg10 harg10) K := by
  simp only [cc0__gcn_kernel_eq_skeleton]; unfold cc0__gcn_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
  obtain rfl := harg1.eq_unread hf1; obtain rfl := harg2.eq_unread hf2; obtain rfl := harg3.eq_unread hf3; obtain rfl := harg4.eq_unread hf4
  obtain rfl := harg5.eq_unread hf5; obtain rfl := harg6.eq_unread hf6; obtain rfl := harg7.eq_unread hf7; obtain rfl := harg8.eq_unread hf8
  obtain rfl := harg9.eq_unread hf9; obtain rfl := harg10.eq_unread hf10
  sl_exec (disch := first | exact hc1 | exact hc2 | exact hc3 | exact hc4)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr
    swap; · iexact H7
    ipureintro
    rw [read_writes_cons_overlay, View.writes_nil, harg7.read_unread, load_whole harg1 origin2]
  isplitl [H8]
  · iexists _; isplitr
    swap; · iexact H8
    ipureintro
    sl_unfold_run_names
    rw [read_writes_cons_overlay, View.writes_nil, harg8.read_unread, load_whole harg1 origin2]
  isplitl [H9]
  · iexists _; isplitr; · ipureintro; exact harg9.read_unread _
    iexact H9
  · iexists _; isplitr; · ipureintro; exact harg10.read_unread _
    iexact H10

end Cert.Kernel.Body

end
-- ==== Proof.BodyBits.RunS1.lean ====
/-
  The body run at a point of the eighth point, which also forms the first support, on any whole staging and scratch memrefs at any contents: it terminates
  without a fault, hands every buffer it does not store into back as it found it, and leaves in each buffer it stores
  into the earlier contents overwritten by the stored value on the stored rows (a whole-buffer store leaves the stored
  value). Loads through a rectangle of rows read the buffer's contents at those rows.
-/
import proofs.«100562_g89885075570807_cont_sun_c4_768_27_alg».proof.Proof.BodyBits.Setup
import proofs.«100562_g89885075570807_cont_sun_c4_768_27_alg».proof.Proof.LibWritesOverlay
import proofs.«100562_g89885075570807_cont_sun_c4_768_27_alg».proof.Proof.LibWholeBlock

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

open Idealize.ShloMosaic.WholeBlock Cert.WritesOverlay

private theorem origin1 : (![0] : Fin 1 → Nat) = fun _ => 0 := by
  funext a; fin_cases a; rfl

set_option maxHeartbeats 2000000 in
theorem runS1 (c : Dev nD) (i : grid0.Coords)
    (arg1 : Memref sig .tc .vmem S512x4096 .f32) (harg1 : arg1.IsWhole) (arg2 : Memref sig .tc .vmem S4096x256 .bf16) (harg2 : arg2.IsWhole)
    (arg3 : Memref sig .tc .vmem S256x256 .f32) (harg3 : arg3.IsWhole) (arg4 : Memref sig .tc .vmem S256x256 .bf16) (harg4 : arg4.IsWhole)
    (arg5 : Memref sig .tc .vmem S1024x128 .f32) (harg5 : arg5.IsWhole) (arg6 : Memref sig .tc .vmem S1024x128 .f32) (harg6 : arg6.IsWhole)
    (arg7 : Memref sig .tc .vmem S4096x4096 .bf16) (harg7 : arg7.IsWhole) (arg8 : Memref sig .tc .vmem S4096 .f32) (harg8 : arg8.IsWhole)
    (arg9 : Memref sig .tc .vmem S4096x256 .bf16) (harg9 : arg9.IsWhole) (arg10 : Memref sig .tc .vmem S4096x256 .bf16) (harg10 : arg10.IsWhole)
    (hc1 : condCopy i) (hc2 : condS1 i) (hc3 : ¬condMid i) (hc4 : ¬condOut i)
    (x0 : Vec F S512x4096 .f32) (x1 : Vec F S4096x256 .bf16) (x2 : Vec F S256x256 .f32) (x3 : Vec F S256x256 .bf16)
    (y4 y5 : Vec F S1024x128 .f32) (z0 : Vec F S4096x4096 .bf16) (z1 : Vec F S4096 .f32) (z2 z3 : Vec F S4096x256 .bf16)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare y4 ∗ owns (c : Thread nD τ) arg6 fullShare y5
        ∗ owns (c : Thread nD τ) arg7 fullShare z0 ∗ owns (c : Thread nD τ) arg8 fullShare z1 ∗ owns (c : Thread nD τ) arg9 fullShare z2 ∗ owns (c : Thread nD τ) arg10 fullShare z3
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare y4 ∗ owns (c : Thread nD τ) arg6 fullShare y5
          ∗ owns (c : Thread nD τ) arg7 fullShare ((Rect.unit (s := S4096x4096) (k0_off2 i) S512x4096.size (Facts₀.k0_off2_inb i hc1)).overlay z0 (k0_pay2 x0))
          ∗ owns (c : Thread nD τ) arg8 fullShare ((Rect.unit (s := S4096) (k0_off1 i) S512.size (Facts₀.k0_off1_inb i hc1)).overlay z1 (k0_pay1 x0))
          ∗ owns (c : Thread nD τ) arg9 fullShare (k0_pay3 x1 x2 ((Rect.unit (s := S4096) (k0_off1 i) S512.size (Facts₀.k0_off1_inb i hc1)).overlay z1 (k0_pay1 x0))) ∗ owns (c : Thread nD τ) arg10 fullShare z3) -∗ K ⟨⟩))
      ⊢ wp frame (wpE (defs₀ (F := F)) Variants.none c none) E (cc0__gcn_kernel i arg1 harg1 arg2 harg2 arg3 harg3 arg4 harg4 arg5 harg5 arg6 harg6 arg7 harg7 arg8 harg8 arg9 harg9 arg10 harg10) K := by
  simp only [cc0__gcn_kernel_eq_skeleton]; unfold cc0__gcn_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
  obtain rfl := harg1.eq_unread hf1; obtain rfl := harg2.eq_unread hf2; obtain rfl := harg3.eq_unread hf3; obtain rfl := harg4.eq_unread hf4
  obtain rfl := harg5.eq_unread hf5; obtain rfl := harg6.eq_unread hf6; obtain rfl := harg7.eq_unread hf7; obtain rfl := harg8.eq_unread hf8
  obtain rfl := harg9.eq_unread hf9; obtain rfl := harg10.eq_unread hf10
  sl_exec (disch := first | exact hc1 | exact hc2 | exact hc3 | exact hc4)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr
    swap; · iexact H7
    ipureintro
    rw [read_writes_cons_overlay, View.writes_nil, harg7.read_unread, load_whole harg1 origin2]
  isplitl [H8]
  · iexists _; isplitr
    swap; · iexact H8
    ipureintro
    sl_unfold_run_names
    rw [read_writes_cons_overlay, View.writes_nil, harg8.read_unread, load_whole harg1 origin2]
  isplitl [H9]
  · iexists _; isplitr
    swap; · iexact H9
    ipureintro
    sl_unfold_run_names
    rw [read_store_last _ _ origin2, load_whole harg2 origin2, load_whole harg3 origin2, View.readAt_eq_ld, View.ld_unit_zero origin1,
      read_writes_cons_overlay, View.writes_nil, harg8.read_unread, load_whole harg1 origin2]
  · iexists _; isplitr; · ipureintro; exact harg10.read_unread _
    iexact H10

end Cert.Kernel.Body

end
-- ==== Proof.BodyBits.RunMid.lean ====
/-
  The body run at a point of the middle phase, on any whole staging and scratch memrefs at any contents: it terminates
  without a fault, hands every buffer it does not store into back as it found it, and leaves in each buffer it stores
  into the earlier contents overwritten by the stored value on the stored rows (a whole-buffer store leaves the stored
  value). Loads through a rectangle of rows read the buffer's contents at those rows.
-/
import proofs.«100562_g89885075570807_cont_sun_c4_768_27_alg».proof.Proof.BodyBits.Setup
import proofs.«100562_g89885075570807_cont_sun_c4_768_27_alg».proof.Proof.LibWritesOverlay
import proofs.«100562_g89885075570807_cont_sun_c4_768_27_alg».proof.Proof.LibWholeBlock

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

open Idealize.ShloMosaic.WholeBlock Cert.WritesOverlay

private theorem origin1 : (![0] : Fin 1 → Nat) = fun _ => 0 := by
  funext a; fin_cases a; rfl

set_option maxHeartbeats 2000000 in
theorem runMid (c : Dev nD) (i : grid0.Coords)
    (arg1 : Memref sig .tc .vmem S512x4096 .f32) (harg1 : arg1.IsWhole) (arg2 : Memref sig .tc .vmem S4096x256 .bf16) (harg2 : arg2.IsWhole)
    (arg3 : Memref sig .tc .vmem S256x256 .f32) (harg3 : arg3.IsWhole) (arg4 : Memref sig .tc .vmem S256x256 .bf16) (harg4 : arg4.IsWhole)
    (arg5 : Memref sig .tc .vmem S1024x128 .f32) (harg5 : arg5.IsWhole) (arg6 : Memref sig .tc .vmem S1024x128 .f32) (harg6 : arg6.IsWhole)
    (arg7 : Memref sig .tc .vmem S4096x4096 .bf16) (harg7 : arg7.IsWhole) (arg8 : Memref sig .tc .vmem S4096 .f32) (harg8 : arg8.IsWhole)
    (arg9 : Memref sig .tc .vmem S4096x256 .bf16) (harg9 : arg9.IsWhole) (arg10 : Memref sig .tc .vmem S4096x256 .bf16) (harg10 : arg10.IsWhole)
    (hc1 : ¬condCopy i) (hc2 : ¬condS1 i) (hc3 : condMid i) (hc4 : ¬condOut i)
    (x0 : Vec F S512x4096 .f32) (x1 : Vec F S4096x256 .bf16) (x2 : Vec F S256x256 .f32) (x3 : Vec F S256x256 .bf16)
    (y4 y5 : Vec F S1024x128 .f32) (z0 : Vec F S4096x4096 .bf16) (z1 : Vec F S4096 .f32) (z2 z3 : Vec F S4096x256 .bf16)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare y4 ∗ owns (c : Thread nD τ) arg6 fullShare y5
        ∗ owns (c : Thread nD τ) arg7 fullShare z0 ∗ owns (c : Thread nD τ) arg8 fullShare z1 ∗ owns (c : Thread nD τ) arg9 fullShare z2 ∗ owns (c : Thread nD τ) arg10 fullShare z3
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare y4 ∗ owns (c : Thread nD τ) arg6 fullShare y5
          ∗ owns (c : Thread nD τ) arg7 fullShare z0 ∗ owns (c : Thread nD τ) arg8 fullShare z1 ∗ owns (c : Thread nD τ) arg9 fullShare z2
          ∗ owns (c : Thread nD τ) arg10 fullShare ((Rect.unit (s := S4096x256) (k0_off5 i) S1024x256.size (Facts₀.k0_off5_inb i hc3)).overlay z3 (k0_pay4 (View.ld z0 (Rect.unit (s := S4096x4096) (k0_off3 i) S1024x4096.size (Facts₀.k0_off3_inb i hc3))) z2 (View.ld z1 (Rect.unit (s := S4096) (k0_off4 i) S1024.size (Facts₀.k0_off4_inb i hc3))) x3))) -∗ K ⟨⟩))
      ⊢ wp frame (wpE (defs₀ (F := F)) Variants.none c none) E (cc0__gcn_kernel i arg1 harg1 arg2 harg2 arg3 harg3 arg4 harg4 arg5 harg5 arg6 harg6 arg7 harg7 arg8 harg8 arg9 harg9 arg10 harg10) K := by
  simp only [cc0__gcn_kernel_eq_skeleton]; unfold cc0__gcn_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
  obtain rfl := harg1.eq_unread hf1; obtain rfl := harg2.eq_unread hf2; obtain rfl := harg3.eq_unread hf3; obtain rfl := harg4.eq_unread hf4
  obtain rfl := harg5.eq_unread hf5; obtain rfl := harg6.eq_unread hf6; obtain rfl := harg7.eq_unread hf7; obtain rfl := harg8.eq_unread hf8
  obtain rfl := harg9.eq_unread hf9; obtain rfl := harg10.eq_unread hf10
  sl_exec (disch := first | exact hc1 | exact hc2 | exact hc3 | exact hc4)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  · iexists _; isplitr
    swap; · iexact H10
    ipureintro
    sl_unfold_run_names
    rw [read_writes_cons_overlay, View.writes_nil, harg10.read_unread, View.readAt_eq_ld, harg7.read_unread, load_whole harg9 origin2,
      View.readAt_eq_ld, harg8.read_unread, load_whole harg4 origin2]

end Cert.Kernel.Body

end
-- ==== Proof.BodyBits.RunOut.lean ====
/-
  The body run at a point of the result phase, on any whole staging and scratch memrefs at any contents: it terminates
  without a fault, hands every buffer it does not store into back as it found it, and leaves in each buffer it stores
  into the earlier contents overwritten by the stored value on the stored rows (a whole-buffer store leaves the stored
  value). Loads through a rectangle of rows read the buffer's contents at those rows.
-/
import proofs.«100562_g89885075570807_cont_sun_c4_768_27_alg».proof.Proof.BodyBits.Setup
import proofs.«100562_g89885075570807_cont_sun_c4_768_27_alg».proof.Proof.LibWritesOverlay
import proofs.«100562_g89885075570807_cont_sun_c4_768_27_alg».proof.Proof.LibWholeBlock

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

open Idealize.ShloMosaic.WholeBlock Cert.WritesOverlay

private theorem origin1 : (![0] : Fin 1 → Nat) = fun _ => 0 := by
  funext a; fin_cases a; rfl

set_option maxHeartbeats 2000000 in
theorem runOut (c : Dev nD) (i : grid0.Coords)
    (arg1 : Memref sig .tc .vmem S512x4096 .f32) (harg1 : arg1.IsWhole) (arg2 : Memref sig .tc .vmem S4096x256 .bf16) (harg2 : arg2.IsWhole)
    (arg3 : Memref sig .tc .vmem S256x256 .f32) (harg3 : arg3.IsWhole) (arg4 : Memref sig .tc .vmem S256x256 .bf16) (harg4 : arg4.IsWhole)
    (arg5 : Memref sig .tc .vmem S1024x128 .f32) (harg5 : arg5.IsWhole) (arg6 : Memref sig .tc .vmem S1024x128 .f32) (harg6 : arg6.IsWhole)
    (arg7 : Memref sig .tc .vmem S4096x4096 .bf16) (harg7 : arg7.IsWhole) (arg8 : Memref sig .tc .vmem S4096 .f32) (harg8 : arg8.IsWhole)
    (arg9 : Memref sig .tc .vmem S4096x256 .bf16) (harg9 : arg9.IsWhole) (arg10 : Memref sig .tc .vmem S4096x256 .bf16) (harg10 : arg10.IsWhole)
    (hc1 : ¬condCopy i) (hc2 : ¬condS1 i) (hc3 : ¬condMid i) (hc4 : condOut i)
    (x0 : Vec F S512x4096 .f32) (x1 : Vec F S4096x256 .bf16) (x2 : Vec F S256x256 .f32) (x3 : Vec F S256x256 .bf16)
    (y4 y5 : Vec F S1024x128 .f32) (z0 : Vec F S4096x4096 .bf16) (z1 : Vec F S4096 .f32) (z2 z3 : Vec F S4096x256 .bf16)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare y4 ∗ owns (c : Thread nD τ) arg6 fullShare y5
        ∗ owns (c : Thread nD τ) arg7 fullShare z0 ∗ owns (c : Thread nD τ) arg8 fullShare z1 ∗ owns (c : Thread nD τ) arg9 fullShare z2 ∗ owns (c : Thread nD τ) arg10 fullShare z3
        ∗ (iprop(owns (c : Thread nD τ) arg1 fullShare x0 ∗ owns (c : Thread nD τ) arg2 fullShare x1 ∗ owns (c : Thread nD τ) arg3 fullShare x2 ∗ owns (c : Thread nD τ) arg4 fullShare x3
          ∗ owns (c : Thread nD τ) arg5 fullShare (k0_pay6 (View.ld z0 (Rect.unit (s := S4096x4096) (k0_off6 i) S1024x4096.size (Facts₀.k0_off6_inb i hc4))) z3 (View.ld z1 (Rect.unit (s := S4096) (k0_off7 i) S1024.size (Facts₀.k0_off7_inb i hc4)))) ∗ owns (c : Thread nD τ) arg6 fullShare (k0_pay7 (View.ld z0 (Rect.unit (s := S4096x4096) (k0_off6 i) S1024x4096.size (Facts₀.k0_off6_inb i hc4))) z3 (View.ld z1 (Rect.unit (s := S4096) (k0_off7 i) S1024.size (Facts₀.k0_off7_inb i hc4))))
          ∗ owns (c : Thread nD τ) arg7 fullShare z0 ∗ owns (c : Thread nD τ) arg8 fullShare z1 ∗ owns (c : Thread nD τ) arg9 fullShare z2 ∗ owns (c : Thread nD τ) arg10 fullShare z3) -∗ K ⟨⟩))
      ⊢ wp frame (wpE (defs₀ (F := F)) Variants.none c none) E (cc0__gcn_kernel i arg1 harg1 arg2 harg2 arg3 harg3 arg4 harg4 arg5 harg5 arg6 harg6 arg7 harg7 arg8 harg8 arg9 harg9 arg10 harg10) K := by
  simp only [cc0__gcn_kernel_eq_skeleton]; unfold cc0__gcn_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
  obtain rfl := harg1.eq_unread hf1; obtain rfl := harg2.eq_unread hf2; obtain rfl := harg3.eq_unread hf3; obtain rfl := harg4.eq_unread hf4
  obtain rfl := harg5.eq_unread hf5; obtain rfl := harg6.eq_unread hf6; obtain rfl := harg7.eq_unread hf7; obtain rfl := harg8.eq_unread hf8
  obtain rfl := harg9.eq_unread hf9; obtain rfl := harg10.eq_unread hf10
  sl_exec (disch := first | exact hc1 | exact hc2 | exact hc3 | exact hc4)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr
    swap; · iexact H5
    ipureintro
    sl_unfold_run_names
    rw [read_store_last _ _ origin2, View.readAt_eq_ld, harg7.read_unread, load_whole harg10 origin2, View.readAt_eq_ld, harg8.read_unread]
  isplitl [H6]
  · iexists _; isplitr
    swap; · iexact H6
    ipureintro
    sl_unfold_run_names
    rw [read_store_last _ _ origin2, View.readAt_eq_ld, harg7.read_unread, load_whole harg10 origin2, View.readAt_eq_ld, harg8.read_unread]
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  · iexists _; isplitr; · ipureintro; exact harg10.read_unread _
    iexact H10

end Cert.Kernel.Body

end
-- ==== Proof.BodyBits.Obligation.lean ====
/-
  The body obligation of the region, point by point, and the frame run.

  At a point the invariant hands the body the four scratch buffers at contents agreeing with the named ones on the rows
  stored so far; the point's phase decides which run applies; the run's stored rows extend the agreement by the point's
  rows (the step lemmas), and from point 12 on the result windows receive the named row blocks. Before the first point
  the invariant asks nothing of the scratch, and after the last it forgets it.
-/
import proofs.«100562_g89885075570807_cont_sun_c4_768_27_alg».proof.Proof.BodyBits.Data
import proofs.«100562_g89885075570807_cont_sun_c4_768_27_alg».proof.Proof.BodyBits.Step
import proofs.«100562_g89885075570807_cont_sun_c4_768_27_alg».proof.Proof.BodyBits.RunCopy
import proofs.«100562_g89885075570807_cont_sun_c4_768_27_alg».proof.Proof.BodyBits.RunS1
import proofs.«100562_g89885075570807_cont_sun_c4_768_27_alg».proof.Proof.BodyBits.RunMid
import proofs.«100562_g89885075570807_cont_sun_c4_768_27_alg».proof.Proof.BodyBits.RunOut
import Idealize.ShloMosaic.Lib.Pipeline.Frame

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t ∗ (dats m 0 c).leavesExact 5 t)

theorem leaves0 (c : Dev nD) (t : Fin cfg0.N) : (dats m 0 c).leavesExact 0 t = owns (c : Thread nD τ) (ms0 t) fullShare (iblk m c 0 t) := by
  unfold Dat.leavesExact; rw [liveAt0 t, after0]
theorem leaves1 (c : Dev nD) (t : Fin cfg0.N) : (dats m 0 c).leavesExact 1 t = owns (c : Thread nD τ) (ms1 t) fullShare (iblk m c 1 t) := by
  unfold Dat.leavesExact; rw [liveAt1 t, after1]
theorem leaves2 (c : Dev nD) (t : Fin cfg0.N) : (dats m 0 c).leavesExact 2 t = owns (c : Thread nD τ) (ms2 t) fullShare (iblk m c 2 t) := by
  unfold Dat.leavesExact; rw [liveAt2 t, after2]
theorem leaves3 (c : Dev nD) (t : Fin cfg0.N) : (dats m 0 c).leavesExact 3 t = owns (c : Thread nD τ) (ms3 t) fullShare (iblk m c 3 t) := by
  unfold Dat.leavesExact; rw [liveAt3 t, after3]
theorem leaves4 (c : Dev nD) (t : Fin cfg0.N) (h : 12 ≤ t.val) : (dats m 0 c).leavesExact 4 t = owns (c : Thread nD τ) (ms4 t) fullShare (outAt4 m c t) := by
  unfold Dat.leavesExact; rw [liveAt4 t h, after4]
theorem leaves5 (c : Dev nD) (t : Fin cfg0.N) (h : 12 ≤ t.val) : (dats m 0 c).leavesExact 5 t = owns (c : Thread nD τ) (ms5 t) fullShare (outAt5 m c t) := by
  unfold Dat.leavesExact; rw [liveAt5 t h, after5]

set_option maxHeartbeats 4000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).owesAt () t.succ = (dats m 0 c).owesAt () t.castSucc from rfl]
  rw [show (dats m 0 c).Φ t.succ = PhiS m c (t.val + 1) from rfl, show (dats m 0 c).Φ t.castSucc = PhiS m c t.val from rfl]
  rw [leaves0, leaves1, leaves2, leaves3]
  have hN : t.val < 16 := N16 t
  unfold PhiS
  by_cases h7 : t.val < 7
  · have hc1 : condCopy (grid0.coords t) := (hcondCopy t).mpr (by omega)
    have hc2 : ¬condS1 (grid0.coords t) := fun h => by have := (hcondS1 t).mp h; omega
    have hc3 : ¬condMid (grid0.coords t) := fun h => by have := (hcondMid t).mp h; omega
    have hc4 : ¬condOut (grid0.coords t) := fun h => by have := (hcondOut t).mp h; omega
    rw [Dat.leavesExact_idle (dats m 0 c) 4 t (idleAt4 t (by omega)) (noFlush4 t (by omega)),
      Dat.leavesExact_idle (dats m 0 c) 5 t (idleAt5 t (by omega)) (noFlush5 t (by omega))]
    iintro ⟨⟨⟨%X0, %X1, %X2, %X3, %hInv, HA, HD, HS1, HS2⟩, Hg⟩, Ho, ⟨%d0, H0⟩, ⟨%d1, H1⟩, ⟨%d2, H2⟩, ⟨%d3, H3⟩, ⟨%d4, H4⟩, ⟨%d5, H5⟩⟩
    iapply (runCopy c (grid0.coords t) _ _ _ _ _ _ _ _ _ _ _ _ _ _ _ _ _ _ _ _ hc1 hc2 hc3 hc4 (blkA m c t) (blkX m c t) (blkW1 m c t) (blkWc m c t) _ _ X0 X1 X2 X3 Set.univ _)
    isplitl [H0]; · iexact H0
    isplitl [H1]; · iexact H1
    isplitl [H2]; · iexact H2
    isplitl [H3]; · iexact H3
    isplitl [H4]; · iexact H4
    isplitl [H5]; · iexact H5
    isplitl [HA]; · iexact HA
    isplitl [HD]; · iexact HD
    isplitl [HS1]; · iexact HS1
    isplitl [HS2]; · iexact HS2
    iintro ⟨H0, H1, H2, H3, H4, H5, HA, HD, HS1, HS2⟩
    isplitl [HA HD HS1 HS2 Hg]
    · isplitr [Hg]
      · iexists _, _, _, _
        isplitr
        · ipureintro; exact inv_copy m c t h7 hc1 hInv
        isplitl [HA]; · iexact HA
        isplitl [HD]; · iexact HD
        isplitl [HS1]; · iexact HS1
        iexact HS2
      iexact Hg
    isplitl [Ho]; · iexact Ho
    isplitl [H0]; · iexact H0
    isplitl [H1]; · iexact H1
    isplitl [H2]; · iexact H2
    isplitl [H3]; · iexact H3
    isplitl [H4]; · iexists _; iexact H4
    iexists _; iexact H5
  by_cases h8 : t.val < 8
  · have ht7 : t.val = 7 := by omega
    have hc1 : condCopy (grid0.coords t) := (hcondCopy t).mpr (by omega)
    have hc2 : condS1 (grid0.coords t) := (hcondS1 t).mpr ht7
    have hc3 : ¬condMid (grid0.coords t) := fun h => by have := (hcondMid t).mp h; omega
    have hc4 : ¬condOut (grid0.coords t) := fun h => by have := (hcondOut t).mp h; omega
    rw [Dat.leavesExact_idle (dats m 0 c) 4 t (idleAt4 t (by omega)) (noFlush4 t (by omega)),
      Dat.leavesExact_idle (dats m 0 c) 5 t (idleAt5 t (by omega)) (noFlush5 t (by omega))]
    iintro ⟨⟨⟨%X0, %X1, %X2, %X3, %hInv, HA, HD, HS1, HS2⟩, Hg⟩, Ho, ⟨%d0, H0⟩, ⟨%d1, H1⟩, ⟨%d2, H2⟩, ⟨%d3, H3⟩, ⟨%d4, H4⟩, ⟨%d5, H5⟩⟩
    iapply (runS1 c (grid0.coords t) _ _ _ _ _ _ _ _ _ _ _ _ _ _ _ _ _ _ _ _ hc1 hc2 hc3 hc4 (blkA m c t) (blkX m c t) (blkW1 m c t) (blkWc m c t) _ _ X0 X1 X2 X3 Set.univ _)
    isplitl [H0]; · iexact H0
    isplitl [H1]; · iexact H1
    isplitl [H2]; · iexact H2
    isplitl [H3]; · iexact H3
    isplitl [H4]; · iexact H4
    isplitl [H5]; · iexact H5
    isplitl [HA]; · iexact HA
    isplitl [HD]; · iexact HD
    isplitl [HS1]; · iexact HS1
    isplitl [HS2]; · iexact HS2
    iintro ⟨H0, H1, H2, H3, H4, H5, HA, HD, HS1, HS2⟩
    isplitl [HA HD HS1 HS2 Hg]
    · isplitr [Hg]
      · iexists _, _, _, _
        isplitr
        · ipureintro; exact inv_s1 m c t ht7 hc1 hInv
        isplitl [HA]; · iexact HA
        isplitl [HD]; · iexact HD
        isplitl [HS1]; · iexact HS1
        iexact HS2
      iexact Hg
    isplitl [Ho]; · iexact Ho
    isplitl [H0]; · iexact H0
    isplitl [H1]; · iexact H1
    isplitl [H2]; · iexact H2
    isplitl [H3]; · iexact H3
    isplitl [H4]; · iexists _; iexact H4
    iexists _; iexact H5
  by_cases h12 : t.val < 12
  · have hc1 : ¬condCopy (grid0.coords t) := fun h => by have := (hcondCopy t).mp h; omega
    have hc2 : ¬condS1 (grid0.coords t) := fun h => by have := (hcondS1 t).mp h; omega
    have hc3 : condMid (grid0.coords t) := (hcondMid t).mpr ⟨by omega, h12⟩
    have hc4 : ¬condOut (grid0.coords t) := fun h => by have := (hcondOut t).mp h; omega
    rw [Dat.leavesExact_idle (dats m 0 c) 4 t (idleAt4 t (by omega)) (noFlush4 t (by omega)),
      Dat.leavesExact_idle (dats m 0 c) 5 t (idleAt5 t (by omega)) (noFlush5 t (by omega))]
    iintro ⟨⟨⟨%X0, %X1, %X2, %X3, %hInv, HA, HD, HS1, HS2⟩, Hg⟩, Ho, ⟨%d0, H0⟩, ⟨%d1, H1⟩, ⟨%d2, H2⟩, ⟨%d3, H3⟩, ⟨%d4, H4⟩, ⟨%d5, H5⟩⟩
    iapply (runMid c (grid0.coords t) _ _ _ _ _ _ _ _ _ _ _ _ _ _ _ _ _ _ _ _ hc1 hc2 hc3 hc4 (blkA m c t) (blkX m c t) (blkW1 m c t) (blkWc m c t) _ _ X0 X1 X2 X3 Set.univ _)
    isplitl [H0]; · iexact H0
    isplitl [H1]; · iexact H1
    isplitl [H2]; · iexact H2
    isplitl [H3]; · iexact H3
    isplitl [H4]; · iexact H4
    isplitl [H5]; · iexact H5
    isplitl [HA]; · iexact HA
    isplitl [HD]; · iexact HD
    isplitl [HS1]; · iexact HS1
    isplitl [HS2]; · iexact HS2
    iintro ⟨H0, H1, H2, H3, H4, H5, HA, HD, HS1, HS2⟩
    isplitl [HA HD HS1 HS2 Hg]
    · isplitr [Hg]
      · iexists _, _, _, _
        isplitr
        · ipureintro; exact inv_mid m c t (by omega) h12 hc3 hInv
        isplitl [HA]; · iexact HA
        isplitl [HD]; · iexact HD
        isplitl [HS1]; · iexact HS1
        iexact HS2
      iexact Hg
    isplitl [Ho]; · iexact Ho
    isplitl [H0]; · iexact H0
    isplitl [H1]; · iexact H1
    isplitl [H2]; · iexact H2
    isplitl [H3]; · iexact H3
    isplitl [H4]; · iexists _; iexact H4
    iexists _; iexact H5
  · have h12' : 12 ≤ t.val := by omega
    have hc1 : ¬condCopy (grid0.coords t) := fun h => by have := (hcondCopy t).mp h; omega
    have hc2 : ¬condS1 (grid0.coords t) := fun h => by have := (hcondS1 t).mp h; omega
    have hc3 : ¬condMid (grid0.coords t) := fun h => by have := (hcondMid t).mp h; omega
    have hc4 : condOut (grid0.coords t) := (hcondOut t).mpr h12'
    rw [leaves4 m c t h12', leaves5 m c t h12']
    iintro ⟨⟨⟨%X0, %X1, %X2, %X3, %hInv, HA, HD, HS1, HS2⟩, Hg⟩, Ho, ⟨%d0, H0⟩, ⟨%d1, H1⟩, ⟨%d2, H2⟩, ⟨%d3, H3⟩, ⟨%d4, H4⟩, ⟨%d5, H5⟩⟩
    iapply (runOut c (grid0.coords t) _ _ _ _ _ _ _ _ _ _ _ _ _ _ _ _ _ _ _ _ hc1 hc2 hc3 hc4 (blkA m c t) (blkX m c t) (blkW1 m c t) (blkWc m c t) _ _ X0 X1 X2 X3 Set.univ _)
    isplitl [H0]; · iexact H0
    isplitl [H1]; · iexact H1
    isplitl [H2]; · iexact H2
    isplitl [H3]; · iexact H3
    isplitl [H4]; · iexact H4
    isplitl [H5]; · iexact H5
    isplitl [HA]; · iexact HA
    isplitl [HD]; · iexact HD
    isplitl [HS1]; · iexact HS1
    isplitl [HS2]; · iexact HS2
    iintro ⟨H0, H1, H2, H3, H4, H5, HA, HD, HS1, HS2⟩
    rw [out4_eq m c t h12' hc4 hInv, out5_eq m c t h12' hc4 hInv]
    isplitl [HA HD HS1 HS2 Hg]
    · isplitr [Hg]
      · iexists _, _, _, _
        isplitr
        · ipureintro; exact inv_out m c t h12' hInv
        isplitl [HA]; · iexact HA
        isplitl [HD]; · iexact HD
        isplitl [HS1]; · iexact HS1
        iexact HS2
      iexact Hg
    isplitl [Ho]; · iexact Ho
    isplitl [H0]; · iexact H0
    isplitl [H1]; · iexact H1
    isplitl [H2]; · iexact H2
    isplitl [H3]; · iexact H3
    isplitl [H4]; · iexact H4
    iexact H5

/-- The library's body obligation, at every point. -/
theorem body_obligation (c : Dev nD) : BodyObligation (dats (F := F) m 0 c) (defs₀ (F := F)) Variants.none () Set.univ := fun t => by
  rw [bigSep_W0, bigSep_W0]
  exact sound_body m c t

/-- Before the first point the invariant asks nothing of the scratch buffers' contents. -/
theorem hin (c : Dev nD) : Pipeline.ΦA spec0 c ⊢ (dats m 0 c).Φ 0 := by
  rw [show (dats m 0 c).Φ 0 = PhiS m c 0 from rfl, PhiA_eq]
  unfold PhiS
  iintro ⟨⟨⟨%X0, HA⟩, ⟨%X1, HD⟩, ⟨%X2, HS1⟩, ⟨%X3, HS2⟩⟩, Hg⟩
  isplitr [Hg]
  · iexists X0, X1, X2, X3
    isplitr
    · ipureintro
      exact ⟨fun i j h => absurd h (by simp), fun i h => absurd h (by simp), fun h => absurd h (by norm_num), fun i j h => absurd h (by simp)⟩
    isplitl [HA]; · iexact HA
    isplitl [HD]; · iexact HD
    isplitl [HS1]; · iexact HS1
    iexact HS2
  iexact Hg

/-- After the last point the scratch buffers' contents are forgotten. -/
theorem hout (c : Dev nD) : (dats m 0 c).Φ (Fin.last cfg0.N) ⊢ Pipeline.ΦA spec0 c := by
  rw [show (dats m 0 c).Φ (Fin.last cfg0.N) = PhiS m c (Fin.last cfg0.N).val from rfl, PhiA_eq]
  unfold PhiS
  iintro ⟨⟨%X0, %X1, %X2, %X3, %hInv, HA, HD, HS1, HS2⟩, Hg⟩
  isplitr [Hg]
  · isplitl [HA]; · iexists _; iexact HA
    isplitl [HD]; · iexists _; iexact HD
    isplitl [HS1]; · iexists _; iexact HS1
    iexists _; iexact HS2
  iexact Hg

set_option backward.isDefEq.respectTransparency.types false in
/-- Every weakly fair execution of the program terminates without a fault, with every array of the pipeline at what the
    proof data computes and every bypassing buffer as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame: the program runs and its argument arrays end unchanged, at any instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

end Cert.Kernel.Body

end
-- ==== Proof.Spec.lean ====
/-
  The two-layer graph convolution with symmetric degree normalisation, written twice over the extended reals.

  For an adjacency matrix `A` (4096 × 4096), features `X` (4096 × 256) and weights `W1` (256 × 256), `Wm`, `Ws`
  (256 × 128): with `d i = deg (∑ j, A i j)`, where `deg r = 1 / √r` for `r > 0` and `0` otherwise,

  * the FACTORED form scales rows before and after each product with `A`:
    `s1 = (X · W1) ⊙ d`, `h = max ((A · s1) ⊙ d) 0`, `s2 = (h · [Wm | Ws]) ⊙ d`, `out = (A · s2) ⊙ d`,
    the mean being the first 128 columns of `out` and the log-deviation the last 128;
  * the NORMALISED form builds `Â i j = A i j · d i · d j` and takes
    `h = max (Â · (X · W1)) 0`, mean `= Â · (h · Wm)`, log-deviation `= Â · (h · Ws)`.

  The two agree whenever every entry is a real number (Proof/Algebra.lean): then `d` is a nonnegative real and a real
  factor moves across a finite sum.
-/
import Mathlib
import Idealize.ShloMosaic.PureOps.Ideal

noncomputable section

namespace Cert.GraphConv

open Idealize.ShloMosaic

/-- The inverse square root of a degree, with an isolated node (degree not positive) sent to `0`. -/
def deg (r : EReal) : EReal := if 0 < r then Ideal.div 1 (Ideal.sqrt r) else 0

/-- The selection `where (r > 0) (1 / √r) 0`, as both programs spell it, is `deg r`. -/
theorem select_deg (r : EReal) :
    Scalar.select (Ideal.cmp .ogt r 0) (Ideal.div 1 (Ideal.sqrt r)) (0 : EReal) = deg r := by
  unfold Scalar.select Ideal.cmp deg
  by_cases h : (0 : EReal) < r <;> simp [h]

variable (A : Fin 4096 → Fin 4096 → EReal) (X : Fin 4096 → Fin 256 → EReal) (W1 : Fin 256 → Fin 256 → EReal)
  (Wm Ws : Fin 256 → Fin 128 → EReal)

/-- A node's degree: its row of the adjacency matrix summed. -/
def rowSum (i : Fin 4096) : EReal := ∑ j, A i j

/-- The normalising factor of node `i`. -/
def dis (i : Fin 4096) : EReal := deg (rowSum A i)

/-- The first layer's support `X · W1`. -/
def xw (i : Fin 4096) (k : Fin 256) : EReal := ∑ j, X i j * W1 j k

/-! ### The factored form -/

/-- The two output weights side by side: columns `0 … 127` are `Wm`, columns `128 … 255` are `Ws`. -/
def wcat (k : Fin 256) (c : Fin 256) : EReal :=
  if h : c.val < 128 then Wm k ⟨c.val, h⟩ else Ws k ⟨c.val - 128, by have := c.isLt; omega⟩

def s1 (i : Fin 4096) (k : Fin 256) : EReal := xw X W1 i k * dis A i

def hidF (i : Fin 4096) (k : Fin 256) : EReal := max ((∑ j, A i j * s1 A X W1 j k) * dis A i) 0

def s2 (i : Fin 4096) (c : Fin 256) : EReal := (∑ k, hidF A X W1 i k * wcat Wm Ws k c) * dis A i

def outF (i : Fin 4096) (c : Fin 256) : EReal := (∑ j, A i j * s2 A X W1 Wm Ws j c) * dis A i

def meanF (i : Fin 4096) (c : Fin 128) : EReal := outF A X W1 Wm Ws i ⟨c.val, by have := c.isLt; omega⟩

def logF (i : Fin 4096) (c : Fin 128) : EReal := outF A X W1 Wm Ws i ⟨128 + c.val, by have := c.isLt; omega⟩

/-! ### The normalised form -/

def adjN (i j : Fin 4096) : EReal := A i j * dis A i * dis A j

def hidN (i : Fin 4096) (k : Fin 256) : EReal := max (∑ j, adjN A i j * xw X W1 j k) 0

def meanN (i : Fin 4096) (c : Fin 128) : EReal := ∑ j, adjN A i j * ∑ k, hidN A X W1 j k * Wm k c

def logN (i : Fin 4096) (c : Fin 128) : EReal := ∑ j, adjN A i j * ∑ k, hidN A X W1 j k * Ws k c

end Cert.GraphConv

end
-- ==== Proof.LibKeepdims.lean ====
/-
  Two layout operations read at an index written by coordinates: the COLUMN forms a sum that keeps its reduced axis
  needs. A vector `[a]` cast to a column `[a, 1]` reads, at `(i, u)`, the vector at `i`; a column `[a, 1]` broadcast over
  `[a, b]` reads, at `(p, c)`, the column at `(p, 0)`. (The row forms, `[a] → [1, a]` and `[1, b] → [a, b]`, are in
  Lib/ValueLayout.lean; these are their transposes, proved the same way.) General: nothing here mentions a program.
-/
import Idealize.ShloMosaic.Lib.Pipeline.Value
import Idealize.ShloMosaic.Lib.ValueIdx

namespace Cert.Keepdims

open Idealize.ShloMosaic Idealize.ShloMosaic.ValueIdx

variable {α : Type}

/-- An `[a]` array cast to `[a, 1]` reads, at `(i, u)`, the operand at `i`, whatever the unit coordinate `u`: the row-major
    positions agree, `i · 1 + 0 = i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- ONE COLUMN BROADCAST over many: an `[a, 1]` array broadcast to `[a, b]` reads, at `(p, c)`, the operand at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Keepdims
-- ==== Proof.LibSqueezeColumn.lean ====
/-
  A column read as a vector: an \`[a, 1]\` array cast to \`[a]\` reads, at \`i\`, the column at \`(i, 0)\`. (The row form,
  \`[1, a] → [a]\`, is in the library's layout file; this is its transpose, proved the same way.) General: nothing here
  mentions a program.
-/
import Idealize.ShloMosaic.Lib.Pipeline.Value
import Idealize.ShloMosaic.Lib.ValueIdx

namespace Cert.LibSqueezeColumn

open Idealize.ShloMosaic Idealize.ShloMosaic.ValueIdx

variable {α : Type}

/-- An \`[a, 1]\` array cast to \`[a]\` reads, at \`i\`, the operand at \`(i, 0)\`: the row-major positions agree,
    \`i · 1 + 0 = i\`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

end Cert.LibSqueezeColumn
-- ==== Proof.LibPlainMatmul.lean ====
/-
  A plain matrix product into a zero accumulator, read at an index written by coordinates.

  For dimension numbers that contract the left operand's columns against the right operand's rows — no batch axis,
  `[M, K] · [K, N] → [M, N]` — the product accumulated into the zero splat reads, at `(p, j)`,
  `Σ_k lhs (p, k) · rhs (k, j)` over the `K` values of the contracted coordinate: the accumulator contributes `0`, and
  the sum over the one-axis contraction index is re-indexed by that axis's coordinate. The dimension numbers enter only
  through four facts about where they send an output index and a contraction index (`hl0 … hr1`), which hold by
  unfolding for any record of this form. General: nothing here mentions a program.
-/
import Idealize.ShloMosaic.PureOps.Ideal.Laws
import Idealize.ShloMosaic.Lib.ValueIdx

noncomputable section

namespace Cert.LibPlainMatmul

open Idealize.ShloMosaic Idealize.ShloMosaic.ValueIdx

/-- `[M, K] · [K, N]` into the zero splat, at `(p, j)`, is `Σ_k lhs (p, k) · rhs (k, j)`. -/
theorem matmul_zero_at {M K N : ℕ} {φ₁ φ₂ : FTy}
    (D : DotDims ⟨2, ![M, K]⟩ ⟨2, ![K, N]⟩ ⟨2, ![M, N]⟩) (prec : Option ContractPrecision)
    (hr : D.contr.rank = 1) (hs : D.contr.size ⟨0, by omega⟩ = K)
    (hl0 : ∀ (i : (⟨2, ![M, N]⟩ : Shape).Idx) (q : D.contr.Idx), (D.lhsIdx i q 0).val = (i 0).val)
    (hl1 : ∀ (i : (⟨2, ![M, N]⟩ : Shape).Idx) (q : D.contr.Idx), (D.lhsIdx i q 1).val = (q ⟨0, by omega⟩).val)
    (hr0 : ∀ (i : (⟨2, ![M, N]⟩ : Shape).Idx) (q : D.contr.Idx), (D.rhsIdx i q 0).val = (q ⟨0, by omega⟩).val)
    (hr1 : ∀ (i : (⟨2, ![M, N]⟩ : Shape).Idx) (q : D.contr.Idx), (D.rhsIdx i q 1).val = (i 1).val)
    (lhs : FVec Ideal ⟨2, ![M, K]⟩ φ₁) (rhs : FVec Ideal ⟨2, ![K, N]⟩ φ₂) (p : Fin M) (j : Fin N) :
    FloatOps.matmul D prec lhs rhs (constant ⟨2, ![M, N]⟩ .f32 0x00000000#32) (ix2 p j)
      = ∑ k : Fin K, lhs (ix2 p k) * rhs (ix2 k j) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 p j) ((contrEquiv1 D K hr hs).symm k) = ix2 p k := funext fun a => Fin.ext (by
    match a with
    | ⟨0, _⟩ => exact hl0 _ _
    | ⟨1, _⟩ => exact (hl1 _ _).trans hk)
  have er : D.rhsIdx (ix2 p j) ((contrEquiv1 D K hr hs).symm k) = ix2 k j := funext fun a => Fin.ext (by
    match a with
    | ⟨0, _⟩ => exact (hr0 _ _).trans hk
    | ⟨1, _⟩ => exact hr1 _ _)
  rw [el, er]

end Cert.LibPlainMatmul

end
-- ==== Proof.LibRowFolds.lean ====
/-
  Reductions along the LAST axis read at an index written by coordinates, at the exact (extended-real) values.

  On the device, a `vector.multi_reduction` over axis 1 of an `[a, b]` array read at `n`: with an add body from the
  neutral accumulator it is `Σ_k src (n, k)`; with a maximum body it is `max` folded over `k` from the accumulator's
  value. On the host, a `stablehlo.reduce` with a maximum body over axis 2 of an `[m, a, b]` array read at `(e, n)` is
  `max` folded over `k` of the operand at `(e, n, k)`, from the initial value. And the word of −∞ is neutral for `max`.
  General: nothing here mentions a program.
-/
import Idealize.ShloMosaic.PureOps.Ideal.Laws
import Idealize.ShloMosaic.Lib.ValueIdx

noncomputable section

namespace Cert.LibRowFolds

open Idealize.ShloMosaic Idealize.ShloMosaic.ValueIdx

/-- Inserting coordinate `k` on axis 1 into the reduced index `n` gives `(n, k)`. -/
theorem lift_row {a b : ℕ} (h : (⟨2, ![a, b]⟩ : Shape).Reduces [1] ⟨1, ![a]⟩) (n : Fin a) (k : Fin b) :
    h.lift (ix1 n) k = ix2 n k := by
  funext ax; apply Fin.ext
  match ax with
  | ⟨0, _⟩ => rfl
  | ⟨1, _⟩ => rfl

/-- A device sum over axis 1 of `[a, b]` from the neutral accumulator, at `n`, is `Σ_k src (n, k)`. -/
theorem rowSum_at {a b : ℕ} (src : FVec Ideal ⟨2, ![a, b]⟩ .f32) (acc : BitVec 32)
    (h : (⟨2, ![a, b]⟩ : Shape).Reduces [1] ⟨1, ![a]⟩) (hφ : FKind.Formats .f32)
    (hacc : acc = FKind.add.neutral .f32 hφ) (n : Fin a) :
    multiReduction .add [1] ⟨1, ![a]⟩ src acc h hφ hacc (ix1 n) = ∑ k : Fin b, src (ix2 n k) := by
  refine (Ideal.multiReduction_add_single src acc h hφ hacc (ix1 n)).trans ?_
  exact Finset.sum_congr rfl fun k _ => congrArg src (lift_row h n k)

/-- A device maximum over axis 1 of `[a, b]`, at `n`, is `max` folded over `k` from the accumulator's value. -/
theorem rowMax_at {a b : ℕ} (src : FVec Ideal ⟨2, ![a, b]⟩ .f32) (acc : BitVec 32)
    (h : (⟨2, ![a, b]⟩ : Shape).Reduces [1] ⟨1, ![a]⟩) (hφ : FKind.Formats .f32)
    (hacc : acc = FKind.maximumf.neutral .f32 hφ) (n : Fin a) :
    multiReduction .maximumf [1] ⟨1, ![a]⟩ src acc h hφ hacc (ix1 n)
      = (Finset.univ : Finset (Fin b)).fold max (Ideal.ofBits .f32 acc) (fun k => src (ix2 n k)) := by
  refine (Ideal.multiReduction_maximumf_single src acc h hφ hacc (ix1 n)).trans ?_
  exact congrArg (fun f => Finset.fold max (Ideal.ofBits .f32 acc) f (Finset.univ : Finset (Fin b)))
    (funext fun k => congrArg src (lift_row h n k))

/-- Inserting coordinate `k` on axis 2 into the reduced index `(e, n)` gives `(e, n, k)`. -/
theorem lift_last3 {m a b : ℕ} (h : (⟨3, ![m, a, b]⟩ : Shape).Reduces [2] ⟨2, ![m, a]⟩) (e : Fin m) (n : Fin a)
    (k : Fin b) : h.lift (ix2 e n) k = ix3 e n k := by
  funext ax; apply Fin.ext
  match ax with
  | ⟨0, _⟩ => rfl
  | ⟨1, _⟩ => rfl
  | ⟨2, _⟩ => rfl

/-- A host maximum over axis 2 of `[m, a, b]`, at `(e, n)`, is `max` folded over `k` from the initial value. -/
theorem hostMax_last3_at {m a b : ℕ} {u : Shape} (x : FVec Ideal ⟨3, ![m, a, b]⟩ .f32) (init : u.Idx → Ideal .f32)
    (h' : (⟨3, ![m, a, b]⟩ : Shape).ReducesTo [2] ⟨2, ![m, a]⟩) (h : (⟨3, ![m, a, b]⟩ : Shape).Reduces [2] ⟨2, ![m, a]⟩)
    (hu : 0 < u.numel) (e : Fin m) (n : Fin a) :
    Host.reduce FloatOps.maximumf x init h' hu (ix2 e n)
      = (Finset.univ : Finset (Fin b)).fold max (init (Shape.Idx.first hu)) (fun k => x (ix3 e n k)) := by
  refine (Host.reduce_eq_fold_single FloatOps.maximumf x init h' h hu (ix2 e n)).trans ?_
  exact congrArg (fun f => Finset.fold max (init (Shape.Idx.first hu)) f (Finset.univ : Finset (Fin b)))
    (funext fun k => congrArg x (lift_last3 h e n k))

/-- The value of the word of −∞ is the least extended real, so it is neutral for `max`. -/
theorem max_negInf (y : EReal) : max (Ideal.ofBits .f32 0xFF800000#32) y = y := by
  simp [Ideal.ofBits, Ideal.ieee]

end Cert.LibRowFolds

end
-- ==== Proof.Payloads.lean ====
/-
  The kernel body's arithmetic, read at an index written by coordinates.

  Each value the body stores is a pure term over the values it loaded. Read at `(r, c)` (or at `r`), every such term is
  one of the expressions of the factored graph convolution: a row's degree factor `deg (Σ_j A r j)`; a product
  `(Σ_j X i j · W j k) · d i`; a product with the adjacency rows, scaled, clamped at `0`, multiplied by the output
  weights and scaled again; and the final product `(Σ_j A r j · S j c) · d r` with its two column halves. The casts to a
  narrower format and the same-shape casts are the identity at the exact values; a matrix product into the zero
  accumulator is the sum over the contracted coordinate; a column cast or broadcast reads the vector at the row.
-/
import proofs.«100562_g89885075570807_cont_sun_c4_768_27_alg».proof.Proof.Gen.KernelIdeal.Skeleton
import proofs.«100562_g89885075570807_cont_sun_c4_768_27_alg».proof.Proof.Gen.KernelIdeal
import proofs.«100562_g89885075570807_cont_sun_c4_768_27_alg».proof.Proof.Spec
import proofs.«100562_g89885075570807_cont_sun_c4_768_27_alg».proof.Proof.LibKeepdims
import proofs.«100562_g89885075570807_cont_sun_c4_768_27_alg».proof.Proof.LibSqueezeColumn
import proofs.«100562_g89885075570807_cont_sun_c4_768_27_alg».proof.Proof.LibPlainMatmul
import proofs.«100562_g89885075570807_cont_sun_c4_768_27_alg».proof.Proof.LibRowFolds
import Idealize.ShloMosaic.Lib.IdealHost
import Idealize.ShloMosaic.Lib.ValueIdx
import Idealize.ShloMosaic.Lib.Pipeline.Value

set_option synthInstance.maxSize 4096

noncomputable section

namespace Cert.GraphConv.Payloads

open Cert.KernelIdeal Cert.KernelIdeal.Gen Idealize.ShloMosaic Idealize.ShloMosaic.ValueIdx

/-! ### The three matrix products

Each contracts the left operand's columns against the right operand's rows, with no batch axis; the four coordinate facts
of the dimension numbers hold by unfolding. -/

/-- The product `[1024, 4096] · [4096, 256]` into the zero accumulator, at `(p, j)`, is `Σ_k lhs (p, k) · rhs (k, j)`. -/
theorem matmul_adj_at {φ₁ φ₂ : FTy} (lhs : FVec Ideal S1024x4096 φ₁) (rhs : FVec Ideal S4096x256 φ₂) (p : Fin 1024) (j : Fin 256) :
    FloatOps.matmul dot_S1024x4096_S4096x256_S1024x256_1_0_0_1_n_n none lhs rhs (constant (F := Ideal) S1024x256 .f32 0x00000000#32) (ix2 p j)
      = ∑ k : Fin 4096, lhs (ix2 p k) * rhs (ix2 k j) :=
  Cert.LibPlainMatmul.matmul_zero_at dot_S1024x4096_S4096x256_S1024x256_1_0_0_1_n_n none rfl rfl
    (fun i q => by
      unfold DotDims.lhsIdx
      rw [dif_neg (show ¬(0 : Fin S1024x4096.rank) ∈ dot_S1024x4096_S4096x256_S1024x256_1_0_0_1_n_n.lhsBatch by decide),
        dif_pos (show (0 : Fin S1024x4096.rank) ∈ dot_S1024x4096_S4096x256_S1024x256_1_0_0_1_n_n.lhsNonContracting by decide)]
      rfl)
    (fun i q => dot_S1024x4096_S4096x256_S1024x256_1_0_0_1_n_n.lhsIdx_val_of_single rfl i q)
    (fun i q => dot_S1024x4096_S4096x256_S1024x256_1_0_0_1_n_n.rhsIdx_val_of_single rfl i q)
    (fun i q => by
      unfold DotDims.rhsIdx
      rw [dif_neg (show ¬(1 : Fin S4096x256.rank) ∈ dot_S1024x4096_S4096x256_S1024x256_1_0_0_1_n_n.rhsBatch by decide),
        dif_pos (show (1 : Fin S4096x256.rank) ∈ dot_S1024x4096_S4096x256_S1024x256_1_0_0_1_n_n.rhsNonContracting by decide)]
      rfl)
    lhs rhs p j

/-- The product `[4096, 256] · [256, 256]` into the zero accumulator, at `(p, j)`, is `Σ_k lhs (p, k) · rhs (k, j)`. -/
theorem matmul_feat_at {φ₁ φ₂ : FTy} (lhs : FVec Ideal S4096x256 φ₁) (rhs : FVec Ideal S256x256 φ₂) (p : Fin 4096) (j : Fin 256) :
    FloatOps.matmul dot_S4096x256_S256x256_S4096x256_1_0_0_1_n_n none lhs rhs (constant (F := Ideal) S4096x256 .f32 0x00000000#32) (ix2 p j)
      = ∑ k : Fin 256, lhs (ix2 p k) * rhs (ix2 k j) :=
  Cert.LibPlainMatmul.matmul_zero_at dot_S4096x256_S256x256_S4096x256_1_0_0_1_n_n none rfl rfl
    (fun i q => by
      unfold DotDims.lhsIdx
      rw [dif_neg (show ¬(0 : Fin S4096x256.rank) ∈ dot_S4096x256_S256x256_S4096x256_1_0_0_1_n_n.lhsBatch by decide),
        dif_pos (show (0 : Fin S4096x256.rank) ∈ dot_S4096x256_S256x256_S4096x256_1_0_0_1_n_n.lhsNonContracting by decide)]
      rfl)
    (fun i q => dot_S4096x256_S256x256_S4096x256_1_0_0_1_n_n.lhsIdx_val_of_single rfl i q)
    (fun i q => dot_S4096x256_S256x256_S4096x256_1_0_0_1_n_n.rhsIdx_val_of_single rfl i q)
    (fun i q => by
      unfold DotDims.rhsIdx
      rw [dif_neg (show ¬(1 : Fin S256x256.rank) ∈ dot_S4096x256_S256x256_S4096x256_1_0_0_1_n_n.rhsBatch by decide),
        dif_pos (show (1 : Fin S256x256.rank) ∈ dot_S4096x256_S256x256_S4096x256_1_0_0_1_n_n.rhsNonContracting by decide)]
      rfl)
    lhs rhs p j

/-- The product `[1024, 256] · [256, 256]` into the zero accumulator, at `(p, j)`, is `Σ_k lhs (p, k) · rhs (k, j)`. -/
theorem matmul_out_at {φ₁ φ₂ : FTy} (lhs : FVec Ideal S1024x256 φ₁) (rhs : FVec Ideal S256x256 φ₂) (p : Fin 1024) (j : Fin 256) :
    FloatOps.matmul dot_S1024x256_S256x256_S1024x256_1_0_0_1_n_n none lhs rhs (constant (F := Ideal) S1024x256 .f32 0x00000000#32) (ix2 p j)
      = ∑ k : Fin 256, lhs (ix2 p k) * rhs (ix2 k j) :=
  Cert.LibPlainMatmul.matmul_zero_at dot_S1024x256_S256x256_S1024x256_1_0_0_1_n_n none rfl rfl
    (fun i q => by
      unfold DotDims.lhsIdx
      rw [dif_neg (show ¬(0 : Fin S1024x256.rank) ∈ dot_S1024x256_S256x256_S1024x256_1_0_0_1_n_n.lhsBatch by decide),
        dif_pos (show (0 : Fin S1024x256.rank) ∈ dot_S1024x256_S256x256_S1024x256_1_0_0_1_n_n.lhsNonContracting by decide)]
      rfl)
    (fun i q => dot_S1024x256_S256x256_S1024x256_1_0_0_1_n_n.lhsIdx_val_of_single rfl i q)
    (fun i q => dot_S1024x256_S256x256_S1024x256_1_0_0_1_n_n.rhsIdx_val_of_single rfl i q)
    (fun i q => by
      unfold DotDims.rhsIdx
      rw [dif_neg (show ¬(1 : Fin S256x256.rank) ∈ dot_S1024x256_S256x256_S1024x256_1_0_0_1_n_n.rhsBatch by decide),
        dif_pos (show (1 : Fin S256x256.rank) ∈ dot_S1024x256_S256x256_S1024x256_1_0_0_1_n_n.rhsNonContracting by decide)]
      rfl)
    lhs rhs p j

/-! ### A vector scaled across the columns

A vector `[a]` cast to a column `[a, 1]` and broadcast over `[a, b]` reads, at `(p, c)`, the vector at `p`. -/

theorem col_1024_at (v : FVec Ideal S1024 .f32) (p : Fin 1024) (c : Fin 256) :
    broadcastTo S1024x256 (shapeCast S1024x1 v shapeCasts_S1024_S1024x1) broadcasts_S1024x1_S1024x256 (ix2 p c) = v (ix1 p) :=
  (Cert.Keepdims.broadcastTo_a1_ab_apply _ broadcasts_S1024x1_S1024x256 p c).trans
    (Cert.Keepdims.shapeCast_a_a1_apply v shapeCasts_S1024_S1024x1 p 0)

theorem col_4096_at (v : FVec Ideal S4096 .f32) (p : Fin 4096) (c : Fin 256) :
    broadcastTo S4096x256 (shapeCast S4096x1 v shapeCasts_S4096_S4096x1) broadcasts_S4096x1_S4096x256 (ix2 p c) = v (ix1 p) :=
  (Cert.Keepdims.broadcastTo_a1_ab_apply _ broadcasts_S4096x1_S4096x256 p c).trans
    (Cert.Keepdims.shapeCast_a_a1_apply v shapeCasts_S4096_S4096x1 p 0)

/-! ### The last stage: the product with the adjacency rows, scaled by the row's factor, and its two column halves -/

theorem pay5_at (v18 : Vec Ideal S1024x4096 .bf16) (v19 : Vec Ideal S4096x256 .bf16) (v22 : Vec Ideal S1024 .f32)
    (r : Fin 1024) (c : Fin 256) :
    k0_pay5 v18 v19 v22 (ix2 r c) = (∑ j : Fin 4096, v18 (ix2 r j) * v19 (ix2 j c)) * v22 (ix1 r) := by
  unfold k0_pay5
  refine (mulf_apply _ _ _).trans ?_
  exact congr (congrArg HMul.hMul (matmul_adj_at v18 v19 r c)) (col_1024_at v22 r c)

/-- The first 128 columns: the slice at offset `(0, 0)`. -/
theorem pay6_at (v18 : Vec Ideal S1024x4096 .bf16) (v19 : Vec Ideal S4096x256 .bf16) (v22 : Vec Ideal S1024 .f32)
    (r : Fin 1024) (c : Fin 128) :
    k0_pay6 v18 v19 v22 (ix2 r c) = k0_pay5 v18 v19 v22 (ix2 r ⟨c.val, by have := c.isLt; omega⟩) := by
  have h := extractStridedSlice_apply ![0, 0] (k0_pay5 v18 v19 v22) slices_S1024x256_o0_0_S1024x128 (ix2 r c)
    (ix2 r (⟨c.val, by have := c.isLt; omega⟩ : Fin 256)) (fun a => by
      match a with
      | ⟨0, _⟩ => exact (Nat.zero_add _).symm
      | ⟨1, _⟩ => exact (Nat.zero_add _).symm)
  exact h

/-- The last 128 columns: the slice at offset `(0, 128)`. -/
theorem pay7_at (v18 : Vec Ideal S1024x4096 .bf16) (v19 : Vec Ideal S4096x256 .bf16) (v22 : Vec Ideal S1024 .f32)
    (r : Fin 1024) (c : Fin 128) :
    k0_pay7 v18 v19 v22 (ix2 r c) = k0_pay5 v18 v19 v22 (ix2 r ⟨128 + c.val, by have := c.isLt; omega⟩) := by
  have h := extractStridedSlice_apply ![0, 128] (k0_pay5 v18 v19 v22) slices_S1024x256_o0_128_S1024x128 (ix2 r c)
    (ix2 r (⟨128 + c.val, by have := c.isLt; omega⟩ : Fin 256)) (fun a => by
      match a with
      | ⟨0, _⟩ => exact (Nat.zero_add _).symm
      | ⟨1, _⟩ => rfl)
  exact h

/-! ### The first layer's support, scaled by the row's factor -/

theorem pay3_at (v14 : Vec Ideal S4096x256 .bf16) (v16 : Vec Ideal S256x256 .f32) (v18 : Vec Ideal S4096 .f32)
    (i : Fin 4096) (k : Fin 256) :
    k0_pay3 v14 v16 v18 (ix2 i k) = (∑ j : Fin 256, v14 (ix2 i j) * v16 (ix2 j k)) * v18 (ix1 i) := by
  unfold k0_pay3
  refine (congrFun (shapeCast_self _ shapeCasts_S4096x256_S4096x256) _).trans ?_
  refine (mulf_apply _ _ _).trans ?_
  refine congr (congrArg HMul.hMul ?_) (col_4096_at v18 i k)
  refine (congrArg (fun l => FloatOps.matmul dot_S4096x256_S256x256_S4096x256_1_0_0_1_n_n none l v16
    (constant (F := Ideal) S4096x256 .f32 0x00000000#32) (ix2 i k)) (shapeCast_self v14 shapeCasts_S4096x256_S4096x256)).trans ?_
  exact matmul_feat_at v14 v16 i k

/-! ### The degree factors and the adjacency rows in the narrower format -/

/-- Casting to the narrower format and the same-shape cast are the identity at the exact values. -/
theorem pay2_eq (v14 : Vec Ideal S512x4096 .f32) : k0_pay2 v14 = v14 := by
  unfold k0_pay2
  exact shapeCast_self _ shapeCasts_S512x4096_S512x4096

/-- The selection the body computes on a row sum `x` is the degree factor of `x`: the two words are `0` and `1`. -/
theorem deg_of_parts (x : EReal) :
    Scalar.select (FloatOps.cmpf (F := Ideal) (φ := .f32) .ogt x (Ideal.ofBits .f32 0x00000000#32))
      (Ideal.div (Ideal.ofBits .f32 0x3F800000#32) (Ideal.sqrt x)) (Ideal.ofBits .f32 0x00000000#32) = Cert.GraphConv.deg x := by
  rw [Ideal.ofBits_zero_f32, Ideal.ofBits_one_f32]
  exact Cert.GraphConv.select_deg x

/-- The same over a column of row sums, read at an index: every operation is pointwise. -/
theorem deg_col_at (col : FVec Ideal S512x1 .f32) (i : S512x1.Idx) :
    select (cmpf .ogt col (broadcast S512x1 (Scalar.ofBits (F := Ideal) .f32 0x00000000#32)))
      (divf (broadcast S512x1 (Scalar.ofBits (F := Ideal) .f32 0x3F800000#32)) (sqrt col))
      (broadcast S512x1 (Scalar.ofBits (F := Ideal) .f32 0x00000000#32)) i = Cert.GraphConv.deg (col i) :=
  deg_of_parts (col i)

theorem pay1_at (v14 : Vec Ideal S512x4096 .f32) (r : Fin 512) :
    k0_pay1 v14 (ix1 r) = Cert.GraphConv.deg (∑ j : Fin 4096, v14 (ix2 r j)) := by
  unfold k0_pay1
  refine (congrFun (shapeCast_self _ shapeCasts_S512_S512) _).trans ?_
  refine (Cert.LibSqueezeColumn.shapeCast_a1_a_apply _ shapeCasts_S512x1_S512 r).trans ?_
  refine (deg_col_at _ _).trans (congrArg Cert.GraphConv.deg ?_)
  exact (Cert.Keepdims.shapeCast_a_a1_apply _ shapeCasts_S512_S512x1 r 0).trans
    (Cert.LibRowFolds.rowSum_at v14 _ reduces_S512x4096_S512 (.inl rfl) rfl r)

/-! ### The hidden layer: the product with the adjacency rows, scaled, clamped at zero, times the output weights, scaled again -/

/-- The product `[1024, 256] · [256, 256]` whose right operand went through a same-shape cast. -/
theorem matmul_out_cast_at {φ₁ φ₂ : FTy} (lhs : FVec Ideal S1024x256 φ₁) (rhs : FVec Ideal S256x256 φ₂) (p : Fin 1024) (j : Fin 256) :
    FloatOps.matmul dot_S1024x256_S256x256_S1024x256_1_0_0_1_n_n none lhs
        (shapeCast S256x256 rhs shapeCasts_S256x256_S256x256) (constant (F := Ideal) S1024x256 .f32 0x00000000#32) (ix2 p j)
      = ∑ k : Fin 256, lhs (ix2 p k) * rhs (ix2 k j) := by
  rw [shapeCast_self]
  exact matmul_out_at lhs rhs p j

theorem pay4_at (v17 : Vec Ideal S1024x4096 .bf16) (v18 : Vec Ideal S4096x256 .bf16) (v21 : Vec Ideal S1024 .f32)
    (v28 : Vec Ideal S256x256 .bf16) (r : Fin 1024) (c : Fin 256) :
    k0_pay4 v17 v18 v21 v28 (ix2 r c)
      = (∑ k : Fin 256, max ((∑ j : Fin 4096, v17 (ix2 r j) * v18 (ix2 j k)) * v21 (ix1 r)) 0 * v28 (ix2 k c)) * v21 (ix1 r) := by
  unfold k0_pay4
  refine (congrFun (shapeCast_self _ shapeCasts_S1024x256_S1024x256) _).trans ?_
  refine (mulf_apply _ _ _).trans ?_
  refine congr (congrArg HMul.hMul ?_) (col_1024_at v21 r c)
  refine (matmul_out_cast_at _ v28 r c).trans ?_
  refine Finset.sum_congr rfl fun k _ => ?_
  refine congrArg (· * v28 (ix2 k c)) ?_
  show max (k0_pay5 v17 v18 v21 (ix2 r k)) (Ideal.ofBits .f32 0x00000000#32) = _
  rw [pay5_at, Ideal.ofBits_zero_f32]

end Cert.GraphConv.Payloads

end
-- ==== Proof.Blocks.lean ====
/-
  What the region's input windows hold, read at coordinates. The adjacency matrix is staged in blocks of 512 rows
  (block `min t 7` at grid point `t`); the features, the first-layer weights and the two output weights side by
  side are staged whole. Each block entry is an entry of the argument arrays as launched.
-/
import proofs.«100562_g89885075570807_cont_sun_c4_768_27_alg».proof.Proof.Gen.KernelIdeal.Frame
import proofs.«100562_g89885075570807_cont_sun_c4_768_27_alg».proof.Proof.Spec
import Idealize.ShloMosaic.Lib.ValueIdx
import Idealize.ShloMosaic.Lib.Pipeline.Value
import Idealize.ShloMosaic.Lib.ValueLayout
import Idealize.ShloMosaic.Lib.StableHlo.Run
import Idealize.ShloMosaic.PureOps.Ideal

set_option maxRecDepth 16384

noncomputable section

namespace Cert.GraphConv.Blocks

open Cert.KernelIdeal Cert.KernelIdeal.Gen Idealize.ShloMosaic Idealize.ShloMosaic.ValueIdx

variable (m : (ℓ : Loc nD τ sig) → Buf (Elt Ideal) ℓ) (c : Dev nD)

/-- The adjacency matrix as launched, over plain coordinates. -/
def argA : Fin 4096 → Fin 4096 → EReal := fun i j => m ((c.tc : Thread nD τ).loc main_arg0) (ix2 i j)
/-- The features as launched. -/
def argX : Fin 4096 → Fin 256 → EReal := fun i j => m ((c.tc : Thread nD τ).loc main_arg1) (ix2 i j)
/-- The first layer's weights as launched. -/
def argW1 : Fin 256 → Fin 256 → EReal := fun i j => m ((c.tc : Thread nD τ).loc main_arg2) (ix2 i j)
/-- The mean head's weights as launched. -/
def argWm : Fin 256 → Fin 128 → EReal := fun i j => m ((c.tc : Thread nD τ).loc main_arg3) (ix2 i j)
/-- The log-deviation head's weights as launched. -/
def argWs : Fin 256 → Fin 128 → EReal := fun i j => m ((c.tc : Thread nD τ).loc main_arg4) (ix2 i j)

/-- The adjacency window's block index over the grid: at the first eight points it is the point itself on the
    row axis, and it is `0` on the column axis at every point. -/
theorem idxA : ∀ t : Fin cfg0.N, (t.val < 8 → win0_0.index t (0 : Fin 2) = t.val) ∧ win0_0.index t (1 : Fin 2) = 0 :=
  (by decide +kernel : ∀ t : Fin grid0.N, _)

/-- At a point `t < 8` the adjacency block's entry `(r, col)` is the matrix's entry `(512 t + r, col)`:
    a block's coordinate is its index times the block's extent plus the coordinate inside the block. -/
theorem blkA_at (t : Fin cfg0.N) (ht : t.val < 8) (r : Fin 512) (col : Fin 4096) :
    (iblk m c 0 t : S512x4096.Idx → EReal) (ix2 r col) = argA m c ⟨512 * t.val + r.val, by omega⟩ col := by
  unfold iblk argA
  rw [← V_main_arg0 m c]
  show V m c main_arg0 (((cfg0.win 0).blk t).view.emb (ix2 r col)) = V m c main_arg0 (ix2 ⟨512 * t.val + r.val, by omega⟩ col)
  obtain ⟨e0, e1⟩ := idxA t
  congr 1
  funext a; apply Fin.ext
  match a with
  | ⟨0, _⟩ => show win0_0.index t (0 : Fin 2) * 512 + 1 * r.val = 512 * t.val + r.val; rw [e0 ht]; omega
  | ⟨1, _⟩ => show win0_0.index t (1 : Fin 2) * 4096 + 1 * col.val = col.val; rw [e1]; omega

/-- The three whole-array windows have block index `0` on both axes at every point. -/
theorem idxWhole : ∀ t : Fin cfg0.N, win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0 :=
  (by decide +kernel : ∀ t : Fin grid0.N, _)

/-- The array the features' window stages is the features narrowed to bf16, which over the extended reals is
    the features themselves. -/
theorem V_v0 : (V m c main_v0 : S4096x256.Idx → EReal) = fun i => m ((c.tc : Thread nD τ).loc main_arg1) i := by
  dsimp only [Gen.V, Gen.hostOps0]
  after_results
  rfl

/-- The features' block, whole at every point, entry by entry. -/
theorem blkX_at (t : Fin cfg0.N) (i : Fin 4096) (j : Fin 256) :
    (iblk m c 1 t : S4096x256.Idx → EReal) (ix2 i j) = argX m c i j := by
  unfold iblk argX
  show (V m c main_v0 : S4096x256.Idx → EReal) (((cfg0.win 1).blk t).view.emb (ix2 i j)) = _
  rw [V_v0 m c]
  show m ((c.tc : Thread nD τ).loc main_arg1) (((cfg0.win 1).blk t).view.emb (ix2 i j)) = m ((c.tc : Thread nD τ).loc main_arg1) (ix2 i j)
  obtain ⟨e0, e1, -, -, -, -⟩ := idxWhole t
  congr 1
  funext a; apply Fin.ext
  match a with
  | ⟨0, _⟩ => show win0_1.index t (0 : Fin 2) * 4096 + 1 * i.val = i.val; rw [e0]; omega
  | ⟨1, _⟩ => show win0_1.index t (1 : Fin 2) * 256 + 1 * j.val = j.val; rw [e1]; omega

/-- The first-layer weights' block, whole at every point, entry by entry. -/
theorem blkW1_at (t : Fin cfg0.N) (j k : Fin 256) :
    (iblk m c 2 t : S256x256.Idx → EReal) (ix2 j k) = argW1 m c j k := by
  unfold iblk argW1
  rw [← V_main_arg2 m c]
  show V m c main_arg2 (((cfg0.win 2).blk t).view.emb (ix2 j k)) = V m c main_arg2 (ix2 j k)
  obtain ⟨-, -, e0, e1, -, -⟩ := idxWhole t
  congr 1
  funext a; apply Fin.ext
  match a with
  | ⟨0, _⟩ => show win0_2.index t (0 : Fin 2) * 256 + 1 * j.val = j.val; rw [e0]; omega
  | ⟨1, _⟩ => show win0_2.index t (1 : Fin 2) * 256 + 1 * k.val = k.val; rw [e1]; omega

/-- The array the output weights' window stages: the two weight matrices side by side along the column axis,
    narrowed to bf16 — over the extended reals, the concatenation itself. -/
theorem V_v2 : (V m c main_v2 : S256x256.Idx → EReal) =
    (concatenate S256x256 1 [⟨S256x128, (m ((c.tc : Thread nD τ).loc main_arg3) : S256x128.Idx → EReal)⟩,
      ⟨S256x128, (m ((c.tc : Thread nD τ).loc main_arg4) : S256x128.Idx → EReal)⟩]
      Facts₀.concatenates_S256x128_S256x128_S256x256_d1 : S256x256.Idx → EReal) := by
  dsimp only [Gen.V, Gen.hostOps0]
  after_results
  rfl

/-- The concatenation read at a column: columns below 128 are the mean head's, the others the log-deviation
    head's at the column less 128. -/
theorem wcat_at (k c' : Fin 256) :
    (concatenate S256x256 1 [⟨S256x128, (m ((c.tc : Thread nD τ).loc main_arg3) : S256x128.Idx → EReal)⟩,
      ⟨S256x128, (m ((c.tc : Thread nD τ).loc main_arg4) : S256x128.Idx → EReal)⟩]
      Facts₀.concatenates_S256x128_S256x128_S256x256_d1 : S256x256.Idx → EReal) (ix2 k c')
      = Cert.GraphConv.wcat (argWm m c) (argWs m c) k c' := by
  unfold Cert.GraphConv.wcat argWm argWs
  have hc := c'.isLt
  by_cases h : c'.val < 128
  · rw [dif_pos h]
    refine concatenate_pair_apply_left (t := S256x256) (s₁ := S256x128) (s₂ := S256x128) (1 : Fin 2) _ _ _ (ix2 k c') rfl (ix2 k (⟨c'.val, h⟩ : Fin 128) : S256x128.Idx) ?_
    intro b
    match b with
    | ⟨0, _⟩ => rfl
    | ⟨1, _⟩ => rfl
  · rw [dif_neg h]
    refine concatenate_pair_apply_right (t := S256x256) (s₁ := S256x128) (s₂ := S256x128) (1 : Fin 2) _ _ _ (ix2 k c') rfl rfl
      (ix2 k (⟨c'.val - 128, by omega⟩ : Fin 128) : S256x128.Idx) ?_ ?_
    · intro b hb
      match b with
      | ⟨0, _⟩ => rfl
      | ⟨1, _⟩ => exact absurd rfl hb
    · show (c'.val - 128) + 128 = c'.val
      omega

/-- The output weights' block, whole at every point, entry by entry: the two heads' weights side by side. -/
theorem blkWc_at (t : Fin cfg0.N) (k c' : Fin 256) :
    (iblk m c 3 t : S256x256.Idx → EReal) (ix2 k c') = Cert.GraphConv.wcat (argWm m c) (argWs m c) k c' := by
  rw [← wcat_at m c k c', ← V_v2 m c]
  unfold iblk
  show (V m c main_v2 : S256x256.Idx → EReal) (((cfg0.win 3).blk t).view.emb (ix2 k c')) = (V m c main_v2 : S256x256.Idx → EReal) (ix2 k c')
  obtain ⟨-, -, -, -, e0, e1⟩ := idxWhole t
  congr 1
  funext a; apply Fin.ext
  match a with
  | ⟨0, _⟩ => show win0_3.index t (0 : Fin 2) * 256 + 1 * k.val = k.val; rw [e0]; omega
  | ⟨1, _⟩ => show win0_3.index t (1 : Fin 2) * 256 + 1 * c'.val = c'.val; rw [e1]; omega

end Cert.GraphConv.Blocks

end
-- ==== Proof.Value.lean ====
import proofs.«100562_g89885075570807_cont_sun_c4_768_27_alg».proof.Proof.Body.Data
import proofs.«100562_g89885075570807_cont_sun_c4_768_27_alg».proof.Proof.Payloads
import proofs.«100562_g89885075570807_cont_sun_c4_768_27_alg».proof.Proof.Blocks
import proofs.«100562_g89885075570807_cont_sun_c4_768_27_alg».proof.Proof.Spec
import Idealize.ShloMosaic.Lib.ValueIdx

/-
  The kernel side: what the scratch buffers and the two result windows hold (Body/Data.lean), read at an index at
  the ideal values, is the FACTORED form of the graph convolution (Spec.lean) of the argument arrays as launched.

  The resident copy is the adjacency matrix itself; the row factors are `dis A`; the first support is
  `s1 = (X · W1) ⊙ d`; the second support is `s2 = (h · [Wm | Ws]) ⊙ d` with `h = max ((A · s1) ⊙ d) 0`; the two
  results' row blocks are the first and the last 128 columns of `out = (A · s2) ⊙ d`. A row `i` of a whole array
  sits in its block `i / n` at row `i % n`, and `n * (i / n) + i % n = i`.
-/

set_option maxRecDepth 16384

noncomputable section

namespace Cert.GraphConv.Value

open Cert.KernelIdeal Cert.KernelIdeal.Gen Cert.KernelIdeal.Body Cert.GraphConv Cert.GraphConv.Blocks
  Cert.GraphConv.Payloads Idealize.ShloMosaic Idealize.ShloMosaic.ValueIdx

variable (m : (ℓ : Loc nD τ sig) → Buf (Elt Ideal) ℓ) (c : Dev nD)

/-- Row `i` of the matrix sits in the block of point `i / 512` at row `i % 512`. -/
theorem blkA_entry (i j : Fin 4096) (h : i.val / 512 < 16) (h' : i.val % 512 < 512) :
    blkA m c (pt (i.val / 512) h) (ix2 ⟨i.val % 512, h'⟩ j) = argA m c i j := by
  unfold blkA
  refine (blkA_at m c (pt (i.val / 512) h) (by have := i.isLt; show i.val / 512 < 8; omega) ⟨i.val % 512, h'⟩ j).trans ?_
  exact congrArg (fun x => argA m c x j) (Fin.ext (by show 512 * (i.val / 512) + i.val % 512 = i.val; omega))

/-- The resident copy is the adjacency matrix. -/
theorem specA_at (i j : Fin 4096) : specA m c (ix2 i j) = argA m c i j := by
  show k0_pay2 (blkA m c (pt (i.val / 512) _)) (ix2 ⟨i.val % 512, _⟩ j) = _
  rw [pay2_eq]
  exact blkA_entry m c i j _ _

/-- The row factors are the normalising factors of the nodes. -/
theorem specD_at (i : Fin 4096) : specD m c (ix1 i) = dis (argA m c) i := by
  show k0_pay1 (blkA m c (pt (i.val / 512) _)) (ix1 ⟨i.val % 512, _⟩) = _
  rw [pay1_at]
  unfold dis rowSum
  exact congrArg deg (Finset.sum_congr rfl fun j _ => blkA_entry m c i j _ _)

/-- The first support is `(X · W1) ⊙ d`. -/
theorem specS1_at (i : Fin 4096) (k : Fin 256) :
    specS1 m c (ix2 i k) = s1 (argA m c) (argX m c) (argW1 m c) i k := by
  unfold specS1
  rw [pay3_at, specD_at]
  unfold s1 xw blkX blkW1
  exact congrArg (· * dis (argA m c) i) (Finset.sum_congr rfl fun j _ => by rw [blkX_at, blkW1_at])

/-- Row block `b` of the resident copy. -/
theorem rowsA_at (b : ℕ) (hb : b < 4) (r : Fin 1024) (j : Fin 4096) :
    rowsA m c b hb (ix2 r j) = argA m c ⟨1024 * b + r.val, by omega⟩ j :=
  specA_at m c ⟨1024 * b + r.val, by omega⟩ j

/-- Row block `b` of the row factors. -/
theorem rowsD_at (b : ℕ) (hb : b < 4) (r : Fin 1024) :
    rowsD m c b hb (ix1 r) = dis (argA m c) ⟨1024 * b + r.val, by omega⟩ :=
  specD_at m c ⟨1024 * b + r.val, by omega⟩

/-- Row block `b` of the second support. -/
theorem blkS2_at (b : ℕ) (hb : b < 4) (r : Fin 1024) (cc : Fin 256) :
    blkS2 m c b hb (ix2 r cc)
      = s2 (argA m c) (argX m c) (argW1 m c) (argWm m c) (argWs m c) ⟨1024 * b + r.val, by omega⟩ cc := by
  unfold blkS2
  rw [pay4_at]
  unfold blkWc
  simp only [rowsA_at, rowsD_at, specS1_at, blkWc_at]
  rfl

/-- The second support is `(h · [Wm | Ws]) ⊙ d`. -/
theorem specS2_at (i : Fin 4096) (cc : Fin 256) :
    specS2 m c (ix2 i cc) = s2 (argA m c) (argX m c) (argW1 m c) (argWm m c) (argWs m c) i cc := by
  show blkS2 m c (i.val / 1024) _ (ix2 ⟨i.val % 1024, _⟩ cc) = _
  refine (blkS2_at m c (i.val / 1024) _ ⟨i.val % 1024, _⟩ cc).trans ?_
  exact congrArg (fun x => s2 (argA m c) (argX m c) (argW1 m c) (argWm m c) (argWs m c) x cc)
    (Fin.ext (by show 1024 * (i.val / 1024) + i.val % 1024 = i.val; omega))

/-- The first result's row block `b` is the factored mean on those rows. -/
theorem out4_at (b : ℕ) (hb : b < 4) (r : Fin 1024) (cc : Fin 128) :
    out4 m c b hb (ix2 r cc)
      = meanF (argA m c) (argX m c) (argW1 m c) (argWm m c) (argWs m c) ⟨1024 * b + r.val, by omega⟩ cc := by
  unfold out4
  rw [pay6_at, pay5_at]
  simp only [rowsA_at, rowsD_at, specS2_at]
  rfl

/-- The second result's row block `b` is the factored log-deviation on those rows. -/
theorem out5_at (b : ℕ) (hb : b < 4) (r : Fin 1024) (cc : Fin 128) :
    out5 m c b hb (ix2 r cc)
      = logF (argA m c) (argX m c) (argW1 m c) (argWm m c) (argWs m c) ⟨1024 * b + r.val, by omega⟩ cc := by
  unfold out5
  rw [pay7_at, pay5_at]
  simp only [rowsA_at, rowsD_at, specS2_at]
  rfl

end Cert.GraphConv.Value

end
-- ==== Proof.Final.lean ====
/-
  From the two result windows' row blocks to the two result arrays, at the ideal values.

  Each result window is written back at the points 12, 13, 14, 15 and at no other; at point `12 + b` its block index is
  `(b, 0)`, so the block covers the rows `1024 b ≤ i < 1024 (b + 1)` and all 128 columns: row `i` of the array is
  row `i % 1024` of the block of point `12 + i / 1024`. What that point writes back is row block `b` of the factored
  form of the graph convolution, so the first array ends as its mean and the second as its log-deviation, entry by
  entry; and the four blocks cover the array.
-/
import proofs.«100562_g89885075570807_cont_sun_c4_768_27_alg».proof.Proof.Body.Data
import proofs.«100562_g89885075570807_cont_sun_c4_768_27_alg».proof.Proof.Value
import proofs.«100562_g89885075570807_cont_sun_c4_768_27_alg».proof.Proof.Blocks
import proofs.«100562_g89885075570807_cont_sun_c4_768_27_alg».proof.Proof.Spec
import Idealize.ShloMosaic.Lib.Pipeline.Value
import Idealize.ShloMosaic.Lib.ValueIdx

set_option maxRecDepth 16384

noncomputable section

namespace Cert.GraphConv.Final

open Cert.KernelIdeal Cert.KernelIdeal.Gen Cert.KernelIdeal.Body Cert.GraphConv Cert.GraphConv.Blocks Cert.GraphConv.Value
  Idealize.ShloMosaic Idealize.ShloMosaic.TcCoe Idealize.ShloMosaic.ValueIdx
open Idealize.ShloMosaic.Pipeline (Dat)

variable (m : (ℓ : Loc nD τ sig) → Buf (Elt Ideal) ℓ) (c : Dev nD)

/-! ## The mean array (window 4) -/

/-- The mean of the factored form, as an array over the result's index set. -/
abbrev meanArr : S4096x128.Idx → EReal := fun i =>
  meanF (argA m c) (argX m c) (argW1 m c) (argWm m c) (argWs m c) (i 0) (i 1)

/-- The window is written back exactly at the last four points (decided over the grid). -/
theorem flush4_iff : ∀ t : Fin cfg0.N, (cfg0.win 4).flush t = true ↔ 12 ≤ t.val :=
  (by decide +kernel : ∀ t : Fin grid0.N, (cfg0.win 4).flush t = true ↔ 12 ≤ t.val)

/-- At point `12 + b` the window's block index is `(b, 0)` (decided over the grid). -/
theorem index4 : ∀ t : Fin cfg0.N, 12 ≤ t.val →
    win0_4.index t (0 : Fin 2) = t.val - 12 ∧ win0_4.index t (1 : Fin 2) = 0 :=
  (by decide +kernel : ∀ t : Fin grid0.N, 12 ≤ t.val →
    win0_4.index t (0 : Fin 2) = t.val - 12 ∧ win0_4.index t (1 : Fin 2) = 0)

/-- What point `t ≥ 12` writes back is block `t` of the mean array. -/
theorem flushed4_eq (t : Fin cfg0.N) (h12 : 12 ≤ t.val) :
    (dats m 0 c).flushed 4 t = ((cfg0.win 4).blk t).view.read (Elt Ideal) (meanArr m c) := by
  show (cfg0.win 4).cut (grid0.coords t) ((dats m 0 c).after 4 t) = _
  rw [after4]
  unfold outAt4
  rw [dif_pos h12]
  obtain ⟨e0, e1⟩ := index4 t h12
  funext j
  have hj0 : (j 0).val < 1024 := (j 0).isLt
  have hj1 : (j 1).val < 128 := (j 1).isLt
  have hb : t.val - 12 < 4 := by have := N16 t; omega
  -- the block's entry, at coordinates
  have hx : ((cfg0.win 4).xinj (grid0.coords t) j : S1024x128.Idx) = ix2 ⟨(j 0).val, hj0⟩ ⟨(j 1).val, hj1⟩ := by
    funext a
    match a with
    | ⟨0, _⟩ => rfl
    | ⟨1, _⟩ => rfl
  show out4 m c (t.val - 12) hb ((cfg0.win 4).xinj (grid0.coords t) j) = meanArr m c (((cfg0.win 4).blk t).view.emb j)
  refine (congrArg (out4 m c (t.val - 12) hb) hx).trans ?_
  refine (out4_at m c (t.val - 12) hb ⟨(j 0).val, hj0⟩ ⟨(j 1).val, hj1⟩).trans ?_
  -- a block's coordinate in the array is its index times the block's extent plus the coordinate inside the block
  show meanF (argA m c) (argX m c) (argW1 m c) (argWm m c) (argWs m c) _ _ = meanF (argA m c) (argX m c) (argW1 m c) (argWm m c) (argWs m c) _ _
  congr 1
  · apply Fin.ext
    show 1024 * (t.val - 12) + (j 0).val = win0_4.index t (0 : Fin 2) * 1024 + 1 * (j 0).val
    rw [e0]; omega
  · apply Fin.ext
    show (j 1).val = win0_4.index t (1 : Fin 2) * 128 + 1 * (j 1).val
    rw [e1]; omega

/-- An index of the array is in point `t`'s block iff each coordinate is in the block's range on its axis. -/
theorem mem_blk4 (t : Fin cfg0.N) (i : S4096x128.Idx) :
    i ∈ ((cfg0.win 4).blk t).view.set ↔ ∀ a : Fin 2, win0_4.index t a * S1024x128.size a ≤ (i a).val
      ∧ (i a).val < win0_4.index t a * S1024x128.size a + S1024x128.size a := by
  show i ∈ ((View.whole main_v3_0).slice (win0_4.rect t)).set ↔ _
  rw [View.set_slice_whole, Rect.mem_set_unit]
  exact Iff.rfl

/-- Row `i` of the array is covered by the block of point `12 + i / 1024`, which is written back. -/
theorem cover4 (i : S4096x128.Idx) :
    ∃ t : Fin cfg0.N, (cfg0.win 4).flush t = true ∧ i ∈ ((cfg0.win 4).blk t).view.set := by
  have hi0 : (i 0).val < 4096 := (i 0).isLt
  have hi1 : (i 1).val < 128 := (i 1).isLt
  have ht12 : 12 ≤ (pt (12 + (i 0).val / 1024) (by omega)).val := by show 12 ≤ 12 + (i 0).val / 1024; omega
  obtain ⟨e0, e1⟩ := index4 (pt (12 + (i 0).val / 1024) (by omega)) ht12
  have e0' : win0_4.index (pt (12 + (i 0).val / 1024) (by omega)) (0 : Fin 2) = (i 0).val / 1024 := by
    rw [e0]; show 12 + (i 0).val / 1024 - 12 = (i 0).val / 1024; omega
  refine ⟨pt (12 + (i 0).val / 1024) (by omega), (flush4_iff _).mpr ht12, ?_⟩
  rw [mem_blk4]
  intro a
  match a with
  | ⟨0, _⟩ =>
    show win0_4.index (pt (12 + (i 0).val / 1024) _) (0 : Fin 2) * 1024 ≤ (i 0).val
      ∧ (i 0).val < win0_4.index (pt (12 + (i 0).val / 1024) _) (0 : Fin 2) * 1024 + 1024
    rw [e0']; omega
  | ⟨1, _⟩ =>
    show win0_4.index (pt (12 + (i 0).val / 1024) _) (1 : Fin 2) * 128 ≤ (i 1).val
      ∧ (i 1).val < win0_4.index (pt (12 + (i 0).val / 1024) _) (1 : Fin 2) * 128 + 128
    rw [e1]; omega

/-- The array after the run is the mean of the factored form of the argument arrays as launched. -/
theorem final4 : (dats m 0 c).arrAt 4 cfg0.N = fun i : S4096x128.Idx =>
    meanF (argA m c) (argX m c) (argW1 m c) (argWm m c) (argWs m c) (i 0) (i 1) :=
  (dats m 0 c).arrAt_eq_of_cover 4 (meanArr m c) (fun t hf => flushed4_eq m c t ((flush4_iff t).mp hf)) cover4

/-! ## The log-deviation array (window 5) -/

/-- The log-deviation of the factored form, as an array over the result's index set. -/
abbrev logArr : S4096x128.Idx → EReal := fun i =>
  logF (argA m c) (argX m c) (argW1 m c) (argWm m c) (argWs m c) (i 0) (i 1)

/-- The window is written back exactly at the last four points (decided over the grid). -/
theorem flush5_iff : ∀ t : Fin cfg0.N, (cfg0.win 5).flush t = true ↔ 12 ≤ t.val :=
  (by decide +kernel : ∀ t : Fin grid0.N, (cfg0.win 5).flush t = true ↔ 12 ≤ t.val)

/-- At point `12 + b` the window's block index is `(b, 0)` (decided over the grid). -/
theorem index5 : ∀ t : Fin cfg0.N, 12 ≤ t.val →
    win0_5.index t (0 : Fin 2) = t.val - 12 ∧ win0_5.index t (1 : Fin 2) = 0 :=
  (by decide +kernel : ∀ t : Fin grid0.N, 12 ≤ t.val →
    win0_5.index t (0 : Fin 2) = t.val - 12 ∧ win0_5.index t (1 : Fin 2) = 0)

/-- What point `t ≥ 12` writes back is block `t` of the log-deviation array. -/
theorem flushed5_eq (t : Fin cfg0.N) (h12 : 12 ≤ t.val) :
    (dats m 0 c).flushed 5 t = ((cfg0.win 5).blk t).view.read (Elt Ideal) (logArr m c) := by
  show (cfg0.win 5).cut (grid0.coords t) ((dats m 0 c).after 5 t) = _
  rw [after5]
  unfold outAt5
  rw [dif_pos h12]
  obtain ⟨e0, e1⟩ := index5 t h12
  funext j
  have hj0 : (j 0).val < 1024 := (j 0).isLt
  have hj1 : (j 1).val < 128 := (j 1).isLt
  have hb : t.val - 12 < 4 := by have := N16 t; omega
  -- the block's entry, at coordinates
  have hx : ((cfg0.win 5).xinj (grid0.coords t) j : S1024x128.Idx) = ix2 ⟨(j 0).val, hj0⟩ ⟨(j 1).val, hj1⟩ := by
    funext a
    match a with
    | ⟨0, _⟩ => rfl
    | ⟨1, _⟩ => rfl
  show out5 m c (t.val - 12) hb ((cfg0.win 5).xinj (grid0.coords t) j) = logArr m c (((cfg0.win 5).blk t).view.emb j)
  refine (congrArg (out5 m c (t.val - 12) hb) hx).trans ?_
  refine (out5_at m c (t.val - 12) hb ⟨(j 0).val, hj0⟩ ⟨(j 1).val, hj1⟩).trans ?_
  -- a block's coordinate in the array is its index times the block's extent plus the coordinate inside the block
  show logF (argA m c) (argX m c) (argW1 m c) (argWm m c) (argWs m c) _ _ = logF (argA m c) (argX m c) (argW1 m c) (argWm m c) (argWs m c) _ _
  congr 1
  · apply Fin.ext
    show 1024 * (t.val - 12) + (j 0).val = win0_5.index t (0 : Fin 2) * 1024 + 1 * (j 0).val
    rw [e0]; omega
  · apply Fin.ext
    show (j 1).val = win0_5.index t (1 : Fin 2) * 128 + 1 * (j 1).val
    rw [e1]; omega

/-- An index of the array is in point `t`'s block iff each coordinate is in the block's range on its axis. -/
theorem mem_blk5 (t : Fin cfg0.N) (i : S4096x128.Idx) :
    i ∈ ((cfg0.win 5).blk t).view.set ↔ ∀ a : Fin 2, win0_5.index t a * S1024x128.size a ≤ (i a).val
      ∧ (i a).val < win0_5.index t a * S1024x128.size a + S1024x128.size a := by
  show i ∈ ((View.whole main_v3_1).slice (win0_5.rect t)).set ↔ _
  rw [View.set_slice_whole, Rect.mem_set_unit]
  exact Iff.rfl

/-- Row `i` of the array is covered by the block of point `12 + i / 1024`, which is written back. -/
theorem cover5 (i : S4096x128.Idx) :
    ∃ t : Fin cfg0.N, (cfg0.win 5).flush t = true ∧ i ∈ ((cfg0.win 5).blk t).view.set := by
  have hi0 : (i 0).val < 4096 := (i 0).isLt
  have hi1 : (i 1).val < 128 := (i 1).isLt
  have ht12 : 12 ≤ (pt (12 + (i 0).val / 1024) (by omega)).val := by show 12 ≤ 12 + (i 0).val / 1024; omega
  obtain ⟨e0, e1⟩ := index5 (pt (12 + (i 0).val / 1024) (by omega)) ht12
  have e0' : win0_5.index (pt (12 + (i 0).val / 1024) (by omega)) (0 : Fin 2) = (i 0).val / 1024 := by
    rw [e0]; show 12 + (i 0).val / 1024 - 12 = (i 0).val / 1024; omega
  refine ⟨pt (12 + (i 0).val / 1024) (by omega), (flush5_iff _).mpr ht12, ?_⟩
  rw [mem_blk5]
  intro a
  match a with
  | ⟨0, _⟩ =>
    show win0_5.index (pt (12 + (i 0).val / 1024) _) (0 : Fin 2) * 1024 ≤ (i 0).val
      ∧ (i 0).val < win0_5.index (pt (12 + (i 0).val / 1024) _) (0 : Fin 2) * 1024 + 1024
    rw [e0']; omega
  | ⟨1, _⟩ =>
    show win0_5.index (pt (12 + (i 0).val / 1024) _) (1 : Fin 2) * 128 ≤ (i 1).val
      ∧ (i 1).val < win0_5.index (pt (12 + (i 0).val / 1024) _) (1 : Fin 2) * 128 + 128
    rw [e1]; omega

/-- The array after the run is the log-deviation of the factored form of the argument arrays as launched. -/
theorem final5 : (dats m 0 c).arrAt 5 cfg0.N = fun i : S4096x128.Idx =>
    logF (argA m c) (argX m c) (argW1 m c) (argWm m c) (argWs m c) (i 0) (i 1) :=
  (dats m 0 c).arrAt_eq_of_cover 5 (logArr m c) (fun t hf => flushed5_eq m c t ((flush5_iff t).mp hf)) cover5

end Cert.GraphConv.Final

end
-- ==== Proof.KernelRun.lean ====
/-
  The idealized kernel's run, read: every weakly fair execution terminates without a fault, its two result arrays hold
  the factored form of the two-layer graph convolution of the argument arrays (the mean and the log-deviation, index by
  index), and the argument arrays end unchanged.
-/
import proofs.«100562_g89885075570807_cont_sun_c4_768_27_alg».proof.Proof.Body.Obligation
import proofs.«100562_g89885075570807_cont_sun_c4_768_27_alg».proof.Proof.Final
import proofs.«100562_g89885075570807_cont_sun_c4_768_27_alg».proof.Proof.Blocks
import proofs.«100562_g89885075570807_cont_sun_c4_768_27_alg».proof.Proof.Spec

set_option maxRecDepth 16384

noncomputable section

namespace Cert.GraphConv.KernelRun

open Idealize.ShloMosaic Idealize.ShloMosaic.TcCoe Idealize.SL.Sem
open Cert.KernelIdeal Cert.KernelIdeal.Gen Cert.KernelIdeal.Body Cert.GraphConv Cert.GraphConv.Blocks Cert.GraphConv.Final

/-- The run of the idealized kernel with both results named. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v3_0) = (fun i => meanF (argA m c) (argX m c) (argW1 m c) (argWm m c) (argWs m c) (i 0) (i 1))
      ∧ r.2.mem ((c.tc : Thread nD τ).loc main_v3_1) = (fun i => logF (argA m c) (argX m c) (argW1 m c) (argWm m c) (argWs m c) (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).1 4).trans (final4 m c), ((h c).1 5).trans (final5 m c),
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).1 2).trans (((dats m 0 c).arrAt_in 2 rfl _).trans ((A_eq m c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩)
    (run_main (F := Ideal) m ρ)

end Cert.GraphConv.KernelRun

end
-- ==== Proof.RefSide.lean ====
import proofs.«100562_g89885075570807_cont_sun_c4_768_27_alg».proof.Proof.Gen.ReferenceIdeal.Read
import proofs.«100562_g89885075570807_cont_sun_c4_768_27_alg».proof.Proof.Gen.ReferenceIdeal.Run
import proofs.«100562_g89885075570807_cont_sun_c4_768_27_alg».proof.Proof.Spec
import Idealize.ShloMosaic.Lib.ValueIdx
import Idealize.ShloMosaic.PureOps.Ideal.Laws

/-
  The reference side: the reference program's two results, read stage by stage at an index, are the NORMALISED form
  of the graph convolution (Spec.lean `meanN`, `logN`) of the five argument arrays read as plain matrices.

  The stages: the row sums, the selection `where (r > 0) (1 / √r) 0` giving the degree vector `d`, the two broadcasts
  and products building `Â i j = A i j · d i · d j`, the support `X · W1`, the hidden layer `max (Â · (X · W1)) 0`,
  and the two outputs `Â · (h · Wm)`, `Â · (h · Ws)`. Each stage is one small lemma at a coordinate index.
-/

noncomputable section

namespace Cert.GraphConv.RefSide

open Cert.ReferenceIdeal Cert.ReferenceIdeal.Gen Cert.ReferenceIdeal.Read Idealize.ShloMosaic Idealize.ShloMosaic.ValueIdx

/-- The word `0x3F800000` is the f32 pattern of `1`. -/
theorem ofBits_one : Ideal.ofBits .f32 0x3F800000#32 = 1 := by
  simp [Ideal.ofBits, Ideal.ieee, -EReal.coe_mul]; norm_num

variable (a0 : (⟨S4096x4096, .f32⟩ : BufTy).Contents (Elt Ideal)) (a1 : (⟨S4096x256, .f32⟩ : BufTy).Contents (Elt Ideal))
  (a2 : (⟨S256x256, .f32⟩ : BufTy).Contents (Elt Ideal)) (a3 a4 : (⟨S256x128, .f32⟩ : BufTy).Contents (Elt Ideal))

/-- The adjacency array as a matrix. -/
abbrev matA : Fin 4096 → Fin 4096 → EReal := fun i j => a0 (ix2 i j)
/-- The feature array as a matrix. -/
abbrev matX : Fin 4096 → Fin 256 → EReal := fun i j => a1 (ix2 i j)
/-- The first weight array as a matrix. -/
abbrev matW1 : Fin 256 → Fin 256 → EReal := fun i j => a2 (ix2 i j)
/-- An output weight array as a matrix. -/
abbrev matW (a : (⟨S256x128, .f32⟩ : BufTy).Contents (Elt Ideal)) : Fin 256 → Fin 128 → EReal := fun i j => a (ix2 i j)

/-- The degree vector: the selection at node `i` is `dis A i`. -/
theorem d_apply (i : Fin 4096) : val_main_v6 (F := Ideal) a0 (ix1 i) = dis (matA a0) i := by
  rw [val_main_v6_apply, val_main_v2_apply, val_main_v5_apply, val_main_call0_v1_apply, val_main_call0_v0_apply,
    val_main_cst_2_apply, val_main_v4_apply, val_main_cst_1_apply, val_main_v3_apply, val_main_v1_apply,
    val_main_cst_0_apply, val_main_v0_apply, val_main_cst_apply]
  have hidx : ∀ k : Fin 4096, idx_main_v0 (ix1 i) k = ix2 i k := fun k =>
    funext fun a => Fin.ext (by match a with | ⟨0, _⟩ => rfl | ⟨1, _⟩ => rfl)
  simp only [hidx, Ideal.ofBits_def, Ideal.ofBits_zero_f32, ofBits_one, zero_add, Ideal.hostDivf_def,
    Ideal.hostUnary_sqrt_def, Ideal.cmpf_def]
  exact select_deg _

/-- The normalised adjacency: the doubly scaled matrix at `(i, j)` is `adjN A i j`. -/
theorem adj_apply (i j : Fin 4096) : val_main_v12 (F := Ideal) a0 (ix2 i j) = adjN (matA a0) i j := by
  rw [val_main_v12_apply, val_main_v9_apply, val_main_v8_apply, val_main_v7_apply, val_main_v11_apply,
    val_main_v10_apply]
  have h1 : idx_main_v7 (idx_main_v8 (ix2 i j)) = ix1 i :=
    funext fun a => Fin.ext (by match a with | ⟨0, _⟩ => rfl)
  have h2 : idx_main_v10 (idx_main_v11 (ix2 i j)) = ix1 j :=
    funext fun a => Fin.ext (by match a with | ⟨0, _⟩ => rfl)
  rw [h1, h2, d_apply, d_apply]
  rfl

/-- The first layer's support: `X · W1` at `(i, k)`. -/
theorem xw_apply (i : Fin 4096) (k : Fin 256) :
    val_main_v13 (F := Ideal) a1 a2 (ix2 i k) = xw (matX a1) (matW1 a2) i k := by
  rw [val_main_v13_apply]
  have hl : ∀ t : Fin 256, lidx_main_v13 (ix2 i k) t = ix2 i t := fun t =>
    funext fun a => Fin.ext (by match a with | ⟨0, _⟩ => rfl | ⟨1, _⟩ => rfl)
  have hr : ∀ t : Fin 256, ridx_main_v13 (ix2 i k) t = ix2 t k := fun t =>
    funext fun a => Fin.ext (by match a with | ⟨0, _⟩ => rfl | ⟨1, _⟩ => rfl)
  simp only [hl, hr]
  rfl

/-- The hidden layer: `max (Â · (X · W1)) 0` at `(i, k)`. -/
theorem hid_apply (i : Fin 4096) (k : Fin 256) :
    val_main_v15 (F := Ideal) a0 a1 a2 (ix2 i k) = hidN (matA a0) (matX a1) (matW1 a2) i k := by
  rw [val_main_v15_apply, val_main_call1_v0_apply, val_main_call1_cst_apply, val_main_v14_apply]
  have hl : ∀ t : Fin 4096, lidx_main_v14 (ix2 i k) t = ix2 i t := fun t =>
    funext fun a => Fin.ext (by match a with | ⟨0, _⟩ => rfl | ⟨1, _⟩ => rfl)
  have hr : ∀ t : Fin 4096, ridx_main_v14 (ix2 i k) t = ix2 t k := fun t =>
    funext fun a => Fin.ext (by match a with | ⟨0, _⟩ => rfl | ⟨1, _⟩ => rfl)
  simp only [hl, hr, adj_apply, xw_apply, Ideal.ofBits_def, Ideal.ofBits_zero_f32, Ideal.maximumf_def]
  rfl

/-- The mean's support: `h · Wm` at `(j, c)`. -/
theorem supm_apply (j : Fin 4096) (c : Fin 128) :
    val_main_v16 (F := Ideal) a0 a1 a2 a3 (ix2 j c)
      = ∑ k : Fin 256, hidN (matA a0) (matX a1) (matW1 a2) j k * matW a3 k c := by
  rw [val_main_v16_apply]
  have hl : ∀ t : Fin 256, lidx_main_v16 (ix2 j c) t = ix2 j t := fun t =>
    funext fun a => Fin.ext (by match a with | ⟨0, _⟩ => rfl | ⟨1, _⟩ => rfl)
  have hr : ∀ t : Fin 256, ridx_main_v16 (ix2 j c) t = ix2 t c := fun t =>
    funext fun a => Fin.ext (by match a with | ⟨0, _⟩ => rfl | ⟨1, _⟩ => rfl)
  simp only [hl, hr, hid_apply]

/-- The log-deviation's support: `h · Ws` at `(j, c)`. -/
theorem sups_apply (j : Fin 4096) (c : Fin 128) :
    val_main_v18 (F := Ideal) a0 a1 a2 a4 (ix2 j c)
      = ∑ k : Fin 256, hidN (matA a0) (matX a1) (matW1 a2) j k * matW a4 k c := by
  rw [val_main_v18_apply]
  have hl : ∀ t : Fin 256, lidx_main_v18 (ix2 j c) t = ix2 j t := fun t =>
    funext fun a => Fin.ext (by match a with | ⟨0, _⟩ => rfl | ⟨1, _⟩ => rfl)
  have hr : ∀ t : Fin 256, ridx_main_v18 (ix2 j c) t = ix2 t c := fun t =>
    funext fun a => Fin.ext (by match a with | ⟨0, _⟩ => rfl | ⟨1, _⟩ => rfl)
  simp only [hl, hr, hid_apply]

/-- The reference's first result is the normalised mean at every index. -/
theorem ref_mean : val_main_v17 (F := Ideal) a0 a1 a2 a3
    = fun idx => meanN (matA a0) (matX a1) (matW1 a2) (matW a3) (idx 0) (idx 1) := by
  funext idx
  obtain ⟨p, q, rfl⟩ : ∃ (p : Fin 4096) (q : Fin 128), idx = ix2 p q := ⟨idx 0, idx 1, eq_ix2 idx⟩
  rw [val_main_v17_apply]
  have hl : ∀ t : Fin 4096, lidx_main_v17 (ix2 p q) t = ix2 p t := fun t =>
    funext fun a => Fin.ext (by match a with | ⟨0, _⟩ => rfl | ⟨1, _⟩ => rfl)
  have hr : ∀ t : Fin 4096, ridx_main_v17 (ix2 p q) t = ix2 t q := fun t =>
    funext fun a => Fin.ext (by match a with | ⟨0, _⟩ => rfl | ⟨1, _⟩ => rfl)
  simp only [hl, hr, adj_apply, supm_apply]
  rfl

/-- The reference's second result is the normalised log-deviation at every index. -/
theorem ref_log : val_main_v19 (F := Ideal) a0 a1 a2 a4
    = fun idx => logN (matA a0) (matX a1) (matW1 a2) (matW a4) (idx 0) (idx 1) := by
  funext idx
  obtain ⟨p, q, rfl⟩ : ∃ (p : Fin 4096) (q : Fin 128), idx = ix2 p q := ⟨idx 0, idx 1, eq_ix2 idx⟩
  rw [val_main_v19_apply]
  have hl : ∀ t : Fin 4096, lidx_main_v19 (ix2 p q) t = ix2 p t := fun t =>
    funext fun a => Fin.ext (by match a with | ⟨0, _⟩ => rfl | ⟨1, _⟩ => rfl)
  have hr : ∀ t : Fin 4096, ridx_main_v19 (ix2 p q) t = ix2 t q := fun t =>
    funext fun a => Fin.ext (by match a with | ⟨0, _⟩ => rfl | ⟨1, _⟩ => rfl)
  simp only [hl, hr, adj_apply, sups_apply]
  rfl

end Cert.GraphConv.RefSide

end
-- ==== Proof.Algebra.lean ====
/-
  The factored and the normalised graph convolution agree.

  The normalising factor `d i = deg (∑ j, A i j)` is always the coercion of a nonnegative real number: for a positive
  real `r` it is `(√r)⁻¹`, for `r = ⊤` it is `1 · ⊤⁻¹ = 0`, and otherwise it is `0`.  Multiplication by a
  nonnegative real distributes over every finite sum of extended reals, and multiplication of extended reals is
  commutative and associative, so

    (∑ j, A i j * (t j * d j)) * d i = ∑ j, (A i j * d i * d j) * t j

  for every `t`.  Applied with `t = X · W1` this gives `hidF = hidN`; applied with `t = h · [Wm | Ws]` and the
  column split of `[Wm | Ws]` it gives the two output equalities.
-/
import Mathlib
import proofs.«100562_g89885075570807_cont_sun_c4_768_27_alg».proof.Proof.Spec

noncomputable section

namespace Cert.GraphConv

open Idealize.ShloMosaic

/-- `deg r` is the coercion of a nonnegative real, whatever the extended real `r` is. -/
theorem deg_real_nonneg (r : EReal) : ∃ d : ℝ, 0 ≤ d ∧ deg r = (d : EReal) := by
  induction r using EReal.rec with
  | bot =>
    have h0 : ¬ (0 : EReal) < ⊥ := not_lt_bot
    exact ⟨0, le_refl _, by rw [deg, if_neg h0, EReal.coe_zero]⟩
  | top =>
    refine ⟨0, le_refl _, ?_⟩
    have h0 : (0 : EReal) < ⊤ := EReal.zero_lt_top
    have hne : (⊤ : EReal) ≠ 0 := EReal.top_ne_zero
    rw [deg, if_pos h0, Ideal.sqrt_top, Ideal.div, if_neg hne, EReal.inv_top, mul_zero, EReal.coe_zero]
  | coe r =>
    by_cases hr : 0 < r
    · have hs : 0 < Real.sqrt r := Real.sqrt_pos.2 hr
      refine ⟨(Real.sqrt r)⁻¹, le_of_lt (inv_pos.2 hs), ?_⟩
      have h0 : (0 : EReal) < (r : EReal) := EReal.coe_pos.2 hr
      have hne : ((Real.sqrt r : ℝ) : EReal) ≠ 0 := by
        intro h
        exact (ne_of_gt hs) (EReal.coe_eq_zero.1 h)
      have hnlt : ¬ r < 0 := not_lt.2 (le_of_lt hr)
      rw [deg, if_pos h0, Ideal.sqrt_coe, if_neg hnlt, Ideal.div, if_neg hne, one_mul]
      exact (EReal.coe_inv _).symm
    · have h0 : ¬ (0 : EReal) < (r : EReal) := fun h => hr (EReal.coe_pos.1 h)
      exact ⟨0, le_refl _, by rw [deg, if_neg h0, EReal.coe_zero]⟩

/-- The normalising factor of each node is the coercion of a nonnegative real. -/
theorem dis_real_nonneg (A : Fin 4096 → Fin 4096 → EReal) (i : Fin 4096) :
    ∃ d : ℝ, 0 ≤ d ∧ dis A i = (d : EReal) := deg_real_nonneg _

/-- A nonnegative real factor distributes over a finite sum of extended reals. -/
theorem sum_mul_nonneg_real {ι : Type*} (s : Finset ι) (f : ι → EReal) (d : ℝ) (hd : 0 ≤ d) :
    (∑ j ∈ s, f j) * (d : EReal) = ∑ j ∈ s, f j * (d : EReal) := by
  classical
  induction s using Finset.induction_on with
  | empty => simp
  | insert a s ha ih =>
    rw [Finset.sum_insert ha, Finset.sum_insert ha,
      EReal.right_distrib_of_nonneg_of_ne_top (EReal.coe_nonneg.2 hd) (EReal.coe_ne_top d), ih]

variable (A : Fin 4096 → Fin 4096 → EReal) (X : Fin 4096 → Fin 256 → EReal) (W1 : Fin 256 → Fin 256 → EReal)
  (Wm Ws : Fin 256 → Fin 128 → EReal)

/-- The key identity: scaling rows by `d` before and after a product with `A` is a product with `Â`. -/
theorem factored_eq_normalised (t : Fin 4096 → EReal) (i : Fin 4096) :
    (∑ j, A i j * (t j * dis A j)) * dis A i = ∑ j, adjN A i j * t j := by
  obtain ⟨d, hd, hdi⟩ := dis_real_nonneg A i
  rw [hdi, sum_mul_nonneg_real _ _ d hd]
  refine Finset.sum_congr rfl fun j _ => ?_
  unfold adjN
  rw [hdi]
  ac_rfl

theorem hidF_eq_hidN (i : Fin 4096) (k : Fin 256) : hidF A X W1 i k = hidN A X W1 i k := by
  unfold hidF hidN s1
  rw [factored_eq_normalised A (fun j => xw X W1 j k) i]

/-- Every column of the factored output, in normalised form. -/
theorem outF_eq (i : Fin 4096) (c : Fin 256) :
    outF A X W1 Wm Ws i c = ∑ j, adjN A i j * ∑ k, hidN A X W1 j k * wcat Wm Ws k c := by
  unfold outF s2
  rw [factored_eq_normalised A (fun j => ∑ k, hidF A X W1 j k * wcat Wm Ws k c) i]
  refine Finset.sum_congr rfl fun j _ => ?_
  congr 1
  refine Finset.sum_congr rfl fun k _ => ?_
  rw [hidF_eq_hidN]

theorem wcat_lo (k : Fin 256) (c : Fin 128) :
    wcat Wm Ws k ⟨c.val, by have := c.isLt; omega⟩ = Wm k c := by
  unfold wcat
  rw [dif_pos c.isLt]

theorem wcat_hi (k : Fin 256) (c : Fin 128) :
    wcat Wm Ws k ⟨128 + c.val, by have := c.isLt; omega⟩ = Ws k c := by
  unfold wcat
  have h : ¬ (128 + c.val < 128) := by omega
  rw [dif_neg h]
  congr 1
  apply Fin.ext
  simp

/-- The mean output: the factored and the normalised forms agree (for every input). -/
theorem meanF_eq_meanN' : meanF A X W1 Wm Ws = meanN A X W1 Wm := by
  funext i c
  unfold meanF meanN
  rw [outF_eq]
  refine Finset.sum_congr rfl fun j _ => ?_
  congr 1
  refine Finset.sum_congr rfl fun k _ => ?_
  rw [wcat_lo]

/-- The log-deviation output: the factored and the normalised forms agree (for every input). -/
theorem logF_eq_logN' : logF A X W1 Wm Ws = logN A X W1 Ws := by
  funext i c
  unfold logF logN
  rw [outF_eq]
  refine Finset.sum_congr rfl fun j _ => ?_
  congr 1
  refine Finset.sum_congr rfl fun k _ => ?_
  rw [wcat_hi]

/-- The mean output agrees when every entry is a real number (the hypotheses are not needed: the identity holds for
    all extended-real inputs). -/
theorem meanF_eq_meanN (hA : ∀ i j, ∃ r : ℝ, A i j = (r : EReal)) (hX : ∀ i j, ∃ r : ℝ, X i j = r)
    (hW1 : ∀ i j, ∃ r : ℝ, W1 i j = r) (hWm : ∀ i j, ∃ r : ℝ, Wm i j = r) (hWs : ∀ i j, ∃ r : ℝ, Ws i j = r) :
    meanF A X W1 Wm Ws = meanN A X W1 Wm := meanF_eq_meanN' A X W1 Wm Ws

/-- The log-deviation output agrees when every entry is a real number (again for all inputs in fact). -/
theorem logF_eq_logN (hA : ∀ i j, ∃ r : ℝ, A i j = (r : EReal)) (hX : ∀ i j, ∃ r : ℝ, X i j = r)
    (hW1 : ∀ i j, ∃ r : ℝ, W1 i j = r) (hWm : ∀ i j, ∃ r : ℝ, Wm i j = r) (hWs : ∀ i j, ∃ r : ℝ, Ws i j = r) :
    logF A X W1 Wm Ws = logN A X W1 Ws := logF_eq_logN' A X W1 Wm Ws

end Cert.GraphConv

end
-- ==== Proof.RefRun.lean ====
/-
  The reference's run, re-posted: its two results are the FACTORED form of the graph convolution of the kernel's
  argument arrays. The reference computes the normalised form of its own arguments; the two memories agree on the
  arguments, and the factored and the normalised forms are equal.
-/
import proofs.«100562_g89885075570807_cont_sun_c4_768_27_alg».proof.Defs
import proofs.«100562_g89885075570807_cont_sun_c4_768_27_alg».proof.Proof.Gen.ReferenceIdeal.Run
import proofs.«100562_g89885075570807_cont_sun_c4_768_27_alg».proof.Proof.Gen.ReferenceIdeal.Read
import proofs.«100562_g89885075570807_cont_sun_c4_768_27_alg».proof.Proof.Gen.ReferenceIdeal
import proofs.«100562_g89885075570807_cont_sun_c4_768_27_alg».proof.Proof.RefSide
import proofs.«100562_g89885075570807_cont_sun_c4_768_27_alg».proof.Proof.Algebra
import proofs.«100562_g89885075570807_cont_sun_c4_768_27_alg».proof.Proof.Blocks

noncomputable section

namespace Cert.GraphConv.RefRun

open Idealize.ShloMosaic Idealize.SL.Sem Idealize.ShloMosaic.ValueIdx Cert.GraphConv.Blocks Cert.GraphConv.RefSide

/-- From memories agreeing on the five arguments, the reference runs and ends with its mean result the factored
    mean and its log-deviation result the factored log-deviation of the kernel's argument arrays, its own
    arguments unchanged. -/
theorem ref_run
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (g' : Dev Cert.ReferenceIdeal.nD → PrngReg)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) :
    θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = (fun i => meanF (argA m c) (argX m c) (argW1 m c) (argWm m c) (argWs m c) (i 0) (i 1))
          ∧ r.2.mem ((c.tc : Thread Cert.ReferenceIdeal.nD Cert.ReferenceIdeal.τ).loc Cert.ReferenceIdeal.main_v19) = (fun i => logF (argA m c) (argX m c) (argW1 m c) (argWm m c) (argWs m c) (i 0) (i 1))
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)) := by
  refine (θ_run (Cert.ReferenceIdeal.defs (F := Ideal)) _ _).mono (fun r h c => ?_) (Cert.ReferenceIdeal.Value.run (F := Ideal) m' g')
  obtain ⟨h17, h19, hrest⟩ := h c
  obtain ⟨e0, e1, e2, e3, e4⟩ := hagree c
  refine ⟨?_, ?_, hrest⟩
  · refine h17.trans ((ref_mean _ _ _ _).trans ?_)
    rw [e0, e1, e2, e3]
    funext i
    exact (congrFun (congrFun (meanF_eq_meanN' (argA m c) (argX m c) (argW1 m c) (argWm m c) (argWs m c)) (i 0)) (i 1)).symm
  · refine h19.trans ((ref_log _ _ _ _).trans ?_)
    rw [e0, e1, e2, e4]
    funext i
    exact (congrFun (congrFun (logF_eq_logN' (argA m c) (argX m c) (argW1 m c) (argWm m c) (argWs m c)) (i 0)) (i 1)).symm

end Cert.GraphConv.RefRun

end
-- ==== Proof.lean ====
/-
  The certificate of the two-layer graph convolution kernel against its reference.

  The kernel never forms the normalised adjacency matrix: with `d = deg (row sums)` it scales rows before and after
  each product with the matrix (the factored form of Proof/Spec.lean), in one region of sixteen points that keeps a
  resident copy of the matrix, the factors and both supports in scratch buffers. The reference builds the normalised
  matrix and multiplies (the normalised form). The two forms agree on all extended reals, because `deg` is always a
  nonnegative real and such a factor moves across a finite sum (Proof/Algebra.lean); so the precondition is not used.

  * the three frames: the kernel's body obligation is proved once for every float instance (Proof/Body/, and the same
    text for the word-level program under Proof/BodyBits/), the reference's frame is its generated run with the results
    dropped;
  * the idealization rewrote nothing, so it preserves the kernel trivially;
  * the results: the kernel's run read at the arrays (Proof/KernelRun.lean over Proof/Final.lean, Proof/Value.lean,
    Proof/Payloads.lean, Proof/Blocks.lean) and the reference's generated run read stage by stage (Proof/RefSide.lean,
    Proof/RefRun.lean) are the same function of the arguments.
-/
import proofs.«100562_g89885075570807_cont_sun_c4_768_27_alg».proof.Defs
import proofs.«100562_g89885075570807_cont_sun_c4_768_27_alg».proof.Proof.Gen.Kernel
import proofs.«100562_g89885075570807_cont_sun_c4_768_27_alg».proof.Proof.Gen.KernelIdeal
import proofs.«100562_g89885075570807_cont_sun_c4_768_27_alg».proof.Proof.Gen.ReferenceIdeal
import proofs.«100562_g89885075570807_cont_sun_c4_768_27_alg».proof.Proof.Gen.ReferenceIdeal.Run
import proofs.«100562_g89885075570807_cont_sun_c4_768_27_alg».proof.Proof.Gen.Pre_finite_inputs
import proofs.«100562_g89885075570807_cont_sun_c4_768_27_alg».proof.Proof.Body.Obligation
import proofs.«100562_g89885075570807_cont_sun_c4_768_27_alg».proof.Proof.BodyBits.Obligation
import proofs.«100562_g89885075570807_cont_sun_c4_768_27_alg».proof.Proof.KernelRun
import proofs.«100562_g89885075570807_cont_sun_c4_768_27_alg».proof.Proof.RefRun
import Idealize.ShloMosaic.Adequacy
import Idealize.ShloMosaic.Init

noncomputable section

namespace Cert.Proof

open Idealize.ShloMosaic Idealize.SL.Sem

theorem frame_kernel : Cert.frame_Kernel (hKernel := Cert.Kernel.Gen.facts) (hPre_finite_inputs := Cert.Pre_finite_inputs.Gen.facts) :=
  fun m ρ _ => Cert.Kernel.Body.frame m ρ

theorem frame_kernelIdeal : Cert.frame_KernelIdeal (hKernelIdeal := Cert.KernelIdeal.Gen.facts) (hPre_finite_inputs := Cert.Pre_finite_inputs.Gen.facts) :=
  fun m ρ _ => Cert.KernelIdeal.Body.frame m ρ

theorem frame_referenceIdeal : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2) (Cert.ReferenceIdeal.Value.run (F := Ideal) m ρ)

theorem algebraic : Cert.algebraic_KernelIdeal_ReferenceIdeal (hKernelIdeal := Cert.KernelIdeal.Gen.facts) (hReferenceIdeal := Cert.ReferenceIdeal.Gen.facts)
    (hPre_finite_inputs := Cert.Pre_finite_inputs.Gen.facts) :=
  fun m ρ m' ρ' _ hagree => ⟨_, _, Cert.GraphConv.KernelRun.run m ρ, Cert.GraphConv.RefRun.ref_run m m' ρ' hagree⟩

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
